-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v245) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S32768x1024 : Shape := ⟨2, ![32768, 1024]⟩
abbrev S128x128 : Shape := ⟨2, ![128, 128]⟩
abbrev S128x12 : Shape := ⟨2, ![128, 12]⟩
abbrev S128x4 : Shape := ⟨2, ![128, 4]⟩
abbrev S128 : Shape := ⟨1, ![128]⟩

class Facts : Prop where
  reducesTo_S_S_d : S_.ReducesTo [] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S128x128 : S_.BroadcastsInDim S128x128 (![] : Fin 0 → Fin S128x128.rank)
  reducesTo_S128x128_S_d0_1 : S128x128.ReducesTo [0, 1] S_
  bcast_S_S128x12 : S_.BroadcastsInDim S128x12 (![] : Fin 0 → Fin S128x12.rank)
  reducesTo_S128x12_S_d0_1 : S128x12.ReducesTo [0, 1] S_
  bcast_S_S128x4 : S_.BroadcastsInDim S128x4 (![] : Fin 0 → Fin S128x4.rank)
  reducesTo_S128x4_S_d0_1 : S128x4.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x4 .f32) (main_arg5 : FVec F S128 .f32) (main_arg6 : FVec F S128 .f32) (main_v12 : IVec S_ 1) (main_v15 : IVec S128x12 1) (main_c_5 : IVec S_ 1) : IVec S_ 1 :=
  let main_v16 : IVec S_ 1 := (fun x v => Host.reduce IntOp.andi x v reducesTo_S128x12_S_d0_1 h_S_) main_v15 main_c_5
  let main_v17 : IVec S_ 1 := andi main_v12 main_v16
  let main_v18 : FVec F S128x4 .f32 := Host.absf main_arg4
  let main_cst_6 : FVec F S_ .f32 := constant S_ .f32 0x7F800000#32
  let main_v19 : FVec F S128x4 .f32 := broadcastInDim S128x4 ![] bcast_S_S128x4 main_cst_6
  let main_v20 : IVec S128x4 1 := cmpf .olt main_v18 main_v19
  let main_c_7 : IVec S_ 1 := constantI S_ 1 1#1
  let main_v21 : IVec S_ 1 := (fun x v => Host.reduce IntOp.andi x v reducesTo_S128x4_S_d0_1 h_S_) main_v20 main_c_7
  let main_v22 : IVec S_ 1 := andi main_v17 main_v21
  let main_v23 : FVec F S128 .f32 := Host.absf main_arg5
  let main_cst_8 : FVec F S_ .f32 := constant S_ .f32 0x7F800000#32
  let main_v24 : FVec F S128 .f32 := broadcastInDim S128 ![] bcast_S_S128 main_cst_8
  let main_v25 : IVec S128 1 := cmpf .olt main_v23 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v22 main_v26
  let main_v28 : FVec F S128 .f32 := Host.absf main_arg6
  let main_cst_10 : FVec F S_ .f32 := constant S_ .f32 0x7F800000#32
  let main_v29 : FVec F S128 .f32 := broadcastInDim S128 ![] bcast_S_S128 main_cst_10
  let main_v30 : IVec S128 1 := cmpf .olt main_v28 main_v29
  let main_c_11 : IVec S_ 1 := constantI S_ 1 1#1
  let main_v31 : IVec S_ 1 := (fun x v => Host.reduce IntOp.andi x v reducesTo_S128_S_d0 h_S_) main_v30 main_c_11
  let main_v32 : IVec S_ 1 := andi main_v27 main_v31
  main_v32

def fn {F : FTy → Type} [FloatOps F] (main_arg0 : FVec F S_ .f32) (main_arg1 : FVec F S32768x1024 .f32) (main_arg2 : FVec F S128x128 .f32) (main_arg3 : FVec F S128x12 .f32) (main_arg4 : FVec F S128x4 .f32) (main_arg5 : FVec F S128 .f32) (main_arg6 : FVec F S128 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S32768x1024 .f32 := Host.absf main_arg1
  let main_cst_0 : FVec F S_ .f32 := constant S_ .f32 0x7F800000#32
  let main_v4 : FVec F S32768x1024 .f32 := broadcastInDim S32768x1024 ![] bcast_S_S32768x1024 main_cst_0
  let main_v5 : IVec S32768x1024 1 := cmpf .olt main_v3 main_v4
  let main_c_1 : IVec S_ 1 := constantI S_ 1 1#1
  let main_v6 : IVec S_ 1 := (fun x v => Host.reduce IntOp.andi x v reducesTo_S32768x1024_S_d0_1 h_S_) main_v5 main_c_1
  let main_v7 : IVec S_ 1 := andi main_v2 main_v6
  let main_v8 : FVec F S128x128 .f32 := Host.absf main_arg2
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  let main_c_3 : IVec S_ 1 := constantI S_ 1 1#1
  let main_v11 : IVec S_ 1 := (fun x v => Host.reduce IntOp.andi x v reducesTo_S128x128_S_d0_1 h_S_) main_v10 main_c_3
  let main_v12 : IVec S_ 1 := andi main_v7 main_v11
  let main_v13 : FVec F S128x12 .f32 := Host.absf main_arg3
  let main_cst_4 : FVec F S_ .f32 := constant S_ .f32 0x7F800000#32
  let main_v14 : FVec F S128x12 .f32 := broadcastInDim S128x12 ![] bcast_S_S128x12 main_cst_4
  let main_v15 : IVec S128x12 1 := cmpf .olt main_v13 main_v14
  let main_c_5 : IVec S_ 1 := constantI S_ 1 1#1
  fn_part1 (F := F) main_arg4 main_arg5 main_arg6 main_v12 main_v15 main_c_5
-- ==== Kernel.lean ====
abbrev S_ : Shape := ⟨0, ![]⟩
abbrev S32768x1024 : Shape := ⟨2, ![32768, 1024]⟩
abbrev S128x128 : Shape := ⟨2, ![128, 128]⟩
abbrev S128x12 : Shape := ⟨2, ![128, 12]⟩
abbrev S128x4 : Shape := ⟨2, ![128, 4]⟩
abbrev S128 : Shape := ⟨1, ![128]⟩
abbrev S1x128 : Shape := ⟨2, ![1, 128]⟩
abbrev S12x128 : Shape := ⟨2, ![12, 128]⟩
abbrev S4x128 : Shape := ⟨2, ![4, 128]⟩
abbrev S256x1024 : Shape := ⟨2, ![256, 1024]⟩
abbrev S256x128x8 : Shape := ⟨3, ![256, 128, 8]⟩
abbrev S256x8x128 : Shape := ⟨3, ![256, 8, 128]⟩
abbrev S256x1x128 : Shape := ⟨3, ![256, 1, 128]⟩
abbrev S256x128 : Shape := ⟨2, ![256, 128]⟩

abbrev nBuf : Space → Nat
  | .hbm => 36
  | .vmem => 9
  | .smem => 0
  | _ => 0

abbrev bufTy : (tb : Table) → Fin (tcTables nBuf tb) → BufTy
  | .hbm, ⟨0, _⟩ => ⟨S_, .f32⟩
  | .hbm, ⟨1, _⟩ => ⟨S32768x1024, .f32⟩
  | .hbm, ⟨2, _⟩ => ⟨S128x128, .f32⟩
  | .hbm, ⟨3, _⟩ => ⟨S128x12, .f32⟩
  | .hbm, ⟨4, _⟩ => ⟨S128x4, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S1x128, .f32⟩
  | .hbm, ⟨19, _⟩ => ⟨S1x128, .f32⟩
  | .hbm, ⟨20, _⟩ => ⟨S12x128, .f32⟩
  | .hbm, ⟨21, _⟩ => ⟨S4x128, .f32⟩
  | .hbm, ⟨22, _⟩ => ⟨S128x128, .i32⟩
  | .hbm, ⟨23, _⟩ => ⟨S128x128, .i32⟩
  | .hbm, ⟨24, _⟩ => ⟨S_, .i32⟩
  | .hbm, ⟨25, _⟩ => ⟨S128x128, .i32⟩
  | .hbm, ⟨26, _⟩ => ⟨S128x128, .i32⟩
  | .hbm, ⟨27, _⟩ => ⟨S128x128, .i1⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .bf16⟩
  | .hbm, ⟨35, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x128, .f32⟩
  | .local _ .vmem, ⟨3, _⟩ => ⟨S12x128, .f32⟩
  | .local _ .vmem, ⟨4, _⟩ => ⟨S4x128, .f32⟩
  | .local _ .vmem, ⟨5, _⟩ => ⟨S1x128, .f32⟩
  | .local _ .vmem, ⟨6, _⟩ => ⟨S128x128, .bf16⟩
  | .local _ .vmem, ⟨7, _⟩ => ⟨S256x1024, .f32⟩
  | .local _ .vmem, ⟨8, _⟩ => ⟨S256x1024, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S128 : S_.BroadcastsInDim S128 (![] : Fin 0 → Fin S128.rank)
  shapeCasts_S128_S1x128 : S128.ShapeCasts S1x128
  transposes_S128x12_S12x128_1_0 : S128x12.Transposes [1, 0] S12x128
  transposes_S128x4_S4x128_1_0 : S128x4.Transposes [1, 0] S4x128
  bcast_S_S128x128 : S_.BroadcastsInDim S128x128 (![] : Fin 0 → Fin S128x128.rank)
  transposes_S128x128_S128x128_1_0 : S128x128.Transposes [1, 0] S128x128
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x128x8 : S256x1024.ShapeCasts S256x128x8
  transposes_S256x128x8_p0_2_1_S256x8x128 : S256x128x8.Transposes [0, 2, 1] S256x8x128
  slices_S256x8x128_o0_0_0_S256x1x128 : S256x8x128.Slices ![0, 0, 0] S256x1x128
  shapeCasts_S256x1x128_S256x128 : S256x1x128.ShapeCasts S256x128
  slices_S256x8x128_o0_1_0_S256x1x128 : S256x8x128.Slices ![0, 1, 0] S256x1x128
  slices_S256x8x128_o0_2_0_S256x1x128 : S256x8x128.Slices ![0, 2, 0] S256x1x128
  slices_S256x8x128_o0_3_0_S256x1x128 : S256x8x128.Slices ![0, 3, 0] S256x1x128
  slices_S256x8x128_o0_4_0_S256x1x128 : S256x8x128.Slices ![0, 4, 0] S256x1x128
  slices_S256x8x128_o0_5_0_S256x1x128 : S256x8x128.Slices ![0, 5, 0] S256x1x128
  slices_S256x8x128_o0_6_0_S256x1x128 : S256x8x128.Slices ![0, 6, 0] S256x1x128
  slices_S256x8x128_o0_7_0_S256x1x128 : S256x8x128.Slices ![0, 7, 0] S256x1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S12x128_S12x128_0_0 : ∀ a, (![0, 0] : Fin 2 → Nat) a + S12x128.size a ≤ S12x128.size a
  h_S12x128 : 0 < S12x128.numel
  shapeCasts_S12x128_S12x128 : S12x128.ShapeCasts S12x128
  slices_S12x128_o0_0_S1x128 : S12x128.Slices ![0, 0] S1x128
  slices_S12x128_o1_0_S1x128 : S12x128.Slices ![1, 0] S1x128
  slices_S12x128_o2_0_S1x128 : S12x128.Slices ![2, 0] S1x128
  slices_S12x128_o3_0_S1x128 : S12x128.Slices ![3, 0] S1x128
  slices_S12x128_o4_0_S1x128 : S12x128.Slices ![4, 0] S1x128
  slices_S12x128_o5_0_S1x128 : S12x128.Slices ![5, 0] S1x128
  slices_S12x128_o6_0_S1x128 : S12x128.Slices ![6, 0] S1x128
  slices_S12x128_o7_0_S1x128 : S12x128.Slices ![7, 0] S1x128
  slices_S12x128_o8_0_S1x128 : S12x128.Slices ![8, 0] S1x128
  slices_S12x128_o9_0_S1x128 : S12x128.Slices ![9, 0] S1x128
  slices_S12x128_o10_0_S1x128 : S12x128.Slices ![10, 0] S1x128
  slices_S12x128_o11_0_S1x128 : S12x128.Slices ![11, 0] S1x128
  inb_S4x128_S4x128_0_0 : ∀ a, (![0, 0] : Fin 2 → Nat) a + S4x128.size a ≤ S4x128.size a
  h_S4x128 : 0 < S4x128.numel
  shapeCasts_S4x128_S4x128 : S4x128.ShapeCasts S4x128
  slices_S4x128_o0_0_S1x128 : S4x128.Slices ![0, 0] S1x128
  slices_S4x128_o1_0_S1x128 : S4x128.Slices ![1, 0] S1x128
  slices_S4x128_o2_0_S1x128 : S4x128.Slices ![2, 0] S1x128
  slices_S4x128_o3_0_S1x128 : S4x128.Slices ![3, 0] S1x128
  shapeCasts_S256x128_S256x1x128 : S256x128.ShapeCasts S256x1x128
  concatenates_S256x1x128_S256x1x128_S256x1x128_S256x1x128_S256x1x128_S256x1x128_S256x1x128_S256x1x128_S256x8x128_d1 : Shape.Concatenates [S256x1x128, S256x1x128, S256x1x128, S256x1x128, S256x1x128, S256x1x128, S256x1x128, S256x1x128] S256x8x128 1
  transposes_S256x8x128_p0_2_1_S256x128x8 : S256x8x128.Transposes [0, 2, 1] S256x128x8
  shapeCasts_S256x128x8_S256x1024 : S256x128x8.ShapeCasts S256x1024
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x128.size a ≤ S12x128.size a
  hwx0_2 : ∀ i : grid0.Coords, EltTy.bits .f32 = 32 ∨ (Rect.block (s := S12x128) S12x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .f32 = 32 ∨ (Rect.block (s := S4x128) S4x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S32768x1024.size a
  hwx0_6 : ∀ i : grid0.Coords, EltTy.bits .f32 = 32 ∨ (Rect.block (s := S32768x1024) S256x1024.size (cc0_transform_6 i) (hinb0_6 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S12x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S_ : Shape := ⟨0, ![]⟩
abbrev S32768x1024 : Shape := ⟨2, ![32768, 1024]⟩
abbrev S128x128 : Shape := ⟨2, ![128, 128]⟩
abbrev S128x12 : Shape := ⟨2, ![128, 12]⟩
abbrev S128x4 : Shape := ⟨2, ![128, 4]⟩
abbrev S128 : Shape := ⟨1, ![128]⟩
abbrev S32768x128x8 : Shape := ⟨3, ![32768, 128, 8]⟩
abbrev S1x128x1 : Shape := ⟨3, ![1, 128, 1]⟩
abbrev S32768x128 : Shape := ⟨2, ![32768, 128]⟩
abbrev S128x1 : Shape := ⟨2, ![128, 1]⟩
abbrev S32768x128x1 : Shape := ⟨3, ![32768, 128, 1]⟩
abbrev S1x128 : Shape := ⟨2, ![1, 128]⟩

abbrev nBuf : Space → Nat
  | .hbm => 274
  | .vmem => 0
  | .smem => 0
  | _ => 0

abbrev hbmTy0_0 (i : Nat) : BufTy := match i % 128 with
  | 0 => ⟨S_, .f32⟩
  | 1 => ⟨S32768x1024, .f32⟩
  | 2 => ⟨S128x128, .f32⟩
  | 3 => ⟨S128x12, .f32⟩
  | 4 => ⟨S128x4, .f32⟩
  | 5 => ⟨S128, .f32⟩
  | 6 => ⟨S128, .f32⟩
  | 7 => ⟨S_, .f32⟩
  | 8 => ⟨S_, .f32⟩
  | 9 => ⟨S_, .f32⟩
  | 10 => ⟨S32768x1024, .f32⟩
  | 11 => ⟨S32768x1024, .f32⟩
  | 12 => ⟨S_, .f32⟩
  | 13 => ⟨S32768x1024, .f32⟩
  | 14 => ⟨S32768x1024, .f32⟩
  | 15 => ⟨S32768x128x8, .f32⟩
  | 16 => ⟨S1x128x1, .f32⟩
  | 17 => ⟨S32768x128x8, .f32⟩
  | 18 => ⟨S32768x128x8, .f32⟩
  | 19 => ⟨S32768x128x8, .f32⟩
  | 20 => ⟨S32768x128x8, .f32⟩
  | 21 => ⟨S_, .f32⟩
  | 22 => ⟨S32768x128x8, .f32⟩
  | 23 => ⟨S32768x128x8, .f32⟩
  | 24 => ⟨S_, .f32⟩
  | 25 => ⟨S32768x128x8, .f32⟩
  | 26 => ⟨S32768x128x8, .f32⟩
  | 27 => ⟨S_, .f32⟩
  | 28 => ⟨S32768x128x8, .f32⟩
  | 29 => ⟨S32768x128x8, .f32⟩
  | 30 => ⟨S_, .f32⟩
  | 31 => ⟨S32768x128, .f32⟩
  | 32 => ⟨S_, .f32⟩
  | 33 => ⟨S32768x128, .f32⟩
  | 34 => ⟨S32768x128, .f32⟩
  | 35 => ⟨S128x128, .i32⟩
  | 36 => ⟨S128x128, .i32⟩
  | 37 => ⟨S_, .i32⟩
  | 38 => ⟨S128x128, .i32⟩
  | 39 => ⟨S128x128, .i32⟩
  | 40 => ⟨S128x128, .i1⟩
  | 41 => ⟨S128x128, .f32⟩
  | 42 => ⟨S_, .f32⟩
  | 43 => ⟨S128x128, .f32⟩
  | 44 => ⟨S128x128, .f32⟩
  | 45 => ⟨S128x128, .f32⟩
  | 46 => ⟨S32768x128, .f32⟩
  | 47 => ⟨S128, .f32⟩
  | 48 => ⟨S128, .f32⟩
  | 49 => ⟨S_, .f32⟩
  | 50 => ⟨S128, .f32⟩
  | 51 => ⟨S128, .f32⟩
  | 52 => ⟨S_, .f32⟩
  | 53 => ⟨S128, .f32⟩
  | 54 => ⟨S128, .f32⟩
  | 55 => ⟨S_, .f32⟩
  | 56 => ⟨S128, .f32⟩
  | 57 => ⟨S128, .f32⟩
  | 58 => ⟨S128x1, .f32⟩
  | 59 => ⟨S128, .f32⟩
  | 60 => ⟨S128, .f32⟩
  | 61 => ⟨S32768x128x1, .f32⟩
  | 62 => ⟨S32768x128, .f32⟩
  | 63 => ⟨S1x128, .f32⟩
  | 64 => ⟨S32768x128, .f32⟩
  | 65 => ⟨S32768x128, .f32⟩
  | 66 => ⟨S128x1, .f32⟩
  | 67 => ⟨S128, .f32⟩
  | 68 => ⟨S32768x128x1, .f32⟩
  | 69 => ⟨S32768x128, .f32⟩
  | 70 => ⟨S1x128, .f32⟩
  | 71 => ⟨S32768x128, .f32⟩
  | 72 => ⟨S32768x128, .f32⟩
  | 73 => ⟨S32768x128, .f32⟩
  | 74 => ⟨S128x1, .f32⟩
  | 75 => ⟨S128, .f32⟩
  | 76 => ⟨S32768x128x1, .f32⟩
  | 77 => ⟨S32768x128, .f32⟩
  | 78 => ⟨S1x128, .f32⟩
  | 79 => ⟨S32768x128, .f32⟩
  | 80 => ⟨S32768x128, .f32⟩
  | 81 => ⟨S32768x128, .f32⟩
  | 82 => ⟨S32768x128, .f32⟩
  | 83 => ⟨S32768x128x1, .f32⟩
  | 84 => ⟨S32768x128, .f32⟩
  | 85 => ⟨S_, .f32⟩
  | 86 => ⟨S32768x128, .f32⟩
  | 87 => ⟨S32768x128, .f32⟩
  | 88 => ⟨S32768x128, .f32⟩
  | 89 => ⟨S32768x128x1, .f32⟩
  | 90 => ⟨S32768x128, .f32⟩
  | 91 => ⟨S128x1, .f32⟩
  | 92 => ⟨S128, .f32⟩
  | 93 => ⟨S1x128, .f32⟩
  | 94 => ⟨S32768x128, .f32⟩
  | 95 => ⟨S32768x128, .f32⟩
  | 96 => ⟨S32768x128, .f32⟩
  | 97 => ⟨S1x128, .f32⟩
  | 98 => ⟨S32768x128, .f32⟩
  | 99 => ⟨S32768x128, .f32⟩
  | 100 => ⟨S128x1, .f32⟩
  | 101 => ⟨S128, .f32⟩
  | 102 => ⟨S1x128, .f32⟩
  | 103 => ⟨S32768x128, .f32⟩
  | 104 => ⟨S32768x128, .f32⟩
  | 105 => ⟨S128x1, .f32⟩
  | 106 => ⟨S128, .f32⟩
  | 107 => ⟨S32768x128x1, .f32⟩
  | 108 => ⟨S32768x128, .f32⟩
  | 109 => ⟨S1x128, .f32⟩
  | 110 => ⟨S32768x128, .f32⟩
  | 111 => ⟨S32768x128, .f32⟩
  | 112 => ⟨S128x1, .f32⟩
  | 113 => ⟨S128, .f32⟩
  | 114 => ⟨S32768x128x1, .f32⟩
  | 115 => ⟨S32768x128, .f32⟩
  | 116 => ⟨S1x128, .f32⟩
  | 117 => ⟨S32768x128, .f32⟩
  | 118 => ⟨S32768x128, .f32⟩
  | 119 => ⟨S32768x128, .f32⟩
  | 120 => ⟨S128x1, .f32⟩
  | 121 => ⟨S128, .f32⟩
  | 122 => ⟨S32768x128x1, .f32⟩
  | 123 => ⟨S32768x128, .f32⟩
  | 124 => ⟨S1x128, .f32⟩
  | 125 => ⟨S32768x128, .f32⟩
  | 126 => ⟨S32768x128, .f32⟩
  | 127 => ⟨S32768x128, .f32⟩
  | _ => ⟨S_, .f32⟩

abbrev hbmTy0_1 (i : Nat) : BufTy := match i % 128 with
  | 0 => ⟨S32768x128, .f32⟩
  | 1 => ⟨S32768x128x1, .f32⟩
  | 2 => ⟨S32768x128, .f32⟩
  | 3 => ⟨S_, .f32⟩
  | 4 => ⟨S32768x128, .f32⟩
  | 5 => ⟨S32768x128, .f32⟩
  | 6 => ⟨S32768x128, .f32⟩
  | 7 => ⟨S32768x128x1, .f32⟩
  | 8 => ⟨S32768x128, .f32⟩
  | 9 => ⟨S128x1, .f32⟩
  | 10 => ⟨S128, .f32⟩
  | 11 => ⟨S1x128, .f32⟩
  | 12 => ⟨S32768x128, .f32⟩
  | 13 => ⟨S32768x128, .f32⟩
  | 14 => ⟨S32768x128, .f32⟩
  | 15 => ⟨S1x128, .f32⟩
  | 16 => ⟨S32768x128, .f32⟩
  | 17 => ⟨S32768x128, .f32⟩
  | 18 => ⟨S128x1, .f32⟩
  | 19 => ⟨S128, .f32⟩
  | 20 => ⟨S1x128, .f32⟩
  | 21 => ⟨S32768x128, .f32⟩
  | 22 => ⟨S32768x128, .f32⟩
  | 23 => ⟨S128x1, .f32⟩
  | 24 => ⟨S128, .f32⟩
  | 25 => ⟨S32768x128x1, .f32⟩
  | 26 => ⟨S32768x128, .f32⟩
  | 27 => ⟨S1x128, .f32⟩
  | 28 => ⟨S32768x128, .f32⟩
  | 29 => ⟨S32768x128, .f32⟩
  | 30 => ⟨S128x1, .f32⟩
  | 31 => ⟨S128, .f32⟩
  | 32 => ⟨S32768x128x1, .f32⟩
  | 33 => ⟨S32768x128, .f32⟩
  | 34 => ⟨S1x128, .f32⟩
  | 35 => ⟨S32768x128, .f32⟩
  | 36 => ⟨S32768x128, .f32⟩
  | 37 => ⟨S32768x128, .f32⟩
  | 38 => ⟨S128x1, .f32⟩
  | 39 => ⟨S128, .f32⟩
  | 40 => ⟨S32768x128x1, .f32⟩
  | 41 => ⟨S32768x128, .f32⟩
  | 42 => ⟨S1x128, .f32⟩
  | 43 => ⟨S32768x128, .f32⟩
  | 44 => ⟨S32768x128, .f32⟩
  | 45 => ⟨S32768x128, .f32⟩
  | 46 => ⟨S128x1, .f32⟩
  | 47 => ⟨S128, .f32⟩
  | 48 => ⟨S32768x128x1, .f32⟩
  | 49 => ⟨S32768x128, .f32⟩
  | 50 => ⟨S1x128, .f32⟩
  | 51 => ⟨S32768x128, .f32⟩
  | 52 => ⟨S32768x128, .f32⟩
  | 53 => ⟨S32768x128, .f32⟩
  | 54 => ⟨S32768x128, .f32⟩
  | 55 => ⟨S32768x128x1, .f32⟩
  | 56 => ⟨S32768x128, .f32⟩
  | 57 => ⟨S_, .f32⟩
  | 58 => ⟨S32768x128, .f32⟩
  | 59 => ⟨S32768x128, .f32⟩
  | 60 => ⟨S32768x128, .f32⟩
  | 61 => ⟨S32768x128x1, .f32⟩
  | 62 => ⟨S32768x128, .f32⟩
  | 63 => ⟨S128x1, .f32⟩
  | 64 => ⟨S128, .f32⟩
  | 65 => ⟨S1x128, .f32⟩
  | 66 => ⟨S32768x128, .f32⟩
  | 67 => ⟨S32768x128, .f32⟩
  | 68 => ⟨S32768x128, .f32⟩
  | 69 => ⟨S1x128, .f32⟩
  | 70 => ⟨S32768x128, .f32⟩
  | 71 => ⟨S32768x128, .f32⟩
  | 72 => ⟨S128x1, .f32⟩
  | 73 => ⟨S128, .f32⟩
  | 74 => ⟨S1x128, .f32⟩
  | 75 => ⟨S32768x128, .f32⟩
  | 76 => ⟨S32768x128, .f32⟩
  | 77 => ⟨S128x1, .f32⟩
  | 78 => ⟨S128, .f32⟩
  | 79 => ⟨S128, .f32⟩
  | 80 => ⟨S32768x128x1, .f32⟩
  | 81 => ⟨S32768x128, .f32⟩
  | 82 => ⟨S1x128, .f32⟩
  | 83 => ⟨S32768x128, .f32⟩
  | 84 => ⟨S32768x128, .f32⟩
  | 85 => ⟨S128x1, .f32⟩
  | 86 => ⟨S128, .f32⟩
  | 87 => ⟨S32768x128x1, .f32⟩
  | 88 => ⟨S32768x128, .f32⟩
  | 89 => ⟨S1x128, .f32⟩
  | 90 => ⟨S32768x128, .f32⟩
  | 91 => ⟨S32768x128, .f32⟩
  | 92 => ⟨S32768x128, .f32⟩
  | 93 => ⟨S32768x128, .f32⟩
  | 94 => ⟨S32768x128x1, .f32⟩
  | 95 => ⟨S32768x128, .f32⟩
  | 96 => ⟨S_, .f32⟩
  | 97 => ⟨S32768x128, .f32⟩
  | 98 => ⟨S32768x128, .f32⟩
  | 99 => ⟨S32768x128, .f32⟩
  | 100 => ⟨S32768x128x1, .f32⟩
  | 101 => ⟨S32768x128, .f32⟩
  | 102 => ⟨S128x1, .f32⟩
  | 103 => ⟨S128, .f32⟩
  | 104 => ⟨S1x128, .f32⟩
  | 105 => ⟨S32768x128, .f32⟩
  | 106 => ⟨S32768x128, .f32⟩
  | 107 => ⟨S32768x128, .f32⟩
  | 108 => ⟨S1x128, .f32⟩
  | 109 => ⟨S32768x128, .f32⟩
  | 110 => ⟨S32768x128, .f32⟩
  | 111 => ⟨S128x1, .f32⟩
  | 112 => ⟨S128, .f32⟩
  | 113 => ⟨S1x128, .f32⟩
  | 114 => ⟨S32768x128, .f32⟩
  | 115 => ⟨S32768x128, .f32⟩
  | 116 => ⟨S32768x128x1, .f32⟩
  | 117 => ⟨S32768x128, .f32⟩
  | 118 => ⟨S1x128, .f32⟩
  | 119 => ⟨S32768x128, .f32⟩
  | 120 => ⟨S32768x128, .f32⟩
  | 121 => ⟨S32768x128x1, .f32⟩
  | 122 => ⟨S32768x128, .f32⟩
  | 123 => ⟨S1x128, .f32⟩
  | 124 => ⟨S32768x128, .f32⟩
  | 125 => ⟨S32768x128, .f32⟩
  | 126 => ⟨S32768x128x1, .f32⟩
  | 127 => ⟨S32768x128, .f32⟩
  | _ => ⟨S_, .f32⟩

abbrev hbmTy0_2 (i : Nat) : BufTy := match i % 128 with
  | 0 => ⟨S1x128, .f32⟩
  | 1 => ⟨S32768x128, .f32⟩
  | 2 => ⟨S32768x128, .f32⟩
  | 3 => ⟨S32768x128x1, .f32⟩
  | 4 => ⟨S32768x128, .f32⟩
  | 5 => ⟨S1x128, .f32⟩
  | 6 => ⟨S32768x128, .f32⟩
  | 7 => ⟨S32768x128, .f32⟩
  | 8 => ⟨S32768x128x1, .f32⟩
  | 9 => ⟨S32768x128x1, .f32⟩
  | 10 => ⟨S32768x128x1, .f32⟩
  | 11 => ⟨S32768x128x1, .f32⟩
  | 12 => ⟨S32768x128x1, .f32⟩
  | 13 => ⟨S32768x128x1, .f32⟩
  | 14 => ⟨S32768x128x1, .f32⟩
  | 15 => ⟨S32768x128x1, .f32⟩
  | 16 => ⟨S32768x128x8, .f32⟩
  | 17 => ⟨S32768x1024, .f32⟩
  | _ => ⟨S_, .f32⟩

abbrev hbmTy (i : Nat) : BufTy := match i / 128 with
  | 0 => hbmTy0_0 i
  | 1 => hbmTy0_1 i
  | 2 => hbmTy0_2 i
  | _ => ⟨S_, .f32⟩

abbrev bufTy : (tb : Table) → Fin (tcTables nBuf tb) → BufTy
  | .hbm, ⟨i, _⟩ => hbmTy i
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_cst_8 : Ref sig .tc := ⟨.hbm, 52, rfl⟩
abbrev main_v30 : Ref sig .tc := ⟨.hbm, 53, rfl⟩
abbrev main_v31 : Ref sig .tc := ⟨.hbm, 54, rfl⟩
abbrev main_cst_9 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_11 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_cst_12 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_cst_13 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩

abbrev nD : Nat := 1
abbrev τ : Topo := Topo.v7x

variable {F : FTy → Type} [FloatOps F]

class Facts₀ : Prop where
  bcast_S_S32768x1024 : S_.BroadcastsInDim S32768x1024 (![] : Fin 0 → Fin S32768x1024.rank)
  shapeCasts_S32768x1024_S32768x128x8 : S32768x1024.ShapeCasts S32768x128x8
  bcast_S128_S1x128x1_1 : S128.BroadcastsInDim S1x128x1 (![1] : Fin 1 → Fin S1x128x1.rank)
  bcast_S1x128x1_S32768x128x8_0_1_2 : S1x128x1.BroadcastsInDim S32768x128x8 (![0, 1, 2] : Fin 3 → Fin S32768x128x8.rank)
  bcast_S_S32768x128x8 : S_.BroadcastsInDim S32768x128x8 (![] : Fin 0 → Fin S32768x128x8.rank)
  reducesTo_S32768x128x8_S32768x128_d2 : S32768x128x8.ReducesTo [2] S32768x128
  h_S_ : 0 < S_.numel
  bcast_S_S32768x128 : S_.BroadcastsInDim S32768x128 (![] : Fin 0 → Fin S32768x128.rank)
  bcast_S_S128x128 : S_.BroadcastsInDim S128x128 (![] : Fin 0 → Fin S128x128.rank)
  bcast_S_S128 : S_.BroadcastsInDim S128 (![] : Fin 0 → Fin S128.rank)
  slices_S128x12_S128x1_0_0 : S128x12.Slices ![0, 0] S128x1
  shapeCasts_S128x1_S128 : S128x1.ShapeCasts S128
  slices_S32768x128x8_S32768x128x1_0_0_0 : S32768x128x8.Slices ![0, 0, 0] S32768x128x1
  shapeCasts_S32768x128x1_S32768x128 : S32768x128x1.ShapeCasts S32768x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  slices_S128x12_S128x1_0_2 : S128x12.Slices ![0, 2] S128x1
  slices_S32768x128x8_S32768x128x1_0_0_4 : S32768x128x8.Slices ![0, 0, 4] S32768x128x1
  slices_S128x12_S128x1_0_1 : S128x12.Slices ![0, 1] S128x1
  slices_S32768x128x8_S32768x128x1_0_0_2 : S32768x128x8.Slices ![0, 0, 2] S32768x128x1
  slices_S32768x128x8_S32768x128x1_0_0_1 : S32768x128x8.Slices ![0, 0, 1] S32768x128x1
  slices_S128x4_S128x1_0_0 : S128x4.Slices ![0, 0] S128x1
  slices_S128x12_S128x1_0_7 : S128x12.Slices ![0, 7] S128x1
  slices_S128x12_S128x1_0_6 : S128x12.Slices ![0, 6] S128x1
  slices_S128x12_S128x1_0_11 : S128x12.Slices ![0, 11] S128x1
  slices_S32768x128x8_S32768x128x1_0_0_3 : S32768x128x8.Slices ![0, 0, 3] S32768x128x1
  slices_S128x4_S128x1_0_1 : S128x4.Slices ![0, 1] S128x1
  slices_S128x12_S128x1_0_4 : S128x12.Slices ![0, 4] S128x1
  slices_S128x12_S128x1_0_5 : S128x12.Slices ![0, 5] S128x1
  slices_S32768x128x8_S32768x128x1_0_0_6 : S32768x128x8.Slices ![0, 0, 6] S32768x128x1
  slices_S128x12_S128x1_0_3 : S128x12.Slices ![0, 3] S128x1
  slices_S128x12_S128x1_0_10 : S128x12.Slices ![0, 10] S128x1
  slices_S32768x128x8_S32768x128x1_0_0_5 : S32768x128x8.Slices ![0, 0, 5] S32768x128x1
  slices_S128x4_S128x1_0_2 : S128x4.Slices ![0, 2] S128x1
  slices_S128x12_S128x1_0_9 : S128x12.Slices ![0, 9] S128x1
  slices_S128x12_S128x1_0_8 : S128x12.Slices ![0, 8] S128x1
  slices_S32768x128x8_S32768x128x1_0_0_7 : S32768x128x8.Slices ![0, 0, 7] S32768x128x1
  slices_S128x4_S128x1_0_3 : S128x4.Slices ![0, 3] S128x1
  bcast_S32768x128_S32768x128x1_0_1 : S32768x128.BroadcastsInDim S32768x128x1 (![0, 1] : Fin 2 → Fin S32768x128x1.rank)
  concatenates_S32768x128x1_S32768x128x1_S32768x128x1_S32768x128x1_S32768x128x1_S32768x128x1_S32768x128x1_S32768x128x1_S32768x128x8_d2 : Shape.Concatenates [S32768x128x1, S32768x128x1, S32768x128x1, S32768x128x1, S32768x128x1, S32768x128x1, S32768x128x1, S32768x128x1] S32768x128x8 2
  shapeCasts_S32768x128x8_S32768x1024 : S32768x128x8.ShapeCasts S32768x1024
  dot_S32768x128_S128x128_S32768x128_1_1_0_0_n_n_wf : DotDims.WF S32768x128 S128x128 S32768x128 [1] [1] [0] [0] [] []

variable [Facts₀]

def dot_S32768x128_S128x128_S32768x128_1_1_0_0_n_n : DotDims S32768x128 S128x128 S32768x128 where
  lhsContracting := [1]
  rhsContracting := [1]
  lhsNonContracting := [0]
  rhsNonContracting := [0]
  lhsBatch := []
  rhsBatch := []
  wf := dot_S32768x128_S128x128_S32768x128_1_1_0_0_n_n_wf

class Facts : Prop extends Facts₀ where

variable [Facts]
-- ==== Proof.RefRun.lean ====
/-
  The reference's program run: a straight line of 267 array operations, none of which writes a buffer another has
  written. Every execution terminates with each buffer at the fold of the operations over the launch contents
  (the library's run of a straight line). The program is printed in five consecutive windows; each window is the line of
  its own operations, and the whole program is their concatenation. The fold is evaluated in ten consecutive stretches:
  after each stretch the buffers that later operations still read hold the corresponding stage of the argument arrays,
  and the arguments are as launched; the last stretch is the join of the eight channels and the final reshape.
-/
import proofs.«101920_j23278722745130_2_alg».proof.Proof.Gen.ReferenceIdeal
import proofs.«101920_j23278722745130_2_alg».proof.Proof.ReadP
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## The program's 267 operations, in ten consecutive stretches (a called function's operations stand in its call's place) -/

abbrev ops0 : List (HloOp τ sig (Elt F)) :=
  [ nullary main_cst (constant S_ .f32 0xC2C80000#32),
    nullary main_cst_0 (constant S_ .f32 0x42C80000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S32768x1024, .f32⟩) main_call0_v1) (broadcastInDim S32768x1024 ![] bcast_S_S32768x1024),
    TRef.binary (TRef.of (T := ⟨S32768x1024, .f32⟩) main_call0_v1) (TRef.of (T := ⟨S32768x1024, .f32⟩) main_arg1) (TRef.of (T := ⟨S32768x1024, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S32768x1024, .f32⟩) main_call0_v4) (broadcastInDim S32768x1024 ![] bcast_S_S32768x1024),
    TRef.binary (TRef.of (T := ⟨S32768x1024, .f32⟩) main_call0_v4) (TRef.of (T := ⟨S32768x1024, .f32⟩) main_call0_v2) (TRef.of (T := ⟨S32768x1024, .f32⟩) main_v0) minimumf,
    reshape main_v0 main_v1 rfl shapeCasts_S32768x1024_S32768x128x8,
    unary main_arg6 main_v2 (broadcastInDim S1x128x1 ![1] bcast_S128_S1x128x1_1 : (⟨S128, .f32⟩ : BufTy).Contents (Elt F) → (⟨S1x128x1, .f32⟩ : BufTy).Contents (Elt F)),
    unary main_v2 main_v3 (broadcastInDim S32768x128x8 ![0, 1, 2] bcast_S1x128x1_S32768x128x8_0_1_2 : (⟨S1x128x1, .f32⟩ : BufTy).Contents (Elt F) → (⟨S32768x128x8, .f32⟩ : BufTy).Contents (Elt F)),
    binary main_v3 main_v1 main_v4 (mulf : (⟨S32768x128x8, .f32⟩ : BufTy).Contents (Elt F) → (⟨S32768x128x8, .f32⟩ : BufTy).Contents (Elt F) → (⟨S32768x128x8, .f32⟩ : BufTy).Contents (Elt F)),
    unary main_v4 main_v5 (Host.negf : (⟨S32768x128x8, .f32⟩ : BufTy).Contents (Elt F) → (⟨S32768x128x8, .f32⟩ : BufTy).Contents (Elt F)),
    unary main_v5 main_v6 (Host.exp : (⟨S32768x128x8, .f32⟩ : BufTy).Contents (Elt F) → (⟨S32768x128x8, .f32⟩ : BufTy).Contents (Elt F)),
    nullary main_cst_1 (constant S_ .f32 0x3F800000#32),
    unary main_cst_1 main_v7 (broadcastInDim S32768x128x8 ![] bcast_S_S32768x128x8 : (⟨S_, .f32⟩ : BufTy).Contents (Elt F) → (⟨S32768x128x8, .f32⟩ : BufTy).Contents (Elt F)),
    binary main_v7 main_v6 main_v8 (addf : (⟨S32768x128x8, .f32⟩ : BufTy).Contents (Elt F) → (⟨S32768x128x8, .f32⟩ : BufTy).Contents (Elt F) → (⟨S32768x128x8, .f32⟩ : BufTy).Contents (Elt F)),
    nullary main_cst_2 (constant S_ .f32 0x3F800000#32),
    unary main_cst_2 main_v9 (broadcastInDim S32768x128x8 ![] bcast_S_S32768x128x8 : (⟨S_, .f32⟩ : BufTy).Contents (Elt F) → (⟨S32768x128x8, .f32⟩ : BufTy).Contents (Elt F)),
    binary main_v9 main_v8 main_v10 (Host.divf : (⟨S32768x128x8, .f32⟩ : BufTy).Contents (Elt F) → (⟨S32768x128x8, .f32⟩ : BufTy).Contents (Elt F) → (⟨S32768x128x8, .f32⟩ : BufTy).Contents (Elt F)),
    nullary main_cst_3 (constant S_ .f32 0x3F000000#32),
    unary main_cst_3 main_v11 (broadcastInDim S32768x128x8 ![] bcast_S_S32768x128x8 : (⟨S_, .f32⟩ : BufTy).Contents (Elt F) → (⟨S32768x128x8, .f32⟩ : BufTy).Contents (Elt F)),
    binary main_v10 main_v11 main_v12 (subf : (⟨S32768x128x8, .f32⟩ : BufTy).Contents (Elt F) → (⟨S32768x128x8, .f32⟩ : BufTy).Contents (Elt F) → (⟨S32768x128x8, .f32⟩ : BufTy).Contents (Elt F)),
    nullary main_cst_4 (constant S_ .f32 0x00000000#32),
    binary main_v1 main_cst_4 main_v13 ((fun x v => Host.reduceAdd x v reducesTo_S32768x128x8_S32768x128_d2 h_S_) : (⟨S32768x128x8, .f32⟩ : BufTy).Contents (Elt F) → (⟨S_, .f32⟩ : BufTy).Contents (Elt F) → (⟨S32768x128, .f32⟩ : BufTy).Contents (Elt F)),
    nullary main_cst_5 (constant S_ .f32 0x41000000#32),
    unary main_cst_5 main_v14 (broadcastInDim S32768x128 ![] bcast_S_S32768x128 : (⟨S_, .f32⟩ : BufTy).Contents (Elt F) → (⟨S32768x128, .f32⟩ : BufTy).Contents (Elt F)),
    binary main_v13 main_v14 main_v15 (Host.divf : (⟨S32768x128, .f32⟩ : BufTy).Contents (Elt F) → (⟨S32768x128, .f32⟩ : BufTy).Contents (Elt F) → (⟨S32768x128, .f32⟩ : BufTy).Contents (Elt F)),
    nullary main_v16 (iotaInDim S128x128 32 0),
    nullary main_v17 (iotaInDim S128x128 32 1),
    nullary main_c (constantI S_ 32 0#32),
    unary main_c main_v18 (broadcastInDim S128x128 ![] bcast_S_S128x128 : (⟨S_, .i32⟩ : BufTy).Contents (Elt F) → (⟨S128x128, .i32⟩ : BufTy).Contents (Elt F)),
    binary main_v16 main_v18 main_v19 (addi : (⟨S128x128, .i32⟩ : BufTy).Contents (Elt F) → (⟨S128x128, .i32⟩ : BufTy).Contents (Elt F) → (⟨S128x128, .i32⟩ : BufTy).Contents (Elt F)) ]

abbrev ops1 : List (HloOp τ sig (Elt F)) :=
  [ binary main_v19 main_v17 main_v20 (cmpi .eq : (⟨S128x128, .i32⟩ : BufTy).Contents (Elt F) → (⟨S128x128, .i32⟩ : BufTy).Contents (Elt F) → (⟨S128x128, .i1⟩ : BufTy).Contents (Elt F)),
    unary main_v20 main_v21 (uitofp .f32 : (⟨S128x128, .i1⟩ : BufTy).Contents (Elt F) → (⟨S128x128, .f32⟩ : BufTy).Contents (Elt F)),
    nullary main_cst_6 (constant S_ .f32 0x3F800000#32),
    unary main_cst_6 main_v22 (broadcastInDim S128x128 ![] bcast_S_S128x128 : (⟨S_, .f32⟩ : BufTy).Contents (Elt F) → (⟨S128x128, .f32⟩ : BufTy).Contents (Elt F)),
    binary main_v22 main_v21 main_v23 (subf : (⟨S128x128, .f32⟩ : BufTy).Contents (Elt F) → (⟨S128x128, .f32⟩ : BufTy).Contents (Elt F) → (⟨S128x128, .f32⟩ : BufTy).Contents (Elt F)),
    binary main_arg2 main_v23 main_v24 (mulf : (⟨S128x128, .f32⟩ : BufTy).Contents (Elt F) → (⟨S128x128, .f32⟩ : BufTy).Contents (Elt F) → (⟨S128x128, .f32⟩ : BufTy).Contents (Elt F)),
    binary main_v15 main_v24 main_v25 ((fun l r => Host.dotGeneral dot_S32768x128_S128x128_S32768x128_1_1_0_0_n_n none l r) : (⟨S32768x128, .f32⟩ : BufTy).Contents (Elt F) → (⟨S128x128, .f32⟩ : BufTy).Contents (Elt F) → (⟨S32768x128, .f32⟩ : BufTy).Contents (Elt F)),
    unary main_arg5 main_v26 (Host.negf : (⟨S128, .f32⟩ : BufTy).Contents (Elt F) → (⟨S128, .f32⟩ : BufTy).Contents (Elt F)),
    unary main_v26 main_v27 (Host.exp : (⟨S128, .f32⟩ : BufTy).Contents (Elt F) → (⟨S128, .f32⟩ : BufTy).Contents (Elt F)),
    nullary main_cst_7 (constant S_ .f32 0x3F800000#32),
    unary main_cst_7 main_v28 (broadcastInDim S128 ![] bcast_S_S128 : (⟨S_, .f32⟩ : BufTy).Contents (Elt F) → (⟨S128, .f32⟩ : BufTy).Contents (Elt F)),
    binary main_v28 main_v27 main_v29 (addf : (⟨S128, .f32⟩ : BufTy).Contents (Elt F) → (⟨S128, .f32⟩ : BufTy).Contents (Elt F) → (⟨S128, .f32⟩ : BufTy).Contents (Elt F)),
    nullary main_cst_8 (constant S_ .f32 0x3F800000#32),
    unary main_cst_8 main_v30 (broadcastInDim S128 ![] bcast_S_S128 : (⟨S_, .f32⟩ : BufTy).Contents (Elt F) → (⟨S128, .f32⟩ : BufTy).Contents (Elt F)),
    binary main_v30 main_v29 main_v31 (Host.divf : (⟨S128, .f32⟩ : BufTy).Contents (Elt F) → (⟨S128, .f32⟩ : BufTy).Contents (Elt F) → (⟨S128, .f32⟩ : BufTy).Contents (Elt F)),
    nullary main_cst_9 (constant S_ .f32 0x3DCCCCCD#32),
    unary main_cst_9 main_v32 (broadcastInDim S128 ![] bcast_S_S128 : (⟨S_, .f32⟩ : BufTy).Contents (Elt F) → (⟨S128, .f32⟩ : BufTy).Contents (Elt F)),
    binary main_v31 main_v32 main_v33 (mulf : (⟨S128, .f32⟩ : BufTy).Contents (Elt F) → (⟨S128, .f32⟩ : BufTy).Contents (Elt F) → (⟨S128, .f32⟩ : BufTy).Contents (Elt F)),
    unary main_arg3 main_v34 ((extractStridedSlice S128x1 ![0, 0] · slices_S128x12_S128x1_0_0) : (⟨S128x12, .f32⟩ : BufTy).Contents (Elt F) → (⟨S128x1, .f32⟩ : BufTy).Contents (Elt F)),
    reshape main_v34 main_v35 rfl shapeCasts_S128x1_S128,
    unary main_v35 main_v36 (Host.negf : (⟨S128, .f32⟩ : BufTy).Contents (Elt F) → (⟨S128, .f32⟩ : BufTy).Contents (Elt F)),
    unary main_v12 main_v37 ((extractStridedSlice S32768x128x1 ![0, 0, 0] · slices_S32768x128x8_S32768x128x1_0_0_0) : (⟨S32768x128x8, .f32⟩ : BufTy).Contents (Elt F) → (⟨S32768x128x1, .f32⟩ : BufTy).Contents (Elt F)),
    reshape main_v37 main_v38 rfl shapeCasts_S32768x128x1_S32768x128,
    unary main_v36 main_v39 (broadcastInDim S1x128 ![1] bcast_S128_S1x128_1 : (⟨S128, .f32⟩ : BufTy).Contents (Elt F) → (⟨S1x128, .f32⟩ : BufTy).Contents (Elt F)),
    unary main_v39 main_v40 (broadcastInDim S32768x128 ![0, 1] bcast_S1x128_S32768x128_0_1 : (⟨S1x128, .f32⟩ : BufTy).Contents (Elt F) → (⟨S32768x128, .f32⟩ : BufTy).Contents (Elt F)),
    binary main_v40 main_v38 main_v41 (mulf : (⟨S32768x128, .f32⟩ : BufTy).Contents (Elt F) → (⟨S32768x128, .f32⟩ : BufTy).Contents (Elt F) → (⟨S32768x128, .f32⟩ : BufTy).Contents (Elt F)),
    unary main_arg3 main_v42 ((extractStridedSlice S128x1 ![0, 2] · slices_S128x12_S128x1_0_2) : (⟨S128x12, .f32⟩ : BufTy).Contents (Elt F) → (⟨S128x1, .f32⟩ : BufTy).Contents (Elt F)),
    reshape main_v42 main_v43 rfl shapeCasts_S128x1_S128,
    unary main_v12 main_v44 ((extractStridedSlice S32768x128x1 ![0, 0, 4] · slices_S32768x128x8_S32768x128x1_0_0_4) : (⟨S32768x128x8, .f32⟩ : BufTy).Contents (Elt F) → (⟨S32768x128x1, .f32⟩ : BufTy).Contents (Elt F)),
    reshape main_v44 main_v45 rfl shapeCasts_S32768x128x1_S32768x128,
    unary main_v43 main_v46 (broadcastInDim S1x128 ![1] bcast_S128_S1x128_1 : (⟨S128, .f32⟩ : BufTy).Contents (Elt F) → (⟨S1x128, .f32⟩ : BufTy).Contents (Elt F)),
    unary main_v46 main_v47 (broadcastInDim S32768x128 ![0, 1] bcast_S1x128_S32768x128_0_1 : (⟨S1x128, .f32⟩ : BufTy).Contents (Elt F) → (⟨S32768x128, .f32⟩ : BufTy).Contents (Elt F)) ]

abbrev ops2 : List (HloOp τ sig (Elt F)) :=
  [ binary main_v47 main_v45 main_v48 (mulf : (⟨S32768x128, .f32⟩ : BufTy).Contents (Elt F) → (⟨S32768x128, .f32⟩ : BufTy).Contents (Elt F) → (⟨S32768x128, .f32⟩ : BufTy).Contents (Elt F)),
    binary main_v41 main_v48 main_v49 (subf : (⟨S32768x128, .f32⟩ : BufTy).Contents (Elt F) → (⟨S32768x128, .f32⟩ : BufTy).Contents (Elt F) → (⟨S32768x128, .f32⟩ : BufTy).Contents (Elt F)),
    unary main_arg3 main_v50 ((extractStridedSlice S128x1 ![0, 1] · slices_S128x12_S128x1_0_1) : (⟨S128x12, .f32⟩ : BufTy).Contents (Elt F) → (⟨S128x1, .f32⟩ : BufTy).Contents (Elt F)),
    reshape main_v50 main_v51 rfl shapeCasts_S128x1_S128,
    unary main_v12 main_v52 ((extractStridedSlice S32768x128x1 ![0, 0, 2] · slices_S32768x128x8_S32768x128x1_0_0_2) : (⟨S32768x128x8, .f32⟩ : BufTy).Contents (Elt F) → (⟨S32768x128x1, .f32⟩ : BufTy).Contents (Elt F)),
    reshape main_v52 main_v53 rfl shapeCasts_S32768x128x1_S32768x128,
    unary main_v51 main_v54 (broadcastInDim S1x128 ![1] bcast_S128_S1x128_1 : (⟨S128, .f32⟩ : BufTy).Contents (Elt F) → (⟨S1x128, .f32⟩ : BufTy).Contents (Elt F)),
    unary main_v54 main_v55 (broadcastInDim S32768x128 ![0, 1] bcast_S1x128_S32768x128_0_1 : (⟨S1x128, .f32⟩ : BufTy).Contents (Elt F) → (⟨S32768x128, .f32⟩ : BufTy).Contents (Elt F)),
    binary main_v55 main_v53 main_v56 (mulf : (⟨S32768x128, .f32⟩ : BufTy).Contents (Elt F) → (⟨S32768x128, .f32⟩ : BufTy).Contents (Elt F) → (⟨S32768x128, .f32⟩ : BufTy).Contents (Elt F)),
    binary main_v49 main_v56 main_v57 (subf : (⟨S32768x128, .f32⟩ : BufTy).Contents (Elt F) → (⟨S32768x128, .f32⟩ : BufTy).Contents (Elt F) → (⟨S32768x128, .f32⟩ : BufTy).Contents (Elt F)),
    binary main_v57 main_v25 main_v58 (addf : (⟨S32768x128, .f32⟩ : BufTy).Contents (Elt F) → (⟨S32768x128, .f32⟩ : BufTy).Contents (Elt F) → (⟨S32768x128, .f32⟩ : BufTy).Contents (Elt F)),
    unary main_v1 main_v59 ((extractStridedSlice S32768x128x1 ![0, 0, 1] · slices_S32768x128x8_S32768x128x1_0_0_1) : (⟨S32768x128x8, .f32⟩ : BufTy).Contents (Elt F) → (⟨S32768x128x1, .f32⟩ : BufTy).Contents (Elt F)),
    reshape main_v59 main_v60 rfl shapeCasts_S32768x128x1_S32768x128,
    nullary main_cst_10 (constant S_ .f32 0x40000000#32),
    unary main_cst_10 main_v61 (broadcastInDim S32768x128 ![] bcast_S_S32768x128 : (⟨S_, .f32⟩ : BufTy).Contents (Elt F) → (⟨S32768x128, .f32⟩ : BufTy).Contents (Elt F)),
    binary main_v61 main_v60 main_v62 (mulf : (⟨S32768x128, .f32⟩ : BufTy).Contents (Elt F) → (⟨S32768x128, .f32⟩ : BufTy).Contents (Elt F) → (⟨S32768x128, .f32⟩ : BufTy).Contents (Elt F)),
    binary main_v58 main_v62 main_v63 (subf : (⟨S32768x128, .f32⟩ : BufTy).Contents (Elt F) → (⟨S32768x128, .f32⟩ : BufTy).Contents (Elt F) → (⟨S32768x128, .f32⟩ : BufTy).Contents (Elt F)),
    unary main_v1 main_v64 ((extractStridedSlice S32768x128x1 ![0, 0, 0] · slices_S32768x128x8_S32768x128x1_0_0_0) : (⟨S32768x128x8, .f32⟩ : BufTy).Contents (Elt F) → (⟨S32768x128x1, .f32⟩ : BufTy).Contents (Elt F)),
    reshape main_v64 main_v65 rfl shapeCasts_S32768x128x1_S32768x128,
    unary main_arg4 main_v66 ((extractStridedSlice S128x1 ![0, 0] · slices_S128x4_S128x1_0_0) : (⟨S128x4, .f32⟩ : BufTy).Contents (Elt F) → (⟨S128x1, .f32⟩ : BufTy).Contents (Elt F)),
    reshape main_v66 main_v67 rfl shapeCasts_S128x1_S128,
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S32768x128 ![0, 1] bcast_S1x128_S32768x128_0_1 : (⟨S1x128, .f32⟩ : BufTy).Contents (Elt F) → (⟨S32768x128, .f32⟩ : BufTy).Contents (Elt F)),
    binary main_v65 main_v69 main_v70 (Host.divf : (⟨S32768x128, .f32⟩ : BufTy).Contents (Elt F) → (⟨S32768x128, .f32⟩ : BufTy).Contents (Elt F) → (⟨S32768x128, .f32⟩ : BufTy).Contents (Elt F)),
    binary main_v63 main_v70 main_v71 (subf : (⟨S32768x128, .f32⟩ : BufTy).Contents (Elt F) → (⟨S32768x128, .f32⟩ : BufTy).Contents (Elt F) → (⟨S32768x128, .f32⟩ : BufTy).Contents (Elt F)),
    unary main_v33 main_v72 (broadcastInDim S1x128 ![1] bcast_S128_S1x128_1 : (⟨S128, .f32⟩ : BufTy).Contents (Elt F) → (⟨S1x128, .f32⟩ : BufTy).Contents (Elt F)),
    unary main_v72 main_v73 (broadcastInDim S32768x128 ![0, 1] bcast_S1x128_S32768x128_0_1 : (⟨S1x128, .f32⟩ : BufTy).Contents (Elt F) → (⟨S32768x128, .f32⟩ : BufTy).Contents (Elt F)),
    binary main_v73 main_v71 main_v74 (mulf : (⟨S32768x128, .f32⟩ : BufTy).Contents (Elt F) → (⟨S32768x128, .f32⟩ : BufTy).Contents (Elt F) → (⟨S32768x128, .f32⟩ : BufTy).Contents (Elt F)),
    unary main_arg4 main_v75 ((extractStridedSlice S128x1 ![0, 0] · slices_S128x4_S128x1_0_0) : (⟨S128x4, .f32⟩ : BufTy).Contents (Elt F) → (⟨S128x1, .f32⟩ : BufTy).Contents (Elt F)),
    reshape main_v75 main_v76 rfl shapeCasts_S128x1_S128 ]

abbrev ops3 : List (HloOp τ sig (Elt F)) :=
  [ unary main_v76 main_v77 (broadcastInDim S1x128 ![1] bcast_S128_S1x128_1 : (⟨S128, .f32⟩ : BufTy).Contents (Elt F) → (⟨S1x128, .f32⟩ : BufTy).Contents (Elt F)),
    unary main_v77 main_v78 (broadcastInDim S32768x128 ![0, 1] bcast_S1x128_S32768x128_0_1 : (⟨S1x128, .f32⟩ : BufTy).Contents (Elt F) → (⟨S32768x128, .f32⟩ : BufTy).Contents (Elt F)),
    binary main_v74 main_v78 main_v79 (Host.divf : (⟨S32768x128, .f32⟩ : BufTy).Contents (Elt F) → (⟨S32768x128, .f32⟩ : BufTy).Contents (Elt F) → (⟨S32768x128, .f32⟩ : BufTy).Contents (Elt F)),
    unary main_arg3 main_v80 ((extractStridedSlice S128x1 ![0, 7] · slices_S128x12_S128x1_0_7) : (⟨S128x12, .f32⟩ : BufTy).Contents (Elt F) → (⟨S128x1, .f32⟩ : BufTy).Contents (Elt F)),
    reshape main_v80 main_v81 rfl shapeCasts_S128x1_S128,
    unary main_v12 main_v82 ((extractStridedSlice S32768x128x1 ![0, 0, 0] · slices_S32768x128x8_S32768x128x1_0_0_0) : (⟨S32768x128x8, .f32⟩ : BufTy).Contents (Elt F) → (⟨S32768x128x1, .f32⟩ : BufTy).Contents (Elt F)),
    reshape main_v82 main_v83 rfl shapeCasts_S32768x128x1_S32768x128,
    unary main_v81 main_v84 (broadcastInDim S1x128 ![1] bcast_S128_S1x128_1 : (⟨S128, .f32⟩ : BufTy).Contents (Elt F) → (⟨S1x128, .f32⟩ : BufTy).Contents (Elt F)),
    unary main_v84 main_v85 (broadcastInDim S32768x128 ![0, 1] bcast_S1x128_S32768x128_0_1 : (⟨S1x128, .f32⟩ : BufTy).Contents (Elt F) → (⟨S32768x128, .f32⟩ : BufTy).Contents (Elt F)),
    binary main_v85 main_v83 main_v86 (mulf : (⟨S32768x128, .f32⟩ : BufTy).Contents (Elt F) → (⟨S32768x128, .f32⟩ : BufTy).Contents (Elt F) → (⟨S32768x128, .f32⟩ : BufTy).Contents (Elt F)),
    unary main_arg3 main_v87 ((extractStridedSlice S128x1 ![0, 6] · slices_S128x12_S128x1_0_6) : (⟨S128x12, .f32⟩ : BufTy).Contents (Elt F) → (⟨S128x1, .f32⟩ : BufTy).Contents (Elt F)),
    reshape main_v87 main_v88 rfl shapeCasts_S128x1_S128,
    unary main_v12 main_v89 ((extractStridedSlice S32768x128x1 ![0, 0, 2] · slices_S32768x128x8_S32768x128x1_0_0_2) : (⟨S32768x128x8, .f32⟩ : BufTy).Contents (Elt F) → (⟨S32768x128x1, .f32⟩ : BufTy).Contents (Elt F)),
    reshape main_v89 main_v90 rfl shapeCasts_S32768x128x1_S32768x128,
    unary main_v88 main_v91 (broadcastInDim S1x128 ![1] bcast_S128_S1x128_1 : (⟨S128, .f32⟩ : BufTy).Contents (Elt F) → (⟨S1x128, .f32⟩ : BufTy).Contents (Elt F)),
    unary main_v91 main_v92 (broadcastInDim S32768x128 ![0, 1] bcast_S1x128_S32768x128_0_1 : (⟨S1x128, .f32⟩ : BufTy).Contents (Elt F) → (⟨S32768x128, .f32⟩ : BufTy).Contents (Elt F)),
    binary main_v92 main_v90 main_v93 (mulf : (⟨S32768x128, .f32⟩ : BufTy).Contents (Elt F) → (⟨S32768x128, .f32⟩ : BufTy).Contents (Elt F) → (⟨S32768x128, .f32⟩ : BufTy).Contents (Elt F)),
    binary main_v86 main_v93 main_v94 (subf : (⟨S32768x128, .f32⟩ : BufTy).Contents (Elt F) → (⟨S32768x128, .f32⟩ : BufTy).Contents (Elt F) → (⟨S32768x128, .f32⟩ : BufTy).Contents (Elt F)),
    unary main_arg3 main_v95 ((extractStridedSlice S128x1 ![0, 11] · slices_S128x12_S128x1_0_11) : (⟨S128x12, .f32⟩ : BufTy).Contents (Elt F) → (⟨S128x1, .f32⟩ : BufTy).Contents (Elt F)),
    reshape main_v95 main_v96 rfl shapeCasts_S128x1_S128,
    unary main_v12 main_v97 ((extractStridedSlice S32768x128x1 ![0, 0, 4] · slices_S32768x128x8_S32768x128x1_0_0_4) : (⟨S32768x128x8, .f32⟩ : BufTy).Contents (Elt F) → (⟨S32768x128x1, .f32⟩ : BufTy).Contents (Elt F)),
    reshape main_v97 main_v98 rfl shapeCasts_S32768x128x1_S32768x128,
    unary main_v96 main_v99 (broadcastInDim S1x128 ![1] bcast_S128_S1x128_1 : (⟨S128, .f32⟩ : BufTy).Contents (Elt F) → (⟨S1x128, .f32⟩ : BufTy).Contents (Elt F)),
    unary main_v99 main_v100 (broadcastInDim S32768x128 ![0, 1] bcast_S1x128_S32768x128_0_1 : (⟨S1x128, .f32⟩ : BufTy).Contents (Elt F) → (⟨S32768x128, .f32⟩ : BufTy).Contents (Elt F)),
    binary main_v100 main_v98 main_v101 (mulf : (⟨S32768x128, .f32⟩ : BufTy).Contents (Elt F) → (⟨S32768x128, .f32⟩ : BufTy).Contents (Elt F) → (⟨S32768x128, .f32⟩ : BufTy).Contents (Elt F)),
    binary main_v94 main_v101 main_v102 (subf : (⟨S32768x128, .f32⟩ : BufTy).Contents (Elt F) → (⟨S32768x128, .f32⟩ : BufTy).Contents (Elt F) → (⟨S32768x128, .f32⟩ : BufTy).Contents (Elt F)),
    binary main_v102 main_v25 main_v103 (addf : (⟨S32768x128, .f32⟩ : BufTy).Contents (Elt F) → (⟨S32768x128, .f32⟩ : BufTy).Contents (Elt F) → (⟨S32768x128, .f32⟩ : BufTy).Contents (Elt F)),
    unary main_v1 main_v104 ((extractStridedSlice S32768x128x1 ![0, 0, 3] · slices_S32768x128x8_S32768x128x1_0_0_3) : (⟨S32768x128x8, .f32⟩ : BufTy).Contents (Elt F) → (⟨S32768x128x1, .f32⟩ : BufTy).Contents (Elt F)),
    reshape main_v104 main_v105 rfl shapeCasts_S32768x128x1_S32768x128,
    nullary main_cst_11 (constant S_ .f32 0x40000000#32) ]

abbrev ops4 : List (HloOp τ sig (Elt F)) :=
  [ unary main_cst_11 main_v106 (broadcastInDim S32768x128 ![] bcast_S_S32768x128 : (⟨S_, .f32⟩ : BufTy).Contents (Elt F) → (⟨S32768x128, .f32⟩ : BufTy).Contents (Elt F)),
    binary main_v106 main_v105 main_v107 (mulf : (⟨S32768x128, .f32⟩ : BufTy).Contents (Elt F) → (⟨S32768x128, .f32⟩ : BufTy).Contents (Elt F) → (⟨S32768x128, .f32⟩ : BufTy).Contents (Elt F)),
    binary main_v103 main_v107 main_v108 (subf : (⟨S32768x128, .f32⟩ : BufTy).Contents (Elt F) → (⟨S32768x128, .f32⟩ : BufTy).Contents (Elt F) → (⟨S32768x128, .f32⟩ : BufTy).Contents (Elt F)),
    unary main_v1 main_v109 ((extractStridedSlice S32768x128x1 ![0, 0, 2] · slices_S32768x128x8_S32768x128x1_0_0_2) : (⟨S32768x128x8, .f32⟩ : BufTy).Contents (Elt F) → (⟨S32768x128x1, .f32⟩ : BufTy).Contents (Elt F)),
    reshape main_v109 main_v110 rfl shapeCasts_S32768x128x1_S32768x128,
    unary main_arg4 main_v111 ((extractStridedSlice S128x1 ![0, 1] · slices_S128x4_S128x1_0_1) : (⟨S128x4, .f32⟩ : BufTy).Contents (Elt F) → (⟨S128x1, .f32⟩ : BufTy).Contents (Elt F)),
    reshape main_v111 main_v112 rfl shapeCasts_S128x1_S128,
    unary main_v112 main_v113 (broadcastInDim S1x128 ![1] bcast_S128_S1x128_1 : (⟨S128, .f32⟩ : BufTy).Contents (Elt F) → (⟨S1x128, .f32⟩ : BufTy).Contents (Elt F)),
    unary main_v113 main_v114 (broadcastInDim S32768x128 ![0, 1] bcast_S1x128_S32768x128_0_1 : (⟨S1x128, .f32⟩ : BufTy).Contents (Elt F) → (⟨S32768x128, .f32⟩ : BufTy).Contents (Elt F)),
    binary main_v110 main_v114 main_v115 (Host.divf : (⟨S32768x128, .f32⟩ : BufTy).Contents (Elt F) → (⟨S32768x128, .f32⟩ : BufTy).Contents (Elt F) → (⟨S32768x128, .f32⟩ : BufTy).Contents (Elt F)),
    binary main_v108 main_v115 main_v116 (subf : (⟨S32768x128, .f32⟩ : BufTy).Contents (Elt F) → (⟨S32768x128, .f32⟩ : BufTy).Contents (Elt F) → (⟨S32768x128, .f32⟩ : BufTy).Contents (Elt F)),
    unary main_v33 main_v117 (broadcastInDim S1x128 ![1] bcast_S128_S1x128_1 : (⟨S128, .f32⟩ : BufTy).Contents (Elt F) → (⟨S1x128, .f32⟩ : BufTy).Contents (Elt F)),
    unary main_v117 main_v118 (broadcastInDim S32768x128 ![0, 1] bcast_S1x128_S32768x128_0_1 : (⟨S1x128, .f32⟩ : BufTy).Contents (Elt F) → (⟨S32768x128, .f32⟩ : BufTy).Contents (Elt F)),
    binary main_v118 main_v116 main_v119 (mulf : (⟨S32768x128, .f32⟩ : BufTy).Contents (Elt F) → (⟨S32768x128, .f32⟩ : BufTy).Contents (Elt F) → (⟨S32768x128, .f32⟩ : BufTy).Contents (Elt F)),
    unary main_arg4 main_v120 ((extractStridedSlice S128x1 ![0, 1] · slices_S128x4_S128x1_0_1) : (⟨S128x4, .f32⟩ : BufTy).Contents (Elt F) → (⟨S128x1, .f32⟩ : BufTy).Contents (Elt F)),
    reshape main_v120 main_v121 rfl shapeCasts_S128x1_S128,
    unary main_v121 main_v122 (broadcastInDim S1x128 ![1] bcast_S128_S1x128_1 : (⟨S128, .f32⟩ : BufTy).Contents (Elt F) → (⟨S1x128, .f32⟩ : BufTy).Contents (Elt F)),
    unary main_v122 main_v123 (broadcastInDim S32768x128 ![0, 1] bcast_S1x128_S32768x128_0_1 : (⟨S1x128, .f32⟩ : BufTy).Contents (Elt F) → (⟨S32768x128, .f32⟩ : BufTy).Contents (Elt F)),
    binary main_v119 main_v123 main_v124 (Host.divf : (⟨S32768x128, .f32⟩ : BufTy).Contents (Elt F) → (⟨S32768x128, .f32⟩ : BufTy).Contents (Elt F) → (⟨S32768x128, .f32⟩ : BufTy).Contents (Elt F)),
    unary main_arg3 main_v125 ((extractStridedSlice S128x1 ![0, 4] · slices_S128x12_S128x1_0_4) : (⟨S128x12, .f32⟩ : BufTy).Contents (Elt F) → (⟨S128x1, .f32⟩ : BufTy).Contents (Elt F)),
    reshape main_v125 main_v126 rfl shapeCasts_S128x1_S128,
    unary main_v12 main_v127 ((extractStridedSlice S32768x128x1 ![0, 0, 0] · slices_S32768x128x8_S32768x128x1_0_0_0) : (⟨S32768x128x8, .f32⟩ : BufTy).Contents (Elt F) → (⟨S32768x128x1, .f32⟩ : BufTy).Contents (Elt F)),
    reshape main_v127 main_v128 rfl shapeCasts_S32768x128x1_S32768x128,
    unary main_v126 main_v129 (broadcastInDim S1x128 ![1] bcast_S128_S1x128_1 : (⟨S128, .f32⟩ : BufTy).Contents (Elt F) → (⟨S1x128, .f32⟩ : BufTy).Contents (Elt F)),
    unary main_v129 main_v130 (broadcastInDim S32768x128 ![0, 1] bcast_S1x128_S32768x128_0_1 : (⟨S1x128, .f32⟩ : BufTy).Contents (Elt F) → (⟨S32768x128, .f32⟩ : BufTy).Contents (Elt F)),
    binary main_v130 main_v128 main_v131 (mulf : (⟨S32768x128, .f32⟩ : BufTy).Contents (Elt F) → (⟨S32768x128, .f32⟩ : BufTy).Contents (Elt F) → (⟨S32768x128, .f32⟩ : BufTy).Contents (Elt F)),
    unary main_arg3 main_v132 ((extractStridedSlice S128x1 ![0, 5] · slices_S128x12_S128x1_0_5) : (⟨S128x12, .f32⟩ : BufTy).Contents (Elt F) → (⟨S128x1, .f32⟩ : BufTy).Contents (Elt F)),
    reshape main_v132 main_v133 rfl shapeCasts_S128x1_S128,
    unary main_v12 main_v134 ((extractStridedSlice S32768x128x1 ![0, 0, 6] · slices_S32768x128x8_S32768x128x1_0_0_6) : (⟨S32768x128x8, .f32⟩ : BufTy).Contents (Elt F) → (⟨S32768x128x1, .f32⟩ : BufTy).Contents (Elt F)),
    reshape main_v134 main_v135 rfl shapeCasts_S32768x128x1_S32768x128 ]

abbrev ops5 : List (HloOp τ sig (Elt F)) :=
  [ unary main_v133 main_v136 (broadcastInDim S1x128 ![1] bcast_S128_S1x128_1 : (⟨S128, .f32⟩ : BufTy).Contents (Elt F) → (⟨S1x128, .f32⟩ : BufTy).Contents (Elt F)),
    unary main_v136 main_v137 (broadcastInDim S32768x128 ![0, 1] bcast_S1x128_S32768x128_0_1 : (⟨S1x128, .f32⟩ : BufTy).Contents (Elt F) → (⟨S32768x128, .f32⟩ : BufTy).Contents (Elt F)),
    binary main_v137 main_v135 main_v138 (mulf : (⟨S32768x128, .f32⟩ : BufTy).Contents (Elt F) → (⟨S32768x128, .f32⟩ : BufTy).Contents (Elt F) → (⟨S32768x128, .f32⟩ : BufTy).Contents (Elt F)),
    binary main_v131 main_v138 main_v139 (addf : (⟨S32768x128, .f32⟩ : BufTy).Contents (Elt F) → (⟨S32768x128, .f32⟩ : BufTy).Contents (Elt F) → (⟨S32768x128, .f32⟩ : BufTy).Contents (Elt F)),
    unary main_arg3 main_v140 ((extractStridedSlice S128x1 ![0, 3] · slices_S128x12_S128x1_0_3) : (⟨S128x12, .f32⟩ : BufTy).Contents (Elt F) → (⟨S128x1, .f32⟩ : BufTy).Contents (Elt F)),
    reshape main_v140 main_v141 rfl shapeCasts_S128x1_S128,
    unary main_v12 main_v142 ((extractStridedSlice S32768x128x1 ![0, 0, 4] · slices_S32768x128x8_S32768x128x1_0_0_4) : (⟨S32768x128x8, .f32⟩ : BufTy).Contents (Elt F) → (⟨S32768x128x1, .f32⟩ : BufTy).Contents (Elt F)),
    reshape main_v142 main_v143 rfl shapeCasts_S32768x128x1_S32768x128,
    unary main_v141 main_v144 (broadcastInDim S1x128 ![1] bcast_S128_S1x128_1 : (⟨S128, .f32⟩ : BufTy).Contents (Elt F) → (⟨S1x128, .f32⟩ : BufTy).Contents (Elt F)),
    unary main_v144 main_v145 (broadcastInDim S32768x128 ![0, 1] bcast_S1x128_S32768x128_0_1 : (⟨S1x128, .f32⟩ : BufTy).Contents (Elt F) → (⟨S32768x128, .f32⟩ : BufTy).Contents (Elt F)),
    binary main_v145 main_v143 main_v146 (mulf : (⟨S32768x128, .f32⟩ : BufTy).Contents (Elt F) → (⟨S32768x128, .f32⟩ : BufTy).Contents (Elt F) → (⟨S32768x128, .f32⟩ : BufTy).Contents (Elt F)),
    binary main_v139 main_v146 main_v147 (subf : (⟨S32768x128, .f32⟩ : BufTy).Contents (Elt F) → (⟨S32768x128, .f32⟩ : BufTy).Contents (Elt F) → (⟨S32768x128, .f32⟩ : BufTy).Contents (Elt F)),
    unary main_arg3 main_v148 ((extractStridedSlice S128x1 ![0, 10] · slices_S128x12_S128x1_0_10) : (⟨S128x12, .f32⟩ : BufTy).Contents (Elt F) → (⟨S128x1, .f32⟩ : BufTy).Contents (Elt F)),
    reshape main_v148 main_v149 rfl shapeCasts_S128x1_S128,
    unary main_v12 main_v150 ((extractStridedSlice S32768x128x1 ![0, 0, 2] · slices_S32768x128x8_S32768x128x1_0_0_2) : (⟨S32768x128x8, .f32⟩ : BufTy).Contents (Elt F) → (⟨S32768x128x1, .f32⟩ : BufTy).Contents (Elt F)),
    reshape main_v150 main_v151 rfl shapeCasts_S32768x128x1_S32768x128,
    unary main_v149 main_v152 (broadcastInDim S1x128 ![1] bcast_S128_S1x128_1 : (⟨S128, .f32⟩ : BufTy).Contents (Elt F) → (⟨S1x128, .f32⟩ : BufTy).Contents (Elt F)),
    unary main_v152 main_v153 (broadcastInDim S32768x128 ![0, 1] bcast_S1x128_S32768x128_0_1 : (⟨S1x128, .f32⟩ : BufTy).Contents (Elt F) → (⟨S32768x128, .f32⟩ : BufTy).Contents (Elt F)),
    binary main_v153 main_v151 main_v154 (mulf : (⟨S32768x128, .f32⟩ : BufTy).Contents (Elt F) → (⟨S32768x128, .f32⟩ : BufTy).Contents (Elt F) → (⟨S32768x128, .f32⟩ : BufTy).Contents (Elt F)),
    binary main_v147 main_v154 main_v155 (addf : (⟨S32768x128, .f32⟩ : BufTy).Contents (Elt F) → (⟨S32768x128, .f32⟩ : BufTy).Contents (Elt F) → (⟨S32768x128, .f32⟩ : BufTy).Contents (Elt F)),
    binary main_v155 main_v25 main_v156 (addf : (⟨S32768x128, .f32⟩ : BufTy).Contents (Elt F) → (⟨S32768x128, .f32⟩ : BufTy).Contents (Elt F) → (⟨S32768x128, .f32⟩ : BufTy).Contents (Elt F)),
    unary main_v1 main_v157 ((extractStridedSlice S32768x128x1 ![0, 0, 5] · slices_S32768x128x8_S32768x128x1_0_0_5) : (⟨S32768x128x8, .f32⟩ : BufTy).Contents (Elt F) → (⟨S32768x128x1, .f32⟩ : BufTy).Contents (Elt F)),
    reshape main_v157 main_v158 rfl shapeCasts_S32768x128x1_S32768x128,
    nullary main_cst_12 (constant S_ .f32 0x40000000#32),
    unary main_cst_12 main_v159 (broadcastInDim S32768x128 ![] bcast_S_S32768x128 : (⟨S_, .f32⟩ : BufTy).Contents (Elt F) → (⟨S32768x128, .f32⟩ : BufTy).Contents (Elt F)),
    binary main_v159 main_v158 main_v160 (mulf : (⟨S32768x128, .f32⟩ : BufTy).Contents (Elt F) → (⟨S32768x128, .f32⟩ : BufTy).Contents (Elt F) → (⟨S32768x128, .f32⟩ : BufTy).Contents (Elt F)),
    binary main_v156 main_v160 main_v161 (subf : (⟨S32768x128, .f32⟩ : BufTy).Contents (Elt F) → (⟨S32768x128, .f32⟩ : BufTy).Contents (Elt F) → (⟨S32768x128, .f32⟩ : BufTy).Contents (Elt F)),
    unary main_v1 main_v162 ((extractStridedSlice S32768x128x1 ![0, 0, 4] · slices_S32768x128x8_S32768x128x1_0_0_4) : (⟨S32768x128x8, .f32⟩ : BufTy).Contents (Elt F) → (⟨S32768x128x1, .f32⟩ : BufTy).Contents (Elt F)),
    reshape main_v162 main_v163 rfl shapeCasts_S32768x128x1_S32768x128,
    unary main_arg4 main_v164 ((extractStridedSlice S128x1 ![0, 2] · slices_S128x4_S128x1_0_2) : (⟨S128x4, .f32⟩ : BufTy).Contents (Elt F) → (⟨S128x1, .f32⟩ : BufTy).Contents (Elt F)) ]

abbrev ops6 : List (HloOp τ sig (Elt F)) :=
  [ reshape main_v164 main_v165 rfl shapeCasts_S128x1_S128,
    unary main_v165 main_v166 (broadcastInDim S1x128 ![1] bcast_S128_S1x128_1 : (⟨S128, .f32⟩ : BufTy).Contents (Elt F) → (⟨S1x128, .f32⟩ : BufTy).Contents (Elt F)),
    unary main_v166 main_v167 (broadcastInDim S32768x128 ![0, 1] bcast_S1x128_S32768x128_0_1 : (⟨S1x128, .f32⟩ : BufTy).Contents (Elt F) → (⟨S32768x128, .f32⟩ : BufTy).Contents (Elt F)),
    binary main_v163 main_v167 main_v168 (Host.divf : (⟨S32768x128, .f32⟩ : BufTy).Contents (Elt F) → (⟨S32768x128, .f32⟩ : BufTy).Contents (Elt F) → (⟨S32768x128, .f32⟩ : BufTy).Contents (Elt F)),
    binary main_v161 main_v168 main_v169 (subf : (⟨S32768x128, .f32⟩ : BufTy).Contents (Elt F) → (⟨S32768x128, .f32⟩ : BufTy).Contents (Elt F) → (⟨S32768x128, .f32⟩ : BufTy).Contents (Elt F)),
    unary main_v33 main_v170 (broadcastInDim S1x128 ![1] bcast_S128_S1x128_1 : (⟨S128, .f32⟩ : BufTy).Contents (Elt F) → (⟨S1x128, .f32⟩ : BufTy).Contents (Elt F)),
    unary main_v170 main_v171 (broadcastInDim S32768x128 ![0, 1] bcast_S1x128_S32768x128_0_1 : (⟨S1x128, .f32⟩ : BufTy).Contents (Elt F) → (⟨S32768x128, .f32⟩ : BufTy).Contents (Elt F)),
    binary main_v171 main_v169 main_v172 (mulf : (⟨S32768x128, .f32⟩ : BufTy).Contents (Elt F) → (⟨S32768x128, .f32⟩ : BufTy).Contents (Elt F) → (⟨S32768x128, .f32⟩ : BufTy).Contents (Elt F)),
    unary main_arg4 main_v173 ((extractStridedSlice S128x1 ![0, 2] · slices_S128x4_S128x1_0_2) : (⟨S128x4, .f32⟩ : BufTy).Contents (Elt F) → (⟨S128x1, .f32⟩ : BufTy).Contents (Elt F)),
    reshape main_v173 main_v174 rfl shapeCasts_S128x1_S128,
    unary main_v174 main_v175 (broadcastInDim S1x128 ![1] bcast_S128_S1x128_1 : (⟨S128, .f32⟩ : BufTy).Contents (Elt F) → (⟨S1x128, .f32⟩ : BufTy).Contents (Elt F)),
    unary main_v175 main_v176 (broadcastInDim S32768x128 ![0, 1] bcast_S1x128_S32768x128_0_1 : (⟨S1x128, .f32⟩ : BufTy).Contents (Elt F) → (⟨S32768x128, .f32⟩ : BufTy).Contents (Elt F)),
    binary main_v172 main_v176 main_v177 (Host.divf : (⟨S32768x128, .f32⟩ : BufTy).Contents (Elt F) → (⟨S32768x128, .f32⟩ : BufTy).Contents (Elt F) → (⟨S32768x128, .f32⟩ : BufTy).Contents (Elt F)),
    unary main_arg3 main_v178 ((extractStridedSlice S128x1 ![0, 9] · slices_S128x12_S128x1_0_9) : (⟨S128x12, .f32⟩ : BufTy).Contents (Elt F) → (⟨S128x1, .f32⟩ : BufTy).Contents (Elt F)),
    reshape main_v178 main_v179 rfl shapeCasts_S128x1_S128,
    unary main_v179 main_v180 (Host.negf : (⟨S128, .f32⟩ : BufTy).Contents (Elt F) → (⟨S128, .f32⟩ : BufTy).Contents (Elt F)),
    unary main_v12 main_v181 ((extractStridedSlice S32768x128x1 ![0, 0, 6] · slices_S32768x128x8_S32768x128x1_0_0_6) : (⟨S32768x128x8, .f32⟩ : BufTy).Contents (Elt F) → (⟨S32768x128x1, .f32⟩ : BufTy).Contents (Elt F)),
    reshape main_v181 main_v182 rfl shapeCasts_S32768x128x1_S32768x128,
    unary main_v180 main_v183 (broadcastInDim S1x128 ![1] bcast_S128_S1x128_1 : (⟨S128, .f32⟩ : BufTy).Contents (Elt F) → (⟨S1x128, .f32⟩ : BufTy).Contents (Elt F)),
    unary main_v183 main_v184 (broadcastInDim S32768x128 ![0, 1] bcast_S1x128_S32768x128_0_1 : (⟨S1x128, .f32⟩ : BufTy).Contents (Elt F) → (⟨S32768x128, .f32⟩ : BufTy).Contents (Elt F)),
    binary main_v184 main_v182 main_v185 (mulf : (⟨S32768x128, .f32⟩ : BufTy).Contents (Elt F) → (⟨S32768x128, .f32⟩ : BufTy).Contents (Elt F) → (⟨S32768x128, .f32⟩ : BufTy).Contents (Elt F)),
    unary main_arg3 main_v186 ((extractStridedSlice S128x1 ![0, 8] · slices_S128x12_S128x1_0_8) : (⟨S128x12, .f32⟩ : BufTy).Contents (Elt F) → (⟨S128x1, .f32⟩ : BufTy).Contents (Elt F)),
    reshape main_v186 main_v187 rfl shapeCasts_S128x1_S128,
    unary main_v12 main_v188 ((extractStridedSlice S32768x128x1 ![0, 0, 4] · slices_S32768x128x8_S32768x128x1_0_0_4) : (⟨S32768x128x8, .f32⟩ : BufTy).Contents (Elt F) → (⟨S32768x128x1, .f32⟩ : BufTy).Contents (Elt F)),
    reshape main_v188 main_v189 rfl shapeCasts_S32768x128x1_S32768x128,
    unary main_v187 main_v190 (broadcastInDim S1x128 ![1] bcast_S128_S1x128_1 : (⟨S128, .f32⟩ : BufTy).Contents (Elt F) → (⟨S1x128, .f32⟩ : BufTy).Contents (Elt F)),
    unary main_v190 main_v191 (broadcastInDim S32768x128 ![0, 1] bcast_S1x128_S32768x128_0_1 : (⟨S1x128, .f32⟩ : BufTy).Contents (Elt F) → (⟨S32768x128, .f32⟩ : BufTy).Contents (Elt F)),
    binary main_v191 main_v189 main_v192 (mulf : (⟨S32768x128, .f32⟩ : BufTy).Contents (Elt F) → (⟨S32768x128, .f32⟩ : BufTy).Contents (Elt F) → (⟨S32768x128, .f32⟩ : BufTy).Contents (Elt F)),
    binary main_v185 main_v192 main_v193 (subf : (⟨S32768x128, .f32⟩ : BufTy).Contents (Elt F) → (⟨S32768x128, .f32⟩ : BufTy).Contents (Elt F) → (⟨S32768x128, .f32⟩ : BufTy).Contents (Elt F)),
    binary main_v193 main_v25 main_v194 (addf : (⟨S32768x128, .f32⟩ : BufTy).Contents (Elt F) → (⟨S32768x128, .f32⟩ : BufTy).Contents (Elt F) → (⟨S32768x128, .f32⟩ : BufTy).Contents (Elt F)) ]

abbrev ops7 : List (HloOp τ sig (Elt F)) :=
  [ unary main_v1 main_v195 ((extractStridedSlice S32768x128x1 ![0, 0, 7] · slices_S32768x128x8_S32768x128x1_0_0_7) : (⟨S32768x128x8, .f32⟩ : BufTy).Contents (Elt F) → (⟨S32768x128x1, .f32⟩ : BufTy).Contents (Elt F)),
    reshape main_v195 main_v196 rfl shapeCasts_S32768x128x1_S32768x128,
    nullary main_cst_13 (constant S_ .f32 0x40000000#32),
    unary main_cst_13 main_v197 (broadcastInDim S32768x128 ![] bcast_S_S32768x128 : (⟨S_, .f32⟩ : BufTy).Contents (Elt F) → (⟨S32768x128, .f32⟩ : BufTy).Contents (Elt F)),
    binary main_v197 main_v196 main_v198 (mulf : (⟨S32768x128, .f32⟩ : BufTy).Contents (Elt F) → (⟨S32768x128, .f32⟩ : BufTy).Contents (Elt F) → (⟨S32768x128, .f32⟩ : BufTy).Contents (Elt F)),
    binary main_v194 main_v198 main_v199 (subf : (⟨S32768x128, .f32⟩ : BufTy).Contents (Elt F) → (⟨S32768x128, .f32⟩ : BufTy).Contents (Elt F) → (⟨S32768x128, .f32⟩ : BufTy).Contents (Elt F)),
    unary main_v1 main_v200 ((extractStridedSlice S32768x128x1 ![0, 0, 6] · slices_S32768x128x8_S32768x128x1_0_0_6) : (⟨S32768x128x8, .f32⟩ : BufTy).Contents (Elt F) → (⟨S32768x128x1, .f32⟩ : BufTy).Contents (Elt F)),
    reshape main_v200 main_v201 rfl shapeCasts_S32768x128x1_S32768x128,
    unary main_arg4 main_v202 ((extractStridedSlice S128x1 ![0, 3] · slices_S128x4_S128x1_0_3) : (⟨S128x4, .f32⟩ : BufTy).Contents (Elt F) → (⟨S128x1, .f32⟩ : BufTy).Contents (Elt F)),
    reshape main_v202 main_v203 rfl shapeCasts_S128x1_S128,
    unary main_v203 main_v204 (broadcastInDim S1x128 ![1] bcast_S128_S1x128_1 : (⟨S128, .f32⟩ : BufTy).Contents (Elt F) → (⟨S1x128, .f32⟩ : BufTy).Contents (Elt F)),
    unary main_v204 main_v205 (broadcastInDim S32768x128 ![0, 1] bcast_S1x128_S32768x128_0_1 : (⟨S1x128, .f32⟩ : BufTy).Contents (Elt F) → (⟨S32768x128, .f32⟩ : BufTy).Contents (Elt F)),
    binary main_v201 main_v205 main_v206 (Host.divf : (⟨S32768x128, .f32⟩ : BufTy).Contents (Elt F) → (⟨S32768x128, .f32⟩ : BufTy).Contents (Elt F) → (⟨S32768x128, .f32⟩ : BufTy).Contents (Elt F)),
    binary main_v199 main_v206 main_v207 (subf : (⟨S32768x128, .f32⟩ : BufTy).Contents (Elt F) → (⟨S32768x128, .f32⟩ : BufTy).Contents (Elt F) → (⟨S32768x128, .f32⟩ : BufTy).Contents (Elt F)),
    unary main_v33 main_v208 (broadcastInDim S1x128 ![1] bcast_S128_S1x128_1 : (⟨S128, .f32⟩ : BufTy).Contents (Elt F) → (⟨S1x128, .f32⟩ : BufTy).Contents (Elt F)),
    unary main_v208 main_v209 (broadcastInDim S32768x128 ![0, 1] bcast_S1x128_S32768x128_0_1 : (⟨S1x128, .f32⟩ : BufTy).Contents (Elt F) → (⟨S32768x128, .f32⟩ : BufTy).Contents (Elt F)),
    binary main_v209 main_v207 main_v210 (mulf : (⟨S32768x128, .f32⟩ : BufTy).Contents (Elt F) → (⟨S32768x128, .f32⟩ : BufTy).Contents (Elt F) → (⟨S32768x128, .f32⟩ : BufTy).Contents (Elt F)),
    unary main_arg4 main_v211 ((extractStridedSlice S128x1 ![0, 3] · slices_S128x4_S128x1_0_3) : (⟨S128x4, .f32⟩ : BufTy).Contents (Elt F) → (⟨S128x1, .f32⟩ : BufTy).Contents (Elt F)),
    reshape main_v211 main_v212 rfl shapeCasts_S128x1_S128,
    unary main_v212 main_v213 (broadcastInDim S1x128 ![1] bcast_S128_S1x128_1 : (⟨S128, .f32⟩ : BufTy).Contents (Elt F) → (⟨S1x128, .f32⟩ : BufTy).Contents (Elt F)),
    unary main_v213 main_v214 (broadcastInDim S32768x128 ![0, 1] bcast_S1x128_S32768x128_0_1 : (⟨S1x128, .f32⟩ : BufTy).Contents (Elt F) → (⟨S32768x128, .f32⟩ : BufTy).Contents (Elt F)),
    binary main_v210 main_v214 main_v215 (Host.divf : (⟨S32768x128, .f32⟩ : BufTy).Contents (Elt F) → (⟨S32768x128, .f32⟩ : BufTy).Contents (Elt F) → (⟨S32768x128, .f32⟩ : BufTy).Contents (Elt F)),
    unary main_v1 main_v216 ((extractStridedSlice S32768x128x1 ![0, 0, 1] · slices_S32768x128x8_S32768x128x1_0_0_1) : (⟨S32768x128x8, .f32⟩ : BufTy).Contents (Elt F) → (⟨S32768x128x1, .f32⟩ : BufTy).Contents (Elt F)),
    reshape main_v216 main_v217 rfl shapeCasts_S32768x128x1_S32768x128,
    unary main_v33 main_v218 (broadcastInDim S1x128 ![1] bcast_S128_S1x128_1 : (⟨S128, .f32⟩ : BufTy).Contents (Elt F) → (⟨S1x128, .f32⟩ : BufTy).Contents (Elt F)),
    unary main_v218 main_v219 (broadcastInDim S32768x128 ![0, 1] bcast_S1x128_S32768x128_0_1 : (⟨S1x128, .f32⟩ : BufTy).Contents (Elt F) → (⟨S32768x128, .f32⟩ : BufTy).Contents (Elt F)),
    binary main_v219 main_v217 main_v220 (mulf : (⟨S32768x128, .f32⟩ : BufTy).Contents (Elt F) → (⟨S32768x128, .f32⟩ : BufTy).Contents (Elt F) → (⟨S32768x128, .f32⟩ : BufTy).Contents (Elt F)),
    unary main_v1 main_v221 ((extractStridedSlice S32768x128x1 ![0, 0, 3] · slices_S32768x128x8_S32768x128x1_0_0_3) : (⟨S32768x128x8, .f32⟩ : BufTy).Contents (Elt F) → (⟨S32768x128x1, .f32⟩ : BufTy).Contents (Elt F)),
    reshape main_v221 main_v222 rfl shapeCasts_S32768x128x1_S32768x128,
    unary main_v33 main_v223 (broadcastInDim S1x128 ![1] bcast_S128_S1x128_1 : (⟨S128, .f32⟩ : BufTy).Contents (Elt F) → (⟨S1x128, .f32⟩ : BufTy).Contents (Elt F)) ]

abbrev ops8 : List (HloOp τ sig (Elt F)) :=
  [ unary main_v223 main_v224 (broadcastInDim S32768x128 ![0, 1] bcast_S1x128_S32768x128_0_1 : (⟨S1x128, .f32⟩ : BufTy).Contents (Elt F) → (⟨S32768x128, .f32⟩ : BufTy).Contents (Elt F)),
    binary main_v224 main_v222 main_v225 (mulf : (⟨S32768x128, .f32⟩ : BufTy).Contents (Elt F) → (⟨S32768x128, .f32⟩ : BufTy).Contents (Elt F) → (⟨S32768x128, .f32⟩ : BufTy).Contents (Elt F)),
    unary main_v1 main_v226 ((extractStridedSlice S32768x128x1 ![0, 0, 5] · slices_S32768x128x8_S32768x128x1_0_0_5) : (⟨S32768x128x8, .f32⟩ : BufTy).Contents (Elt F) → (⟨S32768x128x1, .f32⟩ : BufTy).Contents (Elt F)),
    reshape main_v226 main_v227 rfl shapeCasts_S32768x128x1_S32768x128,
    unary main_v33 main_v228 (broadcastInDim S1x128 ![1] bcast_S128_S1x128_1 : (⟨S128, .f32⟩ : BufTy).Contents (Elt F) → (⟨S1x128, .f32⟩ : BufTy).Contents (Elt F)),
    unary main_v228 main_v229 (broadcastInDim S32768x128 ![0, 1] bcast_S1x128_S32768x128_0_1 : (⟨S1x128, .f32⟩ : BufTy).Contents (Elt F) → (⟨S32768x128, .f32⟩ : BufTy).Contents (Elt F)),
    binary main_v229 main_v227 main_v230 (mulf : (⟨S32768x128, .f32⟩ : BufTy).Contents (Elt F) → (⟨S32768x128, .f32⟩ : BufTy).Contents (Elt F) → (⟨S32768x128, .f32⟩ : BufTy).Contents (Elt F)),
    unary main_v1 main_v231 ((extractStridedSlice S32768x128x1 ![0, 0, 7] · slices_S32768x128x8_S32768x128x1_0_0_7) : (⟨S32768x128x8, .f32⟩ : BufTy).Contents (Elt F) → (⟨S32768x128x1, .f32⟩ : BufTy).Contents (Elt F)),
    reshape main_v231 main_v232 rfl shapeCasts_S32768x128x1_S32768x128,
    unary main_v33 main_v233 (broadcastInDim S1x128 ![1] bcast_S128_S1x128_1 : (⟨S128, .f32⟩ : BufTy).Contents (Elt F) → (⟨S1x128, .f32⟩ : BufTy).Contents (Elt F)),
    unary main_v233 main_v234 (broadcastInDim S32768x128 ![0, 1] bcast_S1x128_S32768x128_0_1 : (⟨S1x128, .f32⟩ : BufTy).Contents (Elt F) → (⟨S32768x128, .f32⟩ : BufTy).Contents (Elt F)),
    binary main_v234 main_v232 main_v235 (mulf : (⟨S32768x128, .f32⟩ : BufTy).Contents (Elt F) → (⟨S32768x128, .f32⟩ : BufTy).Contents (Elt F) → (⟨S32768x128, .f32⟩ : BufTy).Contents (Elt F)),
    unary main_v220 main_v236 (broadcastInDim S32768x128x1 ![0, 1] bcast_S32768x128_S32768x128x1_0_1 : (⟨S32768x128, .f32⟩ : BufTy).Contents (Elt F) → (⟨S32768x128x1, .f32⟩ : BufTy).Contents (Elt F)),
    unary main_v79 main_v237 (broadcastInDim S32768x128x1 ![0, 1] bcast_S32768x128_S32768x128x1_0_1 : (⟨S32768x128, .f32⟩ : BufTy).Contents (Elt F) → (⟨S32768x128x1, .f32⟩ : BufTy).Contents (Elt F)),
    unary main_v225 main_v238 (broadcastInDim S32768x128x1 ![0, 1] bcast_S32768x128_S32768x128x1_0_1 : (⟨S32768x128, .f32⟩ : BufTy).Contents (Elt F) → (⟨S32768x128x1, .f32⟩ : BufTy).Contents (Elt F)),
    unary main_v124 main_v239 (broadcastInDim S32768x128x1 ![0, 1] bcast_S32768x128_S32768x128x1_0_1 : (⟨S32768x128, .f32⟩ : BufTy).Contents (Elt F) → (⟨S32768x128x1, .f32⟩ : BufTy).Contents (Elt F)),
    unary main_v230 main_v240 (broadcastInDim S32768x128x1 ![0, 1] bcast_S32768x128_S32768x128x1_0_1 : (⟨S32768x128, .f32⟩ : BufTy).Contents (Elt F) → (⟨S32768x128x1, .f32⟩ : BufTy).Contents (Elt F)),
    unary main_v177 main_v241 (broadcastInDim S32768x128x1 ![0, 1] bcast_S32768x128_S32768x128x1_0_1 : (⟨S32768x128, .f32⟩ : BufTy).Contents (Elt F) → (⟨S32768x128x1, .f32⟩ : BufTy).Contents (Elt F)),
    unary main_v235 main_v242 (broadcastInDim S32768x128x1 ![0, 1] bcast_S32768x128_S32768x128x1_0_1 : (⟨S32768x128, .f32⟩ : BufTy).Contents (Elt F) → (⟨S32768x128x1, .f32⟩ : BufTy).Contents (Elt F)),
    unary main_v215 main_v243 (broadcastInDim S32768x128x1 ![0, 1] bcast_S32768x128_S32768x128x1_0_1 : (⟨S32768x128, .f32⟩ : BufTy).Contents (Elt F) → (⟨S32768x128x1, .f32⟩ : BufTy).Contents (Elt F)) ]

abbrev ops9 : List (HloOp τ sig (Elt F)) :=
  [ nary ![main_v236, main_v237, main_v238, main_v239, main_v240, main_v241, main_v242, main_v243] main_v244 (fun u => concatenate S32768x128x8 2 [⟨S32768x128x1, u 0⟩, ⟨S32768x128x1, u 1⟩, ⟨S32768x128x1, u 2⟩, ⟨S32768x128x1, u 3⟩, ⟨S32768x128x1, u 4⟩, ⟨S32768x128x1, u 5⟩, ⟨S32768x128x1, u 6⟩, ⟨S32768x128x1, u 7⟩] concatenates_S32768x128x1_S32768x128x1_S32768x128x1_S32768x128x1_S32768x128x1_S32768x128x1_S32768x128x1_S32768x128x1_S32768x128x8_d2),
    reshape main_v244 main_v245 rfl shapeCasts_S32768x128x8_S32768x1024 ]

/-- The whole line: the five printed windows, two stretches each. -/
abbrev ops : List (HloOp τ sig (Elt F)) :=
  (ops0 ++ ops1) ++ (ops2 ++ ops3) ++ (ops4 ++ ops5) ++ (ops6 ++ ops7) ++ (ops8 ++ ops9)

/-! ## Each printed window is the line of its operations; the program is the line of them all -/

set_option maxHeartbeats 4000000 in
theorem part0_eq (c : Dev nD) : main_part0 (F := F) c = seq (ops0 ++ ops1) := rfl
set_option maxHeartbeats 4000000 in
theorem part1_eq (c : Dev nD) : main_part1 (F := F) c = seq (ops2 ++ ops3) := rfl
set_option maxHeartbeats 4000000 in
theorem part2_eq (c : Dev nD) : main_part2 (F := F) c = seq (ops4 ++ ops5) := rfl
set_option maxHeartbeats 4000000 in
theorem part3_eq (c : Dev nD) : main_part3 (F := F) c = seq (ops6 ++ ops7) := rfl
set_option maxHeartbeats 4000000 in
theorem part4_eq (c : Dev nD) : main_part4 (F := F) c = seq (ops8 ++ ops9) := rfl

theorem main_eq (c : Dev nD) : main (F := F) c = seq ops := by
  unfold main
  rw [part0_eq, part1_eq, part2_eq, part3_eq, part4_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its results -/

theorem ops_sub0 : (ops0 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., nullary_bufs_sub .., unary_bufs_sub .., binary_bufs_sub ..⟩

theorem ops_sub1 : (ops1 : List (HloOp τ sig (Elt F))).Forall fun op => op.bufs ⊆ tcRefs τ sig :=
  ⟨binary_bufs_sub .., unary_bufs_sub .., nullary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., unary_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub ..⟩

theorem ops_sub2 : (ops2 : List (HloOp τ sig (Elt F))).Forall fun op => op.bufs ⊆ tcRefs τ sig :=
  ⟨binary_bufs_sub .., binary_bufs_sub .., unary_bufs_sub .., reshape_bufs_sub .., unary_bufs_sub .., reshape_bufs_sub .., unary_bufs_sub .., unary_bufs_sub .., binary_bufs_sub .., binary_bufs_sub .., binary_bufs_sub .., unary_bufs_sub .., reshape_bufs_sub .., nullary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., unary_bufs_sub .., binary_bufs_sub .., unary_bufs_sub .., reshape_bufs_sub ..⟩

theorem ops_sub3 : (ops3 : List (HloOp τ sig (Elt F))).Forall fun op => op.bufs ⊆ tcRefs τ sig :=
  ⟨unary_bufs_sub .., unary_bufs_sub .., binary_bufs_sub .., unary_bufs_sub .., reshape_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., binary_bufs_sub .., unary_bufs_sub .., reshape_bufs_sub .., nullary_bufs_sub ..⟩

theorem ops_sub4 : (ops4 : List (HloOp τ sig (Elt F))).Forall fun op => op.bufs ⊆ tcRefs τ sig :=
  ⟨unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., reshape_bufs_sub .., unary_bufs_sub .., reshape_bufs_sub ..⟩

theorem ops_sub5 : (ops5 : List (HloOp τ sig (Elt F))).Forall fun op => op.bufs ⊆ tcRefs τ sig :=
  ⟨unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., binary_bufs_sub .., unary_bufs_sub .., reshape_bufs_sub .., nullary_bufs_sub .., unary_bufs_sub .., binary_bufs_sub .., binary_bufs_sub .., unary_bufs_sub .., reshape_bufs_sub .., unary_bufs_sub ..⟩

theorem ops_sub6 : (ops6 : List (HloOp τ sig (Elt F))).Forall fun op => op.bufs ⊆ tcRefs τ sig :=
  ⟨reshape_bufs_sub .., unary_bufs_sub .., unary_bufs_sub .., binary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., reshape_bufs_sub .., unary_bufs_sub .., unary_bufs_sub .., binary_bufs_sub .., unary_bufs_sub .., reshape_bufs_sub .., unary_bufs_sub .., reshape_bufs_sub .., unary_bufs_sub .., unary_bufs_sub .., binary_bufs_sub .., binary_bufs_sub .., binary_bufs_sub ..⟩

theorem ops_sub7 : (ops7 : List (HloOp τ sig (Elt F))).Forall fun op => op.bufs ⊆ tcRefs τ sig :=
  ⟨unary_bufs_sub .., reshape_bufs_sub .., nullary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub ..⟩

theorem ops_sub8 : (ops8 : List (HloOp τ sig (Elt F))).Forall fun op => op.bufs ⊆ tcRefs τ sig :=
  ⟨unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., unary_bufs_sub .., unary_bufs_sub .., unary_bufs_sub .., unary_bufs_sub .., unary_bufs_sub .., unary_bufs_sub .., unary_bufs_sub ..⟩

theorem ops_sub9 : (ops9 : List (HloOp τ sig (Elt F))).Forall fun op => op.bufs ⊆ tcRefs τ sig :=
  ⟨nary_bufs_sub .., reshape_bufs_sub ..⟩

theorem ops_sub : (ops : List (HloOp τ sig (Elt F))).Forall fun op => op.bufs ⊆ tcRefs τ sig :=
  List.forall_append.mpr ⟨List.forall_append.mpr ⟨List.forall_append.mpr ⟨List.forall_append.mpr
    ⟨List.forall_append.mpr ⟨ops_sub0, ops_sub1⟩, List.forall_append.mpr ⟨ops_sub2, ops_sub3⟩⟩,
    List.forall_append.mpr ⟨ops_sub4, ops_sub5⟩⟩, List.forall_append.mpr ⟨ops_sub6, ops_sub7⟩⟩,
    List.forall_append.mpr ⟨ops_sub8, ops_sub9⟩⟩

theorem fresh0 : ∀ op ∈ (ops0 : List (HloOp τ sig (Elt F))), op.fresh = ∅ := by
  intro _ h; (repeat (cases h with | head => rfl | tail _ h => ?_)); exact nomatch h

theorem fresh1 : ∀ op ∈ (ops1 : List (HloOp τ sig (Elt F))), op.fresh = ∅ := by
  intro _ h; (repeat (cases h with | head => rfl | tail _ h => ?_)); exact nomatch h

theorem fresh2 : ∀ op ∈ (ops2 : List (HloOp τ sig (Elt F))), op.fresh = ∅ := by
  intro _ h; (repeat (cases h with | head => rfl | tail _ h => ?_)); exact nomatch h

theorem fresh3 : ∀ op ∈ (ops3 : List (HloOp τ sig (Elt F))), op.fresh = ∅ := by
  intro _ h; (repeat (cases h with | head => rfl | tail _ h => ?_)); exact nomatch h

theorem fresh4 : ∀ op ∈ (ops4 : List (HloOp τ sig (Elt F))), op.fresh = ∅ := by
  intro _ h; (repeat (cases h with | head => rfl | tail _ h => ?_)); exact nomatch h

theorem fresh5 : ∀ op ∈ (ops5 : List (HloOp τ sig (Elt F))), op.fresh = ∅ := by
  intro _ h; (repeat (cases h with | head => rfl | tail _ h => ?_)); exact nomatch h

theorem fresh6 : ∀ op ∈ (ops6 : List (HloOp τ sig (Elt F))), op.fresh = ∅ := by
  intro _ h; (repeat (cases h with | head => rfl | tail _ h => ?_)); exact nomatch h

theorem fresh7 : ∀ op ∈ (ops7 : List (HloOp τ sig (Elt F))), op.fresh = ∅ := by
  intro _ h; (repeat (cases h with | head => rfl | tail _ h => ?_)); exact nomatch h

theorem fresh8 : ∀ op ∈ (ops8 : List (HloOp τ sig (Elt F))), op.fresh = ∅ := by
  intro _ h; (repeat (cases h with | head => rfl | tail _ h => ?_)); exact nomatch h

theorem fresh9 : ∀ op ∈ (ops9 : List (HloOp τ sig (Elt F))), op.fresh = ∅ := by
  intro _ h; (repeat (cases h with | head => rfl | tail _ h => ?_)); exact nomatch h

theorem fresh : ∀ op ∈ (ops : List (HloOp τ sig (Elt F))), op.fresh = ∅ := by
  intro op h
  simp only [ops, List.mem_append] at h
  rcases h with ((((h | h) | (h | h)) | (h | h)) | (h | h)) | (h | h)
  · exact fresh0 op h
  · exact fresh1 op h
  · exact fresh2 op h
  · exact fresh3 op h
  · exact fresh4 op h
  · exact fresh5 op h
  · exact fresh6 op h
  · exact fresh7 op h
  · exact fresh8 op h
  · exact fresh9 op h

/-! ## The fold, one stretch at a time, from any contents `W` that hold the stages read so far -/

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxHeartbeats 4000000 in
/-- Operations 1 to 33: the buffers still read later hold their stages of the arguments. -/
theorem step0 (V W : Valuation τ sig (Elt F))
    (h_arg0 : W (Proc.devRef .tc main_arg0) = V (Proc.devRef .tc main_arg0))
    (h_arg1 : W (Proc.devRef .tc main_arg1) = V (Proc.devRef .tc main_arg1))
    (h_arg2 : W (Proc.devRef .tc main_arg2) = V (Proc.devRef .tc main_arg2))
    (h_arg3 : W (Proc.devRef .tc main_arg3) = V (Proc.devRef .tc main_arg3))
    (h_arg4 : W (Proc.devRef .tc main_arg4) = V (Proc.devRef .tc main_arg4))
    (h_arg5 : W (Proc.devRef .tc main_arg5) = V (Proc.devRef .tc main_arg5))
    (h_arg6 : W (Proc.devRef .tc main_arg6) = V (Proc.devRef .tc main_arg6)) :
    after ops0 W (Proc.devRef .tc main_arg0) = V (Proc.devRef .tc main_arg0)
      ∧ after ops0 W (Proc.devRef .tc main_arg1) = V (Proc.devRef .tc main_arg1)
      ∧ after ops0 W (Proc.devRef .tc main_arg2) = V (Proc.devRef .tc main_arg2)
      ∧ after ops0 W (Proc.devRef .tc main_arg3) = V (Proc.devRef .tc main_arg3)
      ∧ after ops0 W (Proc.devRef .tc main_arg4) = V (Proc.devRef .tc main_arg4)
      ∧ after ops0 W (Proc.devRef .tc main_arg5) = V (Proc.devRef .tc main_arg5)
      ∧ after ops0 W (Proc.devRef .tc main_arg6) = V (Proc.devRef .tc main_arg6)
      ∧ after ops0 W (Proc.devRef .tc main_v19) = val_main_v19 (F := F)
      ∧ after ops0 W (Proc.devRef .tc main_v17) = val_main_v17 (F := F)
      ∧ after ops0 W (Proc.devRef .tc main_v15) = val_main_v15 (F := F) (V (Proc.devRef .tc main_arg1))
      ∧ after ops0 W (Proc.devRef .tc main_v12) = val_main_v12 (F := F) (V (Proc.devRef .tc main_arg1)) (V (Proc.devRef .tc main_arg6))
      ∧ after ops0 W (Proc.devRef .tc main_v1) = val_main_v1 (F := F) (V (Proc.devRef .tc main_arg1)) := by
  refine ⟨?_, ?_, ?_, ?_, ?_, ?_, ?_, ?_, ?_, ?_, ?_, ?_⟩
  all_goals (after_results_simp; (try simp only [h_arg0, h_arg1, h_arg2, h_arg3, h_arg4, h_arg5, h_arg6]); first | done | rfl)

set_option maxHeartbeats 4000000 in
/-- Operations 34 to 65: the buffers still read later hold their stages of the arguments. -/
theorem step1 (V W : Valuation τ sig (Elt F))
    (h_arg0 : W (Proc.devRef .tc main_arg0) = V (Proc.devRef .tc main_arg0))
    (h_arg1 : W (Proc.devRef .tc main_arg1) = V (Proc.devRef .tc main_arg1))
    (h_arg2 : W (Proc.devRef .tc main_arg2) = V (Proc.devRef .tc main_arg2))
    (h_arg3 : W (Proc.devRef .tc main_arg3) = V (Proc.devRef .tc main_arg3))
    (h_arg4 : W (Proc.devRef .tc main_arg4) = V (Proc.devRef .tc main_arg4))
    (h_arg5 : W (Proc.devRef .tc main_arg5) = V (Proc.devRef .tc main_arg5))
    (h_arg6 : W (Proc.devRef .tc main_arg6) = V (Proc.devRef .tc main_arg6))
    (h_v19 : W (Proc.devRef .tc main_v19) = val_main_v19 (F := F))
    (h_v17 : W (Proc.devRef .tc main_v17) = val_main_v17 (F := F))
    (h_v15 : W (Proc.devRef .tc main_v15) = val_main_v15 (F := F) (V (Proc.devRef .tc main_arg1)))
    (h_v12 : W (Proc.devRef .tc main_v12) = val_main_v12 (F := F) (V (Proc.devRef .tc main_arg1)) (V (Proc.devRef .tc main_arg6)))
    (h_v1 : W (Proc.devRef .tc main_v1) = val_main_v1 (F := F) (V (Proc.devRef .tc main_arg1))) :
    after ops1 W (Proc.devRef .tc main_arg0) = V (Proc.devRef .tc main_arg0)
      ∧ after ops1 W (Proc.devRef .tc main_arg1) = V (Proc.devRef .tc main_arg1)
      ∧ after ops1 W (Proc.devRef .tc main_arg2) = V (Proc.devRef .tc main_arg2)
      ∧ after ops1 W (Proc.devRef .tc main_arg3) = V (Proc.devRef .tc main_arg3)
      ∧ after ops1 W (Proc.devRef .tc main_arg4) = V (Proc.devRef .tc main_arg4)
      ∧ after ops1 W (Proc.devRef .tc main_arg5) = V (Proc.devRef .tc main_arg5)
      ∧ after ops1 W (Proc.devRef .tc main_arg6) = V (Proc.devRef .tc main_arg6)
      ∧ after ops1 W (Proc.devRef .tc main_v47) = val_main_v47 (F := F) (V (Proc.devRef .tc main_arg3))
      ∧ after ops1 W (Proc.devRef .tc main_v45) = val_main_v45 (F := F) (V (Proc.devRef .tc main_arg1)) (V (Proc.devRef .tc main_arg6))
      ∧ after ops1 W (Proc.devRef .tc main_v41) = val_main_v41 (F := F) (V (Proc.devRef .tc main_arg1)) (V (Proc.devRef .tc main_arg3)) (V (Proc.devRef .tc main_arg6))
      ∧ after ops1 W (Proc.devRef .tc main_v12) = val_main_v12 (F := F) (V (Proc.devRef .tc main_arg1)) (V (Proc.devRef .tc main_arg6))
      ∧ after ops1 W (Proc.devRef .tc main_v25) = val_main_v25 (F := F) (V (Proc.devRef .tc main_arg1)) (V (Proc.devRef .tc main_arg2))
      ∧ after ops1 W (Proc.devRef .tc main_v1) = val_main_v1 (F := F) (V (Proc.devRef .tc main_arg1))
      ∧ after ops1 W (Proc.devRef .tc main_v33) = val_main_v33 (F := F) (V (Proc.devRef .tc main_arg5)) := by
  refine ⟨?_, ?_, ?_, ?_, ?_, ?_, ?_, ?_, ?_, ?_, ?_, ?_, ?_, ?_⟩
  all_goals (after_results_simp; (try simp only [h_arg0, h_arg1, h_arg2, h_arg3, h_arg4, h_arg5, h_arg6, h_v19, h_v17, h_v15, h_v12, h_v1]); first | done | rfl)

set_option maxHeartbeats 4000000 in
/-- Operations 66 to 95: the buffers still read later hold their stages of the arguments. -/
theorem step2 (V W : Valuation τ sig (Elt F))
    (h_arg0 : W (Proc.devRef .tc main_arg0) = V (Proc.devRef .tc main_arg0))
    (h_arg1 : W (Proc.devRef .tc main_arg1) = V (Proc.devRef .tc main_arg1))
    (h_arg2 : W (Proc.devRef .tc main_arg2) = V (Proc.devRef .tc main_arg2))
    (h_arg3 : W (Proc.devRef .tc main_arg3) = V (Proc.devRef .tc main_arg3))
    (h_arg4 : W (Proc.devRef .tc main_arg4) = V (Proc.devRef .tc main_arg4))
    (h_arg5 : W (Proc.devRef .tc main_arg5) = V (Proc.devRef .tc main_arg5))
    (h_arg6 : W (Proc.devRef .tc main_arg6) = V (Proc.devRef .tc main_arg6))
    (h_v47 : W (Proc.devRef .tc main_v47) = val_main_v47 (F := F) (V (Proc.devRef .tc main_arg3)))
    (h_v45 : W (Proc.devRef .tc main_v45) = val_main_v45 (F := F) (V (Proc.devRef .tc main_arg1)) (V (Proc.devRef .tc main_arg6)))
    (h_v41 : W (Proc.devRef .tc main_v41) = val_main_v41 (F := F) (V (Proc.devRef .tc main_arg1)) (V (Proc.devRef .tc main_arg3)) (V (Proc.devRef .tc main_arg6)))
    (h_v12 : W (Proc.devRef .tc main_v12) = val_main_v12 (F := F) (V (Proc.devRef .tc main_arg1)) (V (Proc.devRef .tc main_arg6)))
    (h_v25 : W (Proc.devRef .tc main_v25) = val_main_v25 (F := F) (V (Proc.devRef .tc main_arg1)) (V (Proc.devRef .tc main_arg2)))
    (h_v1 : W (Proc.devRef .tc main_v1) = val_main_v1 (F := F) (V (Proc.devRef .tc main_arg1)))
    (h_v33 : W (Proc.devRef .tc main_v33) = val_main_v33 (F := F) (V (Proc.devRef .tc main_arg5))) :
    after ops2 W (Proc.devRef .tc main_arg0) = V (Proc.devRef .tc main_arg0)
      ∧ after ops2 W (Proc.devRef .tc main_arg1) = V (Proc.devRef .tc main_arg1)
      ∧ after ops2 W (Proc.devRef .tc main_arg2) = V (Proc.devRef .tc main_arg2)
      ∧ after ops2 W (Proc.devRef .tc main_arg3) = V (Proc.devRef .tc main_arg3)
      ∧ after ops2 W (Proc.devRef .tc main_arg4) = V (Proc.devRef .tc main_arg4)
      ∧ after ops2 W (Proc.devRef .tc main_arg5) = V (Proc.devRef .tc main_arg5)
      ∧ after ops2 W (Proc.devRef .tc main_arg6) = V (Proc.devRef .tc main_arg6)
      ∧ after ops2 W (Proc.devRef .tc main_v76) = val_main_v76 (F := F) (V (Proc.devRef .tc main_arg4))
      ∧ after ops2 W (Proc.devRef .tc main_v74) = val_main_v74 (F := F) (V (Proc.devRef .tc main_arg1)) (V (Proc.devRef .tc main_arg2)) (V (Proc.devRef .tc main_arg3)) (V (Proc.devRef .tc main_arg4)) (V (Proc.devRef .tc main_arg5)) (V (Proc.devRef .tc main_arg6))
      ∧ after ops2 W (Proc.devRef .tc main_v12) = val_main_v12 (F := F) (V (Proc.devRef .tc main_arg1)) (V (Proc.devRef .tc main_arg6))
      ∧ after ops2 W (Proc.devRef .tc main_v25) = val_main_v25 (F := F) (V (Proc.devRef .tc main_arg1)) (V (Proc.devRef .tc main_arg2))
      ∧ after ops2 W (Proc.devRef .tc main_v1) = val_main_v1 (F := F) (V (Proc.devRef .tc main_arg1))
      ∧ after ops2 W (Proc.devRef .tc main_v33) = val_main_v33 (F := F) (V (Proc.devRef .tc main_arg5)) := by
  refine ⟨?_, ?_, ?_, ?_, ?_, ?_, ?_, ?_, ?_, ?_, ?_, ?_, ?_⟩
  all_goals (after_results_simp; (try simp only [h_arg0, h_arg1, h_arg2, h_arg3, h_arg4, h_arg5, h_arg6, h_v47, h_v45, h_v41, h_v12, h_v25, h_v1, h_v33]); first | done | rfl)

set_option maxHeartbeats 4000000 in
/-- Operations 96 to 125: the buffers still read later hold their stages of the arguments. -/
theorem step3 (V W : Valuation τ sig (Elt F))
    (h_arg0 : W (Proc.devRef .tc main_arg0) = V (Proc.devRef .tc main_arg0))
    (h_arg1 : W (Proc.devRef .tc main_arg1) = V (Proc.devRef .tc main_arg1))
    (h_arg2 : W (Proc.devRef .tc main_arg2) = V (Proc.devRef .tc main_arg2))
    (h_arg3 : W (Proc.devRef .tc main_arg3) = V (Proc.devRef .tc main_arg3))
    (h_arg4 : W (Proc.devRef .tc main_arg4) = V (Proc.devRef .tc main_arg4))
    (h_arg5 : W (Proc.devRef .tc main_arg5) = V (Proc.devRef .tc main_arg5))
    (h_arg6 : W (Proc.devRef .tc main_arg6) = V (Proc.devRef .tc main_arg6))
    (h_v76 : W (Proc.devRef .tc main_v76) = val_main_v76 (F := F) (V (Proc.devRef .tc main_arg4)))
    (h_v74 : W (Proc.devRef .tc main_v74) = val_main_v74 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)))
    (h_v12 : W (Proc.devRef .tc main_v12) = val_main_v12 (F := F) (V (Proc.devRef .tc main_arg1)) (V (Proc.devRef .tc main_arg6)))
    (h_v25 : W (Proc.devRef .tc main_v25) = val_main_v25 (F := F) (V (Proc.devRef .tc main_arg1)) (V (Proc.devRef .tc main_arg2)))
    (h_v1 : W (Proc.devRef .tc main_v1) = val_main_v1 (F := F) (V (Proc.devRef .tc main_arg1)))
    (h_v33 : W (Proc.devRef .tc main_v33) = val_main_v33 (F := F) (V (Proc.devRef .tc main_arg5))) :
    after ops3 W (Proc.devRef .tc main_arg0) = V (Proc.devRef .tc main_arg0)
      ∧ after ops3 W (Proc.devRef .tc main_arg1) = V (Proc.devRef .tc main_arg1)
      ∧ after ops3 W (Proc.devRef .tc main_arg2) = V (Proc.devRef .tc main_arg2)
      ∧ after ops3 W (Proc.devRef .tc main_arg3) = V (Proc.devRef .tc main_arg3)
      ∧ after ops3 W (Proc.devRef .tc main_arg4) = V (Proc.devRef .tc main_arg4)
      ∧ after ops3 W (Proc.devRef .tc main_arg5) = V (Proc.devRef .tc main_arg5)
      ∧ after ops3 W (Proc.devRef .tc main_arg6) = V (Proc.devRef .tc main_arg6)
      ∧ after ops3 W (Proc.devRef .tc main_cst_11) = val_main_cst_11 (F := F)
      ∧ after ops3 W (Proc.devRef .tc main_v105) = val_main_v105 (F := F) (V (Proc.devRef .tc main_arg1))
      ∧ after ops3 W (Proc.devRef .tc main_v103) = val_main_v103 (F := F) (V (Proc.devRef .tc main_arg1)) (V (Proc.devRef .tc main_arg2)) (V (Proc.devRef .tc main_arg3)) (V (Proc.devRef .tc main_arg6))
      ∧ after ops3 W (Proc.devRef .tc main_v1) = val_main_v1 (F := F) (V (Proc.devRef .tc main_arg1))
      ∧ after ops3 W (Proc.devRef .tc main_v33) = val_main_v33 (F := F) (V (Proc.devRef .tc main_arg5))
      ∧ after ops3 W (Proc.devRef .tc main_v12) = val_main_v12 (F := F) (V (Proc.devRef .tc main_arg1)) (V (Proc.devRef .tc main_arg6))
      ∧ after ops3 W (Proc.devRef .tc main_v25) = val_main_v25 (F := F) (V (Proc.devRef .tc main_arg1)) (V (Proc.devRef .tc main_arg2))
      ∧ after ops3 W (Proc.devRef .tc main_v79) = val_main_v79 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  refine ⟨?_, ?_, ?_, ?_, ?_, ?_, ?_, ?_, ?_, ?_, ?_, ?_, ?_, ?_, ?_⟩
  all_goals (after_results_simp; (try simp only [h_arg0, h_arg1, h_arg2, h_arg3, h_arg4, h_arg5, h_arg6, h_v76, h_v74, h_v12, h_v25, h_v1, h_v33]); first | done | rfl)

set_option maxHeartbeats 4000000 in
/-- Operations 126 to 155: the buffers still read later hold their stages of the arguments. -/
theorem step4 (V W : Valuation τ sig (Elt F))
    (h_arg0 : W (Proc.devRef .tc main_arg0) = V (Proc.devRef .tc main_arg0))
    (h_arg1 : W (Proc.devRef .tc main_arg1) = V (Proc.devRef .tc main_arg1))
    (h_arg2 : W (Proc.devRef .tc main_arg2) = V (Proc.devRef .tc main_arg2))
    (h_arg3 : W (Proc.devRef .tc main_arg3) = V (Proc.devRef .tc main_arg3))
    (h_arg4 : W (Proc.devRef .tc main_arg4) = V (Proc.devRef .tc main_arg4))
    (h_arg5 : W (Proc.devRef .tc main_arg5) = V (Proc.devRef .tc main_arg5))
    (h_arg6 : W (Proc.devRef .tc main_arg6) = V (Proc.devRef .tc main_arg6))
    (h_cst_11 : W (Proc.devRef .tc main_cst_11) = val_main_cst_11 (F := F))
    (h_v105 : W (Proc.devRef .tc main_v105) = val_main_v105 (F := F) (V (Proc.devRef .tc main_arg1)))
    (h_v103 : W (Proc.devRef .tc main_v103) = val_main_v103 (F := F) (V (Proc.devRef .tc main_arg1)) (V (Proc.devRef .tc main_arg2)) (V (Proc.devRef .tc main_arg3)) (V (Proc.devRef .tc main_arg6)))
    (h_v1 : W (Proc.devRef .tc main_v1) = val_main_v1 (F := F) (V (Proc.devRef .tc main_arg1)))
    (h_v33 : W (Proc.devRef .tc main_v33) = val_main_v33 (F := F) (V (Proc.devRef .tc main_arg5)))
    (h_v12 : W (Proc.devRef .tc main_v12) = val_main_v12 (F := F) (V (Proc.devRef .tc main_arg1)) (V (Proc.devRef .tc main_arg6)))
    (h_v25 : W (Proc.devRef .tc main_v25) = val_main_v25 (F := F) (V (Proc.devRef .tc main_arg1)) (V (Proc.devRef .tc main_arg2)))
    (h_v79 : W (Proc.devRef .tc main_v79) = val_main_v79 (F := F) (V (Proc.devRef .tc main_arg1)) (V (Proc.devRef .tc main_arg2)) (V (Proc.devRef .tc main_arg3)) (V (Proc.devRef .tc main_arg4)) (V (Proc.devRef .tc main_arg5)) (V (Proc.devRef .tc main_arg6))) :
    after ops4 W (Proc.devRef .tc main_arg0) = V (Proc.devRef .tc main_arg0)
      ∧ after ops4 W (Proc.devRef .tc main_arg1) = V (Proc.devRef .tc main_arg1)
      ∧ after ops4 W (Proc.devRef .tc main_arg2) = V (Proc.devRef .tc main_arg2)
      ∧ after ops4 W (Proc.devRef .tc main_arg3) = V (Proc.devRef .tc main_arg3)
      ∧ after ops4 W (Proc.devRef .tc main_arg4) = V (Proc.devRef .tc main_arg4)
      ∧ after ops4 W (Proc.devRef .tc main_arg5) = V (Proc.devRef .tc main_arg5)
      ∧ after ops4 W (Proc.devRef .tc main_arg6) = V (Proc.devRef .tc main_arg6)
      ∧ after ops4 W (Proc.devRef .tc main_v133) = val_main_v133 (F := F) (V (Proc.devRef .tc main_arg3))
      ∧ after ops4 W (Proc.devRef .tc main_v135) = val_main_v135 (F := F) (V (Proc.devRef .tc main_arg1)) (V (Proc.devRef .tc main_arg6))
      ∧ after ops4 W (Proc.devRef .tc main_v131) = val_main_v131 (F := F) (V (Proc.devRef .tc main_arg1)) (V (Proc.devRef .tc main_arg3)) (V (Proc.devRef .tc main_arg6))
      ∧ after ops4 W (Proc.devRef .tc main_v12) = val_main_v12 (F := F) (V (Proc.devRef .tc main_arg1)) (V (Proc.devRef .tc main_arg6))
      ∧ after ops4 W (Proc.devRef .tc main_v25) = val_main_v25 (F := F) (V (Proc.devRef .tc main_arg1)) (V (Proc.devRef .tc main_arg2))
      ∧ after ops4 W (Proc.devRef .tc main_v1) = val_main_v1 (F := F) (V (Proc.devRef .tc main_arg1))
      ∧ after ops4 W (Proc.devRef .tc main_v33) = val_main_v33 (F := F) (V (Proc.devRef .tc main_arg5))
      ∧ after ops4 W (Proc.devRef .tc main_v79) = val_main_v79 (F := F) (V (Proc.devRef .tc main_arg1)) (V (Proc.devRef .tc main_arg2)) (V (Proc.devRef .tc main_arg3)) (V (Proc.devRef .tc main_arg4)) (V (Proc.devRef .tc main_arg5)) (V (Proc.devRef .tc main_arg6))
      ∧ after ops4 W (Proc.devRef .tc main_v124) = val_main_v124 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  refine ⟨?_, ?_, ?_, ?_, ?_, ?_, ?_, ?_, ?_, ?_, ?_, ?_, ?_, ?_, ?_, ?_⟩
  all_goals (after_results_simp; (try simp only [h_arg0, h_arg1, h_arg2, h_arg3, h_arg4, h_arg5, h_arg6, h_cst_11, h_v105, h_v103, h_v1, h_v33, h_v12, h_v25, h_v79]); first | done | rfl)

set_option maxHeartbeats 4000000 in
/-- Operations 156 to 185: the buffers still read later hold their stages of the arguments. -/
theorem step5 (V W : Valuation τ sig (Elt F))
    (h_arg0 : W (Proc.devRef .tc main_arg0) = V (Proc.devRef .tc main_arg0))
    (h_arg1 : W (Proc.devRef .tc main_arg1) = V (Proc.devRef .tc main_arg1))
    (h_arg2 : W (Proc.devRef .tc main_arg2) = V (Proc.devRef .tc main_arg2))
    (h_arg3 : W (Proc.devRef .tc main_arg3) = V (Proc.devRef .tc main_arg3))
    (h_arg4 : W (Proc.devRef .tc main_arg4) = V (Proc.devRef .tc main_arg4))
    (h_arg5 : W (Proc.devRef .tc main_arg5) = V (Proc.devRef .tc main_arg5))
    (h_arg6 : W (Proc.devRef .tc main_arg6) = V (Proc.devRef .tc main_arg6))
    (h_v133 : W (Proc.devRef .tc main_v133) = val_main_v133 (F := F) (V (Proc.devRef .tc main_arg3)))
    (h_v135 : W (Proc.devRef .tc main_v135) = val_main_v135 (F := F) (V (Proc.devRef .tc main_arg1)) (V (Proc.devRef .tc main_arg6)))
    (h_v131 : W (Proc.devRef .tc main_v131) = val_main_v131 (F := F) (V (Proc.devRef .tc main_arg1)) (V (Proc.devRef .tc main_arg3)) (V (Proc.devRef .tc main_arg6)))
    (h_v12 : W (Proc.devRef .tc main_v12) = val_main_v12 (F := F) (V (Proc.devRef .tc main_arg1)) (V (Proc.devRef .tc main_arg6)))
    (h_v25 : W (Proc.devRef .tc main_v25) = val_main_v25 (F := F) (V (Proc.devRef .tc main_arg1)) (V (Proc.devRef .tc main_arg2)))
    (h_v1 : W (Proc.devRef .tc main_v1) = val_main_v1 (F := F) (V (Proc.devRef .tc main_arg1)))
    (h_v33 : W (Proc.devRef .tc main_v33) = val_main_v33 (F := F) (V (Proc.devRef .tc main_arg5)))
    (h_v79 : W (Proc.devRef .tc main_v79) = val_main_v79 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)))
    (h_v124 : W (Proc.devRef .tc main_v124) = val_main_v124 (F := F) (V (Proc.devRef .tc main_arg1)) (V (Proc.devRef .tc main_arg2)) (V (Proc.devRef .tc main_arg3)) (V (Proc.devRef .tc main_arg4)) (V (Proc.devRef .tc main_arg5)) (V (Proc.devRef .tc main_arg6))) :
    after ops5 W (Proc.devRef .tc main_arg0) = V (Proc.devRef .tc main_arg0)
      ∧ after ops5 W (Proc.devRef .tc main_arg1) = V (Proc.devRef .tc main_arg1)
      ∧ after ops5 W (Proc.devRef .tc main_arg2) = V (Proc.devRef .tc main_arg2)
      ∧ after ops5 W (Proc.devRef .tc main_arg3) = V (Proc.devRef .tc main_arg3)
      ∧ after ops5 W (Proc.devRef .tc main_arg4) = V (Proc.devRef .tc main_arg4)
      ∧ after ops5 W (Proc.devRef .tc main_arg5) = V (Proc.devRef .tc main_arg5)
      ∧ after ops5 W (Proc.devRef .tc main_arg6) = V (Proc.devRef .tc main_arg6)
      ∧ after ops5 W (Proc.devRef .tc main_v164) = val_main_v164 (F := F) (V (Proc.devRef .tc main_arg4))
      ∧ after ops5 W (Proc.devRef .tc main_v163) = val_main_v163 (F := F) (V (Proc.devRef .tc main_arg1))
      ∧ after ops5 W (Proc.devRef .tc main_v161) = val_main_v161 (F := F) (V (Proc.devRef .tc main_arg1)) (V (Proc.devRef .tc main_arg2)) (V (Proc.devRef .tc main_arg3)) (V (Proc.devRef .tc main_arg6))
      ∧ after ops5 W (Proc.devRef .tc main_v33) = val_main_v33 (F := F) (V (Proc.devRef .tc main_arg5))
      ∧ after ops5 W (Proc.devRef .tc main_v12) = val_main_v12 (F := F) (V (Proc.devRef .tc main_arg1)) (V (Proc.devRef .tc main_arg6))
      ∧ after ops5 W (Proc.devRef .tc main_v25) = val_main_v25 (F := F) (V (Proc.devRef .tc main_arg1)) (V (Proc.devRef .tc main_arg2))
      ∧ after ops5 W (Proc.devRef .tc main_v1) = val_main_v1 (F := F) (V (Proc.devRef .tc main_arg1))
      ∧ after ops5 W (Proc.devRef .tc main_v79) = val_main_v79 (F := F) (V (Proc.devRef .tc main_arg1)) (V (Proc.devRef .tc main_arg2)) (V (Proc.devRef .tc main_arg3)) (V (Proc.devRef .tc main_arg4)) (V (Proc.devRef .tc main_arg5)) (V (Proc.devRef .tc main_arg6))
      ∧ after ops5 W (Proc.devRef .tc main_v124) = val_main_v124 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  refine ⟨?_, ?_, ?_, ?_, ?_, ?_, ?_, ?_, ?_, ?_, ?_, ?_, ?_, ?_, ?_, ?_⟩
  all_goals (after_results_simp; (try simp only [h_arg0, h_arg1, h_arg2, h_arg3, h_arg4, h_arg5, h_arg6, h_v133, h_v135, h_v131, h_v12, h_v25, h_v1, h_v33, h_v79, h_v124]); first | done | rfl)

set_option maxHeartbeats 4000000 in
/-- Operations 186 to 215: the buffers still read later hold their stages of the arguments. -/
theorem step6 (V W : Valuation τ sig (Elt F))
    (h_arg0 : W (Proc.devRef .tc main_arg0) = V (Proc.devRef .tc main_arg0))
    (h_arg1 : W (Proc.devRef .tc main_arg1) = V (Proc.devRef .tc main_arg1))
    (h_arg2 : W (Proc.devRef .tc main_arg2) = V (Proc.devRef .tc main_arg2))
    (h_arg3 : W (Proc.devRef .tc main_arg3) = V (Proc.devRef .tc main_arg3))
    (h_arg4 : W (Proc.devRef .tc main_arg4) = V (Proc.devRef .tc main_arg4))
    (h_arg5 : W (Proc.devRef .tc main_arg5) = V (Proc.devRef .tc main_arg5))
    (h_arg6 : W (Proc.devRef .tc main_arg6) = V (Proc.devRef .tc main_arg6))
    (h_v164 : W (Proc.devRef .tc main_v164) = val_main_v164 (F := F) (V (Proc.devRef .tc main_arg4)))
    (h_v163 : W (Proc.devRef .tc main_v163) = val_main_v163 (F := F) (V (Proc.devRef .tc main_arg1)))
    (h_v161 : W (Proc.devRef .tc main_v161) = val_main_v161 (F := F) (V (Proc.devRef .tc main_arg1)) (V (Proc.devRef .tc main_arg2)) (V (Proc.devRef .tc main_arg3)) (V (Proc.devRef .tc main_arg6)))
    (h_v33 : W (Proc.devRef .tc main_v33) = val_main_v33 (F := F) (V (Proc.devRef .tc main_arg5)))
    (h_v12 : W (Proc.devRef .tc main_v12) = val_main_v12 (F := F) (V (Proc.devRef .tc main_arg1)) (V (Proc.devRef .tc main_arg6)))
    (h_v25 : W (Proc.devRef .tc main_v25) = val_main_v25 (F := F) (V (Proc.devRef .tc main_arg1)) (V (Proc.devRef .tc main_arg2)))
    (h_v1 : W (Proc.devRef .tc main_v1) = val_main_v1 (F := F) (V (Proc.devRef .tc main_arg1)))
    (h_v79 : W (Proc.devRef .tc main_v79) = val_main_v79 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)))
    (h_v124 : W (Proc.devRef .tc main_v124) = val_main_v124 (F := F) (V (Proc.devRef .tc main_arg1)) (V (Proc.devRef .tc main_arg2)) (V (Proc.devRef .tc main_arg3)) (V (Proc.devRef .tc main_arg4)) (V (Proc.devRef .tc main_arg5)) (V (Proc.devRef .tc main_arg6))) :
    after ops6 W (Proc.devRef .tc main_arg0) = V (Proc.devRef .tc main_arg0)
      ∧ after ops6 W (Proc.devRef .tc main_arg1) = V (Proc.devRef .tc main_arg1)
      ∧ after ops6 W (Proc.devRef .tc main_arg2) = V (Proc.devRef .tc main_arg2)
      ∧ after ops6 W (Proc.devRef .tc main_arg3) = V (Proc.devRef .tc main_arg3)
      ∧ after ops6 W (Proc.devRef .tc main_arg4) = V (Proc.devRef .tc main_arg4)
      ∧ after ops6 W (Proc.devRef .tc main_arg5) = V (Proc.devRef .tc main_arg5)
      ∧ after ops6 W (Proc.devRef .tc main_arg6) = V (Proc.devRef .tc main_arg6)
      ∧ after ops6 W (Proc.devRef .tc main_v1) = val_main_v1 (F := F) (V (Proc.devRef .tc main_arg1))
      ∧ after ops6 W (Proc.devRef .tc main_v194) = val_main_v194 (F := F) (V (Proc.devRef .tc main_arg1)) (V (Proc.devRef .tc main_arg2)) (V (Proc.devRef .tc main_arg3)) (V (Proc.devRef .tc main_arg6))
      ∧ after ops6 W (Proc.devRef .tc main_v33) = val_main_v33 (F := F) (V (Proc.devRef .tc main_arg5))
      ∧ after ops6 W (Proc.devRef .tc main_v79) = val_main_v79 (F := F) (V (Proc.devRef .tc main_arg1)) (V (Proc.devRef .tc main_arg2)) (V (Proc.devRef .tc main_arg3)) (V (Proc.devRef .tc main_arg4)) (V (Proc.devRef .tc main_arg5)) (V (Proc.devRef .tc main_arg6))
      ∧ after ops6 W (Proc.devRef .tc main_v124) = val_main_v124 (F := F) (V (Proc.devRef .tc main_arg1)) (V (Proc.devRef .tc main_arg2)) (V (Proc.devRef .tc main_arg3)) (V (Proc.devRef .tc main_arg4)) (V (Proc.devRef .tc main_arg5)) (V (Proc.devRef .tc main_arg6))
      ∧ after ops6 W (Proc.devRef .tc main_v177) = val_main_v177 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  refine ⟨?_, ?_, ?_, ?_, ?_, ?_, ?_, ?_, ?_, ?_, ?_, ?_, ?_⟩
  all_goals (after_results_simp; (try simp only [h_arg0, h_arg1, h_arg2, h_arg3, h_arg4, h_arg5, h_arg6, h_v164, h_v163, h_v161, h_v33, h_v12, h_v25, h_v1, h_v79, h_v124]); first | done | rfl)

set_option maxHeartbeats 4000000 in
/-- Operations 216 to 245: the buffers still read later hold their stages of the arguments. -/
theorem step7 (V W : Valuation τ sig (Elt F))
    (h_arg0 : W (Proc.devRef .tc main_arg0) = V (Proc.devRef .tc main_arg0))
    (h_arg1 : W (Proc.devRef .tc main_arg1) = V (Proc.devRef .tc main_arg1))
    (h_arg2 : W (Proc.devRef .tc main_arg2) = V (Proc.devRef .tc main_arg2))
    (h_arg3 : W (Proc.devRef .tc main_arg3) = V (Proc.devRef .tc main_arg3))
    (h_arg4 : W (Proc.devRef .tc main_arg4) = V (Proc.devRef .tc main_arg4))
    (h_arg5 : W (Proc.devRef .tc main_arg5) = V (Proc.devRef .tc main_arg5))
    (h_arg6 : W (Proc.devRef .tc main_arg6) = V (Proc.devRef .tc main_arg6))
    (h_v1 : W (Proc.devRef .tc main_v1) = val_main_v1 (F := F) (V (Proc.devRef .tc main_arg1)))
    (h_v194 : W (Proc.devRef .tc main_v194) = val_main_v194 (F := F) (V (Proc.devRef .tc main_arg1)) (V (Proc.devRef .tc main_arg2)) (V (Proc.devRef .tc main_arg3)) (V (Proc.devRef .tc main_arg6)))
    (h_v33 : W (Proc.devRef .tc main_v33) = val_main_v33 (F := F) (V (Proc.devRef .tc main_arg5)))
    (h_v79 : W (Proc.devRef .tc main_v79) = val_main_v79 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)))
    (h_v124 : W (Proc.devRef .tc main_v124) = val_main_v124 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)))
    (h_v177 : W (Proc.devRef .tc main_v177) = val_main_v177 (F := F) (V (Proc.devRef .tc main_arg1)) (V (Proc.devRef .tc main_arg2)) (V (Proc.devRef .tc main_arg3)) (V (Proc.devRef .tc main_arg4)) (V (Proc.devRef .tc main_arg5)) (V (Proc.devRef .tc main_arg6))) :
    after ops7 W (Proc.devRef .tc main_arg0) = V (Proc.devRef .tc main_arg0)
      ∧ after ops7 W (Proc.devRef .tc main_arg1) = V (Proc.devRef .tc main_arg1)
      ∧ after ops7 W (Proc.devRef .tc main_arg2) = V (Proc.devRef .tc main_arg2)
      ∧ after ops7 W (Proc.devRef .tc main_arg3) = V (Proc.devRef .tc main_arg3)
      ∧ after ops7 W (Proc.devRef .tc main_arg4) = V (Proc.devRef .tc main_arg4)
      ∧ after ops7 W (Proc.devRef .tc main_arg5) = V (Proc.devRef .tc main_arg5)
      ∧ after ops7 W (Proc.devRef .tc main_arg6) = V (Proc.devRef .tc main_arg6)
      ∧ after ops7 W (Proc.devRef .tc main_v223) = val_main_v223 (F := F) (V (Proc.devRef .tc main_arg5))
      ∧ after ops7 W (Proc.devRef .tc main_v222) = val_main_v222 (F := F) (V (Proc.devRef .tc main_arg1))
      ∧ after ops7 W (Proc.devRef .tc main_v1) = val_main_v1 (F := F) (V (Proc.devRef .tc main_arg1))
      ∧ after ops7 W (Proc.devRef .tc main_v33) = val_main_v33 (F := F) (V (Proc.devRef .tc main_arg5))
      ∧ after ops7 W (Proc.devRef .tc main_v220) = val_main_v220 (F := F) (V (Proc.devRef .tc main_arg1)) (V (Proc.devRef .tc main_arg5))
      ∧ after ops7 W (Proc.devRef .tc main_v79) = val_main_v79 (F := F) (V (Proc.devRef .tc main_arg1)) (V (Proc.devRef .tc main_arg2)) (V (Proc.devRef .tc main_arg3)) (V (Proc.devRef .tc main_arg4)) (V (Proc.devRef .tc main_arg5)) (V (Proc.devRef .tc main_arg6))
      ∧ after ops7 W (Proc.devRef .tc main_v124) = val_main_v124 (F := F) (V (Proc.devRef .tc main_arg1)) (V (Proc.devRef .tc main_arg2)) (V (Proc.devRef .tc main_arg3)) (V (Proc.devRef .tc main_arg4)) (V (Proc.devRef .tc main_arg5)) (V (Proc.devRef .tc main_arg6))
      ∧ after ops7 W (Proc.devRef .tc main_v177) = val_main_v177 (F := F) (V (Proc.devRef .tc main_arg1)) (V (Proc.devRef .tc main_arg2)) (V (Proc.devRef .tc main_arg3)) (V (Proc.devRef .tc main_arg4)) (V (Proc.devRef .tc main_arg5)) (V (Proc.devRef .tc main_arg6))
      ∧ after ops7 W (Proc.devRef .tc main_v215) = val_main_v215 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  refine ⟨?_, ?_, ?_, ?_, ?_, ?_, ?_, ?_, ?_, ?_, ?_, ?_, ?_, ?_, ?_, ?_⟩
  all_goals (after_results_simp; (try simp only [h_arg0, h_arg1, h_arg2, h_arg3, h_arg4, h_arg5, h_arg6, h_v1, h_v194, h_v33, h_v79, h_v124, h_v177]); first | done | rfl)

set_option maxHeartbeats 4000000 in
/-- Operations 246 to 265: the buffers still read later hold their stages of the arguments. -/
theorem step8 (V W : Valuation τ sig (Elt F))
    (h_arg0 : W (Proc.devRef .tc main_arg0) = V (Proc.devRef .tc main_arg0))
    (h_arg1 : W (Proc.devRef .tc main_arg1) = V (Proc.devRef .tc main_arg1))
    (h_arg2 : W (Proc.devRef .tc main_arg2) = V (Proc.devRef .tc main_arg2))
    (h_arg3 : W (Proc.devRef .tc main_arg3) = V (Proc.devRef .tc main_arg3))
    (h_arg4 : W (Proc.devRef .tc main_arg4) = V (Proc.devRef .tc main_arg4))
    (h_arg5 : W (Proc.devRef .tc main_arg5) = V (Proc.devRef .tc main_arg5))
    (h_arg6 : W (Proc.devRef .tc main_arg6) = V (Proc.devRef .tc main_arg6))
    (h_v223 : W (Proc.devRef .tc main_v223) = val_main_v223 (F := F) (V (Proc.devRef .tc main_arg5)))
    (h_v222 : W (Proc.devRef .tc main_v222) = val_main_v222 (F := F) (V (Proc.devRef .tc main_arg1)))
    (h_v1 : W (Proc.devRef .tc main_v1) = val_main_v1 (F := F) (V (Proc.devRef .tc main_arg1)))
    (h_v33 : W (Proc.devRef .tc main_v33) = val_main_v33 (F := F) (V (Proc.devRef .tc main_arg5)))
    (h_v220 : W (Proc.devRef .tc main_v220) = val_main_v220 (F := F) (V (Proc.devRef .tc main_arg1)) (V (Proc.devRef .tc main_arg5)))
    (h_v79 : W (Proc.devRef .tc main_v79) = val_main_v79 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)))
    (h_v124 : W (Proc.devRef .tc main_v124) = val_main_v124 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)))
    (h_v177 : W (Proc.devRef .tc main_v177) = val_main_v177 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)))
    (h_v215 : W (Proc.devRef .tc main_v215) = val_main_v215 (F := F) (V (Proc.devRef .tc main_arg1)) (V (Proc.devRef .tc main_arg2)) (V (Proc.devRef .tc main_arg3)) (V (Proc.devRef .tc main_arg4)) (V (Proc.devRef .tc main_arg5)) (V (Proc.devRef .tc main_arg6))) :
    after ops8 W (Proc.devRef .tc main_arg0) = V (Proc.devRef .tc main_arg0)
      ∧ after ops8 W (Proc.devRef .tc main_arg1) = V (Proc.devRef .tc main_arg1)
      ∧ after ops8 W (Proc.devRef .tc main_arg2) = V (Proc.devRef .tc main_arg2)
      ∧ after ops8 W (Proc.devRef .tc main_arg3) = V (Proc.devRef .tc main_arg3)
      ∧ after ops8 W (Proc.devRef .tc main_arg4) = V (Proc.devRef .tc main_arg4)
      ∧ after ops8 W (Proc.devRef .tc main_arg5) = V (Proc.devRef .tc main_arg5)
      ∧ after ops8 W (Proc.devRef .tc main_arg6) = V (Proc.devRef .tc main_arg6)
      ∧ after ops8 W (Proc.devRef .tc main_v236) = val_main_v236 (F := F) (V (Proc.devRef .tc main_arg1)) (V (Proc.devRef .tc main_arg5))
      ∧ after ops8 W (Proc.devRef .tc main_v237) = val_main_v237 (F := F) (V (Proc.devRef .tc main_arg1)) (V (Proc.devRef .tc main_arg2)) (V (Proc.devRef .tc main_arg3)) (V (Proc.devRef .tc main_arg4)) (V (Proc.devRef .tc main_arg5)) (V (Proc.devRef .tc main_arg6))
      ∧ after ops8 W (Proc.devRef .tc main_v238) = val_main_v238 (F := F) (V (Proc.devRef .tc main_arg1)) (V (Proc.devRef .tc main_arg5))
      ∧ after ops8 W (Proc.devRef .tc main_v239) = val_main_v239 (F := F) (V (Proc.devRef .tc main_arg1)) (V (Proc.devRef .tc main_arg2)) (V (Proc.devRef .tc main_arg3)) (V (Proc.devRef .tc main_arg4)) (V (Proc.devRef .tc main_arg5)) (V (Proc.devRef .tc main_arg6))
      ∧ after ops8 W (Proc.devRef .tc main_v240) = val_main_v240 (F := F) (V (Proc.devRef .tc main_arg1)) (V (Proc.devRef .tc main_arg5))
      ∧ after ops8 W (Proc.devRef .tc main_v241) = val_main_v241 (F := F) (V (Proc.devRef .tc main_arg1)) (V (Proc.devRef .tc main_arg2)) (V (Proc.devRef .tc main_arg3)) (V (Proc.devRef .tc main_arg4)) (V (Proc.devRef .tc main_arg5)) (V (Proc.devRef .tc main_arg6))
      ∧ after ops8 W (Proc.devRef .tc main_v242) = val_main_v242 (F := F) (V (Proc.devRef .tc main_arg1)) (V (Proc.devRef .tc main_arg5))
      ∧ after ops8 W (Proc.devRef .tc main_v243) = val_main_v243 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  refine ⟨?_, ?_, ?_, ?_, ?_, ?_, ?_, ?_, ?_, ?_, ?_, ?_, ?_, ?_, ?_⟩
  all_goals (after_results_simp; (try simp only [h_arg0, h_arg1, h_arg2, h_arg3, h_arg4, h_arg5, h_arg6, h_v223, h_v222, h_v1, h_v33, h_v220, h_v79, h_v124, h_v177, h_v215]); first | done | rfl)

set_option maxHeartbeats 4000000 in
/-- Operations 266 to 267: the buffers still read later hold their stages of the arguments. -/
theorem step9 (V W : Valuation τ sig (Elt F))
    (h_arg0 : W (Proc.devRef .tc main_arg0) = V (Proc.devRef .tc main_arg0))
    (h_arg1 : W (Proc.devRef .tc main_arg1) = V (Proc.devRef .tc main_arg1))
    (h_arg2 : W (Proc.devRef .tc main_arg2) = V (Proc.devRef .tc main_arg2))
    (h_arg3 : W (Proc.devRef .tc main_arg3) = V (Proc.devRef .tc main_arg3))
    (h_arg4 : W (Proc.devRef .tc main_arg4) = V (Proc.devRef .tc main_arg4))
    (h_arg5 : W (Proc.devRef .tc main_arg5) = V (Proc.devRef .tc main_arg5))
    (h_arg6 : W (Proc.devRef .tc main_arg6) = V (Proc.devRef .tc main_arg6))
    (h_v236 : W (Proc.devRef .tc main_v236) = val_main_v236 (F := F) (V (Proc.devRef .tc main_arg1)) (V (Proc.devRef .tc main_arg5)))
    (h_v237 : W (Proc.devRef .tc main_v237) = val_main_v237 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)))
    (h_v238 : W (Proc.devRef .tc main_v238) = val_main_v238 (F := F) (V (Proc.devRef .tc main_arg1)) (V (Proc.devRef .tc main_arg5)))
    (h_v239 : W (Proc.devRef .tc main_v239) = val_main_v239 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)))
    (h_v240 : W (Proc.devRef .tc main_v240) = val_main_v240 (F := F) (V (Proc.devRef .tc main_arg1)) (V (Proc.devRef .tc main_arg5)))
    (h_v241 : W (Proc.devRef .tc main_v241) = val_main_v241 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)))
    (h_v242 : W (Proc.devRef .tc main_v242) = val_main_v242 (F := F) (V (Proc.devRef .tc main_arg1)) (V (Proc.devRef .tc main_arg5)))
    (h_v243 : W (Proc.devRef .tc main_v243) = val_main_v243 (F := F) (V (Proc.devRef .tc main_arg1)) (V (Proc.devRef .tc main_arg2)) (V (Proc.devRef .tc main_arg3)) (V (Proc.devRef .tc main_arg4)) (V (Proc.devRef .tc main_arg5)) (V (Proc.devRef .tc main_arg6))) :
    after ops9 W (Proc.devRef .tc main_arg0) = V (Proc.devRef .tc main_arg0)
      ∧ after ops9 W (Proc.devRef .tc main_arg1) = V (Proc.devRef .tc main_arg1)
      ∧ after ops9 W (Proc.devRef .tc main_arg2) = V (Proc.devRef .tc main_arg2)
      ∧ after ops9 W (Proc.devRef .tc main_arg3) = V (Proc.devRef .tc main_arg3)
      ∧ after ops9 W (Proc.devRef .tc main_arg4) = V (Proc.devRef .tc main_arg4)
      ∧ after ops9 W (Proc.devRef .tc main_arg5) = V (Proc.devRef .tc main_arg5)
      ∧ after ops9 W (Proc.devRef .tc main_arg6) = V (Proc.devRef .tc main_arg6)
      ∧ after ops9 W (Proc.devRef .tc main_v245) = val_main_v245 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  refine ⟨?_, ?_, ?_, ?_, ?_, ?_, ?_, ?_⟩
  · after_results_simp; exact h_arg0
  · after_results_simp; exact h_arg1
  · after_results_simp; exact h_arg2
  · after_results_simp; exact h_arg3
  · after_results_simp; exact h_arg4
  · after_results_simp; exact h_arg5
  · after_results_simp; exact h_arg6
  · after_results_simp
    show (fun i => shapeCast _ (concatenate S32768x128x8 2 [⟨S32768x128x1, W (Proc.devRef .tc main_v236)⟩, ⟨S32768x128x1, W (Proc.devRef .tc main_v237)⟩, ⟨S32768x128x1, W (Proc.devRef .tc main_v238)⟩, ⟨S32768x128x1, W (Proc.devRef .tc main_v239)⟩, ⟨S32768x128x1, W (Proc.devRef .tc main_v240)⟩, ⟨S32768x128x1, W (Proc.devRef .tc main_v241)⟩, ⟨S32768x128x1, W (Proc.devRef .tc main_v242)⟩, ⟨S32768x128x1, W (Proc.devRef .tc main_v243)⟩] _) _ i) = _
    rw [h_v236, h_v237, h_v238, h_v239, h_v240, h_v241, h_v242, h_v243]
    rfl

/-! ## The whole line -/

theorem after_ops (V : Valuation τ sig (Elt F)) :
    after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3)
      ∧ after ops V (Proc.devRef .tc main_arg4) = V (Proc.devRef .tc main_arg4)
      ∧ after ops V (Proc.devRef .tc main_arg5) = V (Proc.devRef .tc main_arg5)
      ∧ after ops V (Proc.devRef .tc main_arg6) = V (Proc.devRef .tc main_arg6)
      ∧ after ops V (Proc.devRef .tc main_v245) = val_main_v245 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  simp only [ops, after_append]
  obtain ⟨k0_arg0, k0_arg1, k0_arg2, k0_arg3, k0_arg4, k0_arg5, k0_arg6, k0_v19, k0_v17, k0_v15, k0_v12, k0_v1⟩ := step0 V V rfl rfl rfl rfl rfl rfl rfl
  generalize after ops0 V = W0 at *
  obtain ⟨k1_arg0, k1_arg1, k1_arg2, k1_arg3, k1_arg4, k1_arg5, k1_arg6, k1_v47, k1_v45, k1_v41, k1_v12, k1_v25, k1_v1, k1_v33⟩ := step1 V W0 k0_arg0 k0_arg1 k0_arg2 k0_arg3 k0_arg4 k0_arg5 k0_arg6 k0_v19 k0_v17 k0_v15 k0_v12 k0_v1
  generalize after ops1 W0 = W1 at *
  obtain ⟨k2_arg0, k2_arg1, k2_arg2, k2_arg3, k2_arg4, k2_arg5, k2_arg6, k2_v76, k2_v74, k2_v12, k2_v25, k2_v1, k2_v33⟩ := step2 V W1 k1_arg0 k1_arg1 k1_arg2 k1_arg3 k1_arg4 k1_arg5 k1_arg6 k1_v47 k1_v45 k1_v41 k1_v12 k1_v25 k1_v1 k1_v33
  generalize after ops2 W1 = W2 at *
  obtain ⟨k3_arg0, k3_arg1, k3_arg2, k3_arg3, k3_arg4, k3_arg5, k3_arg6, k3_cst_11, k3_v105, k3_v103, k3_v1, k3_v33, k3_v12, k3_v25, k3_v79⟩ := step3 V W2 k2_arg0 k2_arg1 k2_arg2 k2_arg3 k2_arg4 k2_arg5 k2_arg6 k2_v76 k2_v74 k2_v12 k2_v25 k2_v1 k2_v33
  generalize after ops3 W2 = W3 at *
  obtain ⟨k4_arg0, k4_arg1, k4_arg2, k4_arg3, k4_arg4, k4_arg5, k4_arg6, k4_v133, k4_v135, k4_v131, k4_v12, k4_v25, k4_v1, k4_v33, k4_v79, k4_v124⟩ := step4 V W3 k3_arg0 k3_arg1 k3_arg2 k3_arg3 k3_arg4 k3_arg5 k3_arg6 k3_cst_11 k3_v105 k3_v103 k3_v1 k3_v33 k3_v12 k3_v25 k3_v79
  generalize after ops4 W3 = W4 at *
  obtain ⟨k5_arg0, k5_arg1, k5_arg2, k5_arg3, k5_arg4, k5_arg5, k5_arg6, k5_v164, k5_v163, k5_v161, k5_v33, k5_v12, k5_v25, k5_v1, k5_v79, k5_v124⟩ := step5 V W4 k4_arg0 k4_arg1 k4_arg2 k4_arg3 k4_arg4 k4_arg5 k4_arg6 k4_v133 k4_v135 k4_v131 k4_v12 k4_v25 k4_v1 k4_v33 k4_v79 k4_v124
  generalize after ops5 W4 = W5 at *
  obtain ⟨k6_arg0, k6_arg1, k6_arg2, k6_arg3, k6_arg4, k6_arg5, k6_arg6, k6_v1, k6_v194, k6_v33, k6_v79, k6_v124, k6_v177⟩ := step6 V W5 k5_arg0 k5_arg1 k5_arg2 k5_arg3 k5_arg4 k5_arg5 k5_arg6 k5_v164 k5_v163 k5_v161 k5_v33 k5_v12 k5_v25 k5_v1 k5_v79 k5_v124
  generalize after ops6 W5 = W6 at *
  obtain ⟨k7_arg0, k7_arg1, k7_arg2, k7_arg3, k7_arg4, k7_arg5, k7_arg6, k7_v223, k7_v222, k7_v1, k7_v33, k7_v220, k7_v79, k7_v124, k7_v177, k7_v215⟩ := step7 V W6 k6_arg0 k6_arg1 k6_arg2 k6_arg3 k6_arg4 k6_arg5 k6_arg6 k6_v1 k6_v194 k6_v33 k6_v79 k6_v124 k6_v177
  generalize after ops7 W6 = W7 at *
  obtain ⟨k8_arg0, k8_arg1, k8_arg2, k8_arg3, k8_arg4, k8_arg5, k8_arg6, k8_v236, k8_v237, k8_v238, k8_v239, k8_v240, k8_v241, k8_v242, k8_v243⟩ := step8 V W7 k7_arg0 k7_arg1 k7_arg2 k7_arg3 k7_arg4 k7_arg5 k7_arg6 k7_v223 k7_v222 k7_v1 k7_v33 k7_v220 k7_v79 k7_v124 k7_v177 k7_v215
  generalize after ops8 W7 = W8 at *
  obtain ⟨k9_arg0, k9_arg1, k9_arg2, k9_arg3, k9_arg4, k9_arg5, k9_arg6, k9_v245⟩ := step9 V W8 k8_arg0 k8_arg1 k8_arg2 k8_arg3 k8_arg4 k8_arg5 k8_arg6 k8_v236 k8_v237 k8_v238 k8_v239 k8_v240 k8_v241 k8_v242 k8_v243
  generalize after ops9 W8 = W9 at *
  exact ⟨k9_arg0, k9_arg1, k9_arg2, k9_arg3, k9_arg4, k9_arg5, k9_arg6, k9_v245⟩

/-- On every device, from any memory with zero counters: every weakly fair execution of the reference terminates with
    its result at the last stage of the argument arrays, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v245) = val_main_v245 (F := F) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
      obtain ⟨a0, a1, a2, a3, a4, a5, a6, a245⟩ := after_ops (F := F) (launchContents m c)
      exact ⟨(h c main_v245).trans a245, (h c main_arg0).trans a0, (h c main_arg1).trans a1, (h c main_arg2).trans a2,
        (h c main_arg3).trans a3, (h c main_arg4).trans a4, (h c main_arg5).trans a5, (h c main_arg6).trans a6⟩)
    (run_seq scopedRefs_eq scopedSems_eq defs main (fun _ => ops) main_eq (fun _ => ops_sub) m ρ (fun _ => fresh))

end Cert.ReferenceIdeal.RefRun

end
-- ==== Proof.Spec.lean ====
/-
  The function both programs compute, entry by entry, over the extended reals.

  The state array has shape [32768, 1024]; column `8 n + k` of a row holds channel `k` of node `n`
  (128 nodes, 8 channels each). Every entry is first clipped to [-100, 100]. For a row `r` and a node `n`
  write `X k` for the clipped entry of channel `k`. The activation of a channel is
  `logistic (R n * X k) - 1/2`; the mean activity of a node is the sum of its eight clipped channels
  times 1/8; the input a node receives is the sum over all nodes `j` of the mean activity of `j` times the
  masked connectivity `C n j`. The even output channels are `scale n * X (k+1)`; the odd ones are
  `scale n * (u - 2 X k - X (k-1) / T) / T` with `u` a signed combination of activations plus the node input.
  The quotient is the total one of the extended reals, so no side condition is needed anywhere.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The clipping bounds -100 and 100, the constants 1/2, 2 and 1/8, as the binary words both programs spell. -/
abbrev lo : EReal := Ideal.ofBits .f32 0xC2C80000#32
abbrev hi : EReal := Ideal.ofBits .f32 0x42C80000#32
abbrev half : EReal := Ideal.ofBits .f32 0x3F000000#32
abbrev two : EReal := Ideal.ofBits .f32 0x40000000#32
abbrev eighth : EReal := Ideal.ofBits .f32 0x3E000000#32

/-- An entry clipped to [-100, 100]. -/
def clip (x : EReal) : EReal := min hi (max lo x)

/-- The activation `logistic (R x) - 1/2`. -/
def act (R x : EReal) : EReal := Ideal.logistic (R * x) - half

/-- The mean of eight channels: their sum (added left to right) times 1/8. -/
def mean8 (X : Fin 8 → EReal) : EReal := (X 0 + X 1 + X 2 + X 3 + X 4 + X 5 + X 6 + X 7) * eighth

/-- An odd channel: `scale * (u - 2 xa - xb / T) / T`. -/
def odd (sc u xa xb T : EReal) : EReal := Ideal.div (sc * ((u - two * xa) - Ideal.div xb T)) T

/-- Channel `k` of a node from its eight clipped channels `X`, its gain `R`, its scale `sc`, the input `ni` it
    receives, its twelve couplings `g` and its four time constants `T`. -/
def chan (k : Fin 8) (X : Fin 8 → EReal) (R sc ni : EReal) (g : Fin 12 → EReal) (T : Fin 4 → EReal) : EReal :=
  match k with
  | ⟨0, _⟩ => sc * X 1
  | ⟨1, _⟩ => odd sc (((-(g 0) * act R (X 0) - g 2 * act R (X 4)) - g 1 * act R (X 2)) + ni) (X 1) (X 0) (T 0)
  | ⟨2, _⟩ => sc * X 3
  | ⟨3, _⟩ => odd sc (((g 7 * act R (X 0) - g 6 * act R (X 2)) - g 11 * act R (X 4)) + ni) (X 3) (X 2) (T 1)
  | ⟨4, _⟩ => sc * X 5
  | ⟨5, _⟩ => odd sc ((((g 4 * act R (X 0) + g 5 * act R (X 6)) - g 3 * act R (X 4)) + g 10 * act R (X 2)) + ni) (X 5) (X 4) (T 2)
  | ⟨6, _⟩ => sc * X 7
  | ⟨7, _⟩ => odd sc ((-(g 9) * act R (X 6) - g 8 * act R (X 4)) + ni) (X 7) (X 6) (T 3)
  | ⟨_ + 8, h⟩ => absurd h (by omega)

/-- Column `8 n + k`: channel `k` of node `n`. -/
abbrev col (n : Fin 128) (k : Fin 8) : Fin 1024 := ⟨n.val * 8 + k.val, by omega⟩

/-- The node and the channel of a column. -/
abbrev nodeOf (c : Fin 1024) : Fin 128 := ⟨c.val / 8, by omega⟩
abbrev chanOf (c : Fin 1024) : Fin 8 := ⟨c.val % 8, by omega⟩

theorem col_nodeOf_chanOf (c : Fin 1024) : col (nodeOf c) (chanOf c) = c := Fin.ext (by show c.val / 8 * 8 + c.val % 8 = c.val; omega)

/-- The result at row `r`, node `n`, channel `k`, from the state `x`, the masked connectivity `Cm`, the couplings
    `Gm`, the time constants `Tm`, the scale `sc` and the gains `R`. -/
def G3 (x : (⟨2, ![32768, 1024]⟩ : Shape).Idx → EReal) (Cm : (⟨2, ![128, 128]⟩ : Shape).Idx → EReal)
    (Gm : (⟨2, ![128, 12]⟩ : Shape).Idx → EReal) (Tm : (⟨2, ![128, 4]⟩ : Shape).Idx → EReal)
    (sc R : (⟨1, ![128]⟩ : Shape).Idx → EReal) (r : Fin 32768) (n : Fin 128) (k : Fin 8) : EReal :=
  chan k (fun k' => clip (x (ix2 r (col n k')))) (R (ix1 n)) (sc (ix1 n))
    (∑ j : Fin 128, mean8 (fun k' => clip (x (ix2 r (col j k')))) * Cm (ix2 n j))
    (fun q => Gm (ix2 n q)) (fun q => Tm (ix2 n q))

/-- The whole result array, entry by entry. -/
def G (x : (⟨2, ![32768, 1024]⟩ : Shape).Idx → EReal) (Cm : (⟨2, ![128, 128]⟩ : Shape).Idx → EReal)
    (Gm : (⟨2, ![128, 12]⟩ : Shape).Idx → EReal) (Tm : (⟨2, ![128, 4]⟩ : Shape).Idx → EReal)
    (sc R : (⟨1, ![128]⟩ : Shape).Idx → EReal) : (⟨2, ![32768, 1024]⟩ : Shape).Idx → EReal :=
  fun i => G3 x Cm Gm Tm sc R (i 0) (nodeOf (i 1)) (chanOf (i 1))

theorem G_apply (x : (⟨2, ![32768, 1024]⟩ : Shape).Idx → EReal) (Cm : (⟨2, ![128, 128]⟩ : Shape).Idx → EReal)
    (Gm : (⟨2, ![128, 12]⟩ : Shape).Idx → EReal) (Tm : (⟨2, ![128, 4]⟩ : Shape).Idx → EReal)
    (sc R : (⟨1, ![128]⟩ : Shape).Idx → EReal) (r : Fin 32768) (n : Fin 128) (k : Fin 8) :
    G x Cm Gm Tm sc R (ix2 r (col n k)) = G3 x Cm Gm Tm sc R r n k := by
  have hn : nodeOf (col n k) = n := Fin.ext (by show (n.val * 8 + k.val) / 8 = n.val; omega)
  have hk : chanOf (col n k) = k := Fin.ext (by show (n.val * 8 + k.val) % 8 = k.val; omega)
  show G3 x Cm Gm Tm sc R r (nodeOf (col n k)) (chanOf (col n k)) = _
  rw [hn, hk]

/-! ## The constants' values, and the two small laws that join the two programs' spellings -/

theorem ofBits_one : Ideal.ofBits .f32 0x3F800000#32 = 1 := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

/-- Dividing by 8 is multiplying by 1/8, on every extended real. -/
theorem div_eight (s : EReal) : Ideal.div s (Ideal.ofBits .f32 0x41000000#32) = s * eighth := by
  rw [ofBits_eight, Ideal.div_coe (by norm_num : (8 : ℝ) ≠ 0)]
  show _ = s * Ideal.ofBits .f32 0x3E000000#32
  rw [ofBits_eighth]

/-- The logistic function is `1 / (1 + exp (-x))` with the constant one spelt as a binary word. -/
theorem logistic_spelt (x : EReal) :
    Ideal.div (Ideal.ofBits .f32 0x3F800000#32) (Ideal.ofBits .f32 0x3F800000#32 + Ideal.exp (-x)) = Ideal.logistic x := by
  rw [ofBits_one]; rfl

/-- Subtracting from the zero word is negation. -/
theorem zero_word_sub (g : EReal) : Ideal.ofBits .f32 0x00000000#32 - g = -g := by
  rw [Ideal.ofBits_zero_f32, zero_sub]

/-- A sum over eight channels started from the zero word, in any grouping, is the left-to-right sum. -/
theorem sum8 (X : Fin 8 → EReal) :
    Ideal.ofBits .f32 0x00000000#32 + ∑ k : Fin 8, X k = X 0 + X 1 + X 2 + X 3 + X 4 + X 5 + X 6 + X 7 := by
  rw [Ideal.ofBits_zero_f32, zero_add, Fin.sum_univ_eight]

end Cert.Spec

end
-- ==== Proof.Relayout.lean ====
/-
  How the two programs lay a row of 1024 entries out as 128 nodes of 8 channels, read at an index.

  A row is split as (node, channel) with the channel fastest: column `8 n + k` is channel `k` of node `n`.
  One program swaps the two axes and cuts the channels out as eight slabs `[R, 1, 128]` which it later stacks
  again; the other cuts them out of `[R, 128, 8]` as columns `[R, 128, 1]` and joins them along the last
  axis. Each lemma reads one such operation at an index written by its coordinates.
-/
import Idealize.ShloMosaic.Lib.ValueIdx
import Idealize.ShloMosaic.Lib.ValueLayout
import Idealize.ShloMosaic.Lib.Pipeline.Value
import proofs.«101920_j23278722745130_2_alg».proof.Proof.Spec

namespace Cert.Relayout

open Idealize.ShloMosaic Idealize.ShloMosaic.ValueIdx Cert.Spec

variable {α : Type} {R : Nat}

/-- A row of 1024 split as 128 nodes of 8 channels: entry (r, n, k) is column `8 n + k` of row `r`. -/
theorem cast_split (x : (⟨2, ![R, 1024]⟩ : Shape).Idx → α) (h : (⟨2, ![R, 1024]⟩ : Shape).ShapeCasts ⟨3, ![R, 128, 8]⟩)
    (r : Fin R) (n : Fin 128) (k : Fin 8) :
    shapeCast ⟨3, ![R, 128, 8]⟩ x h (ix3 r n k) = x (ix2 r (col n k)) :=
  shapeCast_apply x h _ _ (by
    rw [Shape.rowMajor_val_two, Shape.rowMajor_val_three]
    show r.val * 1024 + (n.val * 8 + k.val) = (r.val * 128 + n.val) * 8 + k.val
    omega)

/-- The inverse: 128 nodes of 8 channels merged into a row of 1024. -/
theorem cast_merge (y : (⟨3, ![R, 128, 8]⟩ : Shape).Idx → α) (h : (⟨3, ![R, 128, 8]⟩ : Shape).ShapeCasts ⟨2, ![R, 1024]⟩)
    (r : Fin R) (n : Fin 128) (k : Fin 8) :
    shapeCast ⟨2, ![R, 1024]⟩ y h (ix2 r (col n k)) = y (ix3 r n k) :=
  shapeCast_apply y h _ _ (by
    rw [Shape.rowMajor_val_two, Shape.rowMajor_val_three]
    show (r.val * 128 + n.val) * 8 + k.val = r.val * 1024 + (n.val * 8 + k.val)
    omega)

/-- A slab `[R, 1, 128]` read as a matrix `[R, 128]`. -/
theorem cast_drop_mid (y : (⟨3, ![R, 1, 128]⟩ : Shape).Idx → α) (h : (⟨3, ![R, 1, 128]⟩ : Shape).ShapeCasts ⟨2, ![R, 128]⟩)
    (r : Fin R) (n : Fin 128) :
    shapeCast ⟨2, ![R, 128]⟩ y h (ix2 r n) = y (ix3 r (0 : Fin 1) n) :=
  shapeCast_apply y h _ _ (by
    rw [Shape.rowMajor_val_two, Shape.rowMajor_val_three]
    show (r.val * 1 + 0) * 128 + n.val = r.val * 128 + n.val
    omega)

/-- A matrix `[R, 128]` read as a slab `[R, 1, 128]`. -/
theorem cast_add_mid (y : (⟨2, ![R, 128]⟩ : Shape).Idx → α) (h : (⟨2, ![R, 128]⟩ : Shape).ShapeCasts ⟨3, ![R, 1, 128]⟩)
    (r : Fin R) (u : Fin 1) (n : Fin 128) :
    shapeCast ⟨3, ![R, 1, 128]⟩ y h (ix3 r u n) = y (ix2 r n) :=
  shapeCast_apply y h _ _ (by
    have hu : u.val = 0 := by omega
    rw [Shape.rowMajor_val_two, Shape.rowMajor_val_three]
    show r.val * 128 + n.val = (r.val * 1 + u.val) * 128 + n.val
    omega)

/-- A column `[R, 128, 1]` read as a matrix `[R, 128]`. -/
theorem cast_drop_last (y : (⟨3, ![R, 128, 1]⟩ : Shape).Idx → α) (h : (⟨3, ![R, 128, 1]⟩ : Shape).ShapeCasts ⟨2, ![R, 128]⟩)
    (r : Fin R) (n : Fin 128) :
    shapeCast ⟨2, ![R, 128]⟩ y h (ix2 r n) = y (ix3 r n (0 : Fin 1)) :=
  shapeCast_apply y h _ _ (by
    rw [Shape.rowMajor_val_two, Shape.rowMajor_val_three]
    show (r.val * 128 + n.val) * 1 + 0 = r.val * 128 + n.val
    omega)

/-- Channel `k` cut out of the swapped layout `[R, 8, 128]` as a slab and read as a matrix: entry (r, n) is the
    entry (r, k, n) of the source. -/
theorem slab (o : Nat) (Y : (⟨3, ![R, 8, 128]⟩ : Shape).Idx → α)
    (hs : (⟨3, ![R, 8, 128]⟩ : Shape).Slices ![0, o, 0] ⟨3, ![R, 1, 128]⟩)
    (hc : (⟨3, ![R, 1, 128]⟩ : Shape).ShapeCasts ⟨2, ![R, 128]⟩) (r : Fin R) (n : Fin 128) (k : Fin 8) (hk : k.val = o) :
    shapeCast ⟨2, ![R, 128]⟩ (extractStridedSlice ⟨3, ![R, 1, 128]⟩ ![0, o, 0] Y hs) hc (ix2 r n) = Y (ix3 r k n) := by
  rw [cast_drop_mid]
  exact slice3_axis1_apply o Y hs r 0 n k (by rw [hk]; rfl)

/-- Row `q` cut out of a `[Q, 128]` matrix as a `[1, 128]` row. -/
theorem row_cut {Q : Nat} (o : Nat) (Y : (⟨2, ![Q, 128]⟩ : Shape).Idx → α)
    (hs : (⟨2, ![Q, 128]⟩ : Shape).Slices ![o, 0] ⟨2, ![1, 128]⟩) (u : Fin 1) (n : Fin 128) (q : Fin Q) (hq : q.val = o) :
    extractStridedSlice ⟨2, ![1, 128]⟩ ![o, 0] Y hs (ix2 u n) = Y (ix2 q n) :=
  slice2_axis0_apply o Y hs u n q (by have hu := u.isLt; omega)

/-- Eight slabs stacked along the middle axis: entry (r, k, n) is entry (r, 0, n) of slab `k`. -/
theorem stack_mid (v0 v1 v2 v3 v4 v5 v6 v7 : (⟨3, ![R, 1, 128]⟩ : Shape).Idx → α)
    (h : Shape.Concatenates (([⟨⟨3, ![R, 1, 128]⟩, v0⟩, ⟨⟨3, ![R, 1, 128]⟩, v1⟩, ⟨⟨3, ![R, 1, 128]⟩, v2⟩, ⟨⟨3, ![R, 1, 128]⟩, v3⟩, ⟨⟨3, ![R, 1, 128]⟩, v4⟩, ⟨⟨3, ![R, 1, 128]⟩, v5⟩, ⟨⟨3, ![R, 1, 128]⟩, v6⟩, ⟨⟨3, ![R, 1, 128]⟩, v7⟩] :
        List ((s : Shape) × (s.Idx → α))).map (·.1)) ⟨3, ![R, 8, 128]⟩ (1 : Fin 3))
    (r : Fin R) (k : Fin 8) (n : Fin 128) :
    concatenate ⟨3, ![R, 8, 128]⟩ (1 : Fin 3) [⟨⟨3, ![R, 1, 128]⟩, v0⟩, ⟨⟨3, ![R, 1, 128]⟩, v1⟩, ⟨⟨3, ![R, 1, 128]⟩, v2⟩, ⟨⟨3, ![R, 1, 128]⟩, v3⟩, ⟨⟨3, ![R, 1, 128]⟩, v4⟩, ⟨⟨3, ![R, 1, 128]⟩, v5⟩, ⟨⟨3, ![R, 1, 128]⟩, v6⟩, ⟨⟨3, ![R, 1, 128]⟩, v7⟩] h
      (ix3 r k n) = ![v0, v1, v2, v3, v4, v5, v6, v7] k (ix3 r (0 : Fin 1) n) := by
  have hi : ∀ b : Fin 3, b.cast (rfl : (3 : Nat) = 3) ≠ (1 : Fin 3) →
      (((ix3 r (0 : Fin 1) n) : (⟨3, ![R, 1, 128]⟩ : Shape).Idx) b).val = (((ix3 r k n) : (⟨3, ![R, 8, 128]⟩ : Shape).Idx) (b.cast rfl)).val := by
    intro b hb
    match b with
    | ⟨0, _⟩ => rfl
    | ⟨1, _⟩ => exact absurd rfl hb
    | ⟨2, _⟩ => rfl
  have key : ∀ (xs : List ((s : Shape) × (s.Idx → α)))
      (_ : xs = List.ofFn fun i : Fin 8 => ((⟨⟨3, ![R, 1, 128]⟩, ![v0, v1, v2, v3, v4, v5, v6, v7] i⟩ : (s : Shape) × (s.Idx → α))))
      (h' : Shape.Concatenates (xs.map (·.1)) ⟨3, ![R, 8, 128]⟩ (1 : Fin 3)),
      concatenate ⟨3, ![R, 8, 128]⟩ (1 : Fin 3) xs h' (ix3 r k n) = ![v0, v1, v2, v3, v4, v5, v6, v7] k (ix3 r (0 : Fin 1) n) := by
    intro xs hxs h'
    subst hxs
    exact concatenate_ofFn_unit_apply (t := ⟨3, ![R, 8, 128]⟩) (s₁ := ⟨3, ![R, 1, 128]⟩) (1 : Fin 3) (fun i : Fin 8 => ![v0, v1, v2, v3, v4, v5, v6, v7] i) h' rfl rfl (ix3 r k n) k rfl (ix3 r (0 : Fin 1) n) hi
  exact key _ rfl h

/-- Eight columns joined along the last axis: entry (r, n, k) is entry (r, n, 0) of column `k`. -/
theorem join_last (v0 v1 v2 v3 v4 v5 v6 v7 : (⟨3, ![R, 128, 1]⟩ : Shape).Idx → α)
    (h : Shape.Concatenates (([⟨⟨3, ![R, 128, 1]⟩, v0⟩, ⟨⟨3, ![R, 128, 1]⟩, v1⟩, ⟨⟨3, ![R, 128, 1]⟩, v2⟩, ⟨⟨3, ![R, 128, 1]⟩, v3⟩, ⟨⟨3, ![R, 128, 1]⟩, v4⟩, ⟨⟨3, ![R, 128, 1]⟩, v5⟩, ⟨⟨3, ![R, 128, 1]⟩, v6⟩, ⟨⟨3, ![R, 128, 1]⟩, v7⟩] :
        List ((s : Shape) × (s.Idx → α))).map (·.1)) ⟨3, ![R, 128, 8]⟩ (2 : Fin 3))
    (r : Fin R) (n : Fin 128) (k : Fin 8) :
    concatenate ⟨3, ![R, 128, 8]⟩ (2 : Fin 3) [⟨⟨3, ![R, 128, 1]⟩, v0⟩, ⟨⟨3, ![R, 128, 1]⟩, v1⟩, ⟨⟨3, ![R, 128, 1]⟩, v2⟩, ⟨⟨3, ![R, 128, 1]⟩, v3⟩, ⟨⟨3, ![R, 128, 1]⟩, v4⟩, ⟨⟨3, ![R, 128, 1]⟩, v5⟩, ⟨⟨3, ![R, 128, 1]⟩, v6⟩, ⟨⟨3, ![R, 128, 1]⟩, v7⟩] h
      (ix3 r n k) = ![v0, v1, v2, v3, v4, v5, v6, v7] k (ix3 r n (0 : Fin 1)) := by
  have hi : ∀ b : Fin 3, b.cast (rfl : (3 : Nat) = 3) ≠ (2 : Fin 3) →
      (((ix3 r n (0 : Fin 1)) : (⟨3, ![R, 128, 1]⟩ : Shape).Idx) b).val = (((ix3 r n k) : (⟨3, ![R, 128, 8]⟩ : Shape).Idx) (b.cast rfl)).val := by
    intro b hb
    match b with
    | ⟨0, _⟩ => rfl
    | ⟨1, _⟩ => rfl
    | ⟨2, _⟩ => exact absurd rfl hb
  have key : ∀ (xs : List ((s : Shape) × (s.Idx → α)))
      (_ : xs = List.ofFn fun i : Fin 8 => ((⟨⟨3, ![R, 128, 1]⟩, ![v0, v1, v2, v3, v4, v5, v6, v7] i⟩ : (s : Shape) × (s.Idx → α))))
      (h' : Shape.Concatenates (xs.map (·.1)) ⟨3, ![R, 128, 8]⟩ (2 : Fin 3)),
      concatenate ⟨3, ![R, 128, 8]⟩ (2 : Fin 3) xs h' (ix3 r n k) = ![v0, v1, v2, v3, v4, v5, v6, v7] k (ix3 r n (0 : Fin 1)) := by
    intro xs hxs h'
    subst hxs
    exact concatenate_ofFn_unit_apply (t := ⟨3, ![R, 128, 8]⟩) (s₁ := ⟨3, ![R, 128, 1]⟩) (2 : Fin 3) (fun i : Fin 8 => ![v0, v1, v2, v3, v4, v5, v6, v7] i) h' rfl rfl (ix3 r n k) k rfl (ix3 r n (0 : Fin 1)) hi
  exact key _ rfl h

/-! ## The other program's forms: channels cut out as columns, parameters spread along rows -/

/-- Channel `k` cut out of `[R, 128, 8]` as a column and read as a matrix: entry (r, n) is entry (r, n, k). -/
theorem col_cut (o : Nat) (Y : (⟨3, ![R, 128, 8]⟩ : Shape).Idx → α)
    (hs : (⟨3, ![R, 128, 8]⟩ : Shape).Slices ![0, 0, o] ⟨3, ![R, 128, 1]⟩)
    (hc : (⟨3, ![R, 128, 1]⟩ : Shape).ShapeCasts ⟨2, ![R, 128]⟩) (r : Fin R) (n : Fin 128) (k : Fin 8) (hk : k.val = o) :
    shapeCast ⟨2, ![R, 128]⟩ (extractStridedSlice ⟨3, ![R, 128, 1]⟩ ![0, 0, o] Y hs) hc (ix2 r n) = Y (ix3 r n k) := by
  rw [cast_drop_last]
  exact extractStridedSlice_apply _ Y hs _ _ (fun ax => by
    match ax with
    | ⟨0, _⟩ => exact (Nat.zero_add _).symm
    | ⟨1, _⟩ => exact (Nat.zero_add _).symm
    | ⟨2, _⟩ => show k.val = o + 0; omega)

/-- Column `q` of a `[128, Q]` parameter array read as a vector over the nodes. -/
theorem param_col {Q : Nat} (o : Nat) (Y : (⟨2, ![128, Q]⟩ : Shape).Idx → α)
    (hs : (⟨2, ![128, Q]⟩ : Shape).Slices ![0, o] ⟨2, ![128, 1]⟩)
    (hc : (⟨2, ![128, 1]⟩ : Shape).ShapeCasts ⟨1, ![128]⟩) (n : Fin 128) (q : Fin Q) (hq : q.val = o) :
    shapeCast ⟨1, ![128]⟩ (extractStridedSlice ⟨2, ![128, 1]⟩ ![0, o] Y hs) hc (ix1 n) = Y (ix2 n q) := by
  refine (shapeCast_apply _ hc (ix1 n) (ix2 n (0 : Fin 1)) (by
    rw [Shape.rowMajor_val_two, Shape.rowMajor_val_one]
    show n.val * 1 + 0 = n.val
    omega)).trans ?_
  exact slice2_axis1_apply o Y hs n 0 q (by rw [hq]; rfl)

/-- A vector over the nodes spread along the rows, in two steps: `[128] → [1, 128] → [R, 128]`. -/
theorem spread_rows (y : (⟨1, ![128]⟩ : Shape).Idx → α)
    (h1 : (⟨1, ![128]⟩ : Shape).BroadcastsInDim ⟨2, ![1, 128]⟩ ![1])
    (h2 : (⟨2, ![1, 128]⟩ : Shape).BroadcastsInDim ⟨2, ![R, 128]⟩ ![0, 1]) (r : Fin R) (n : Fin 128) :
    broadcastInDim ⟨2, ![R, 128]⟩ ![0, 1] h2 (broadcastInDim ⟨2, ![1, 128]⟩ ![1] h1 y) (ix2 r n) = y (ix1 n) := by
  refine (broadcastInDim_apply _ h2 _ (ix2 r n) (ix2 (0 : Fin 1) n) (fun a => by
    match a with
    | ⟨0, _⟩ => show 0 = if (1 : Nat) = 1 then 0 else r.val; rw [if_pos rfl]
    | ⟨1, _⟩ => show n.val = if (128 : Nat) = 1 then 0 else n.val; rw [if_neg (by decide)])).trans ?_
  exact broadcastInDim_apply _ h1 y (ix2 (0 : Fin 1) n) (ix1 n) (fun a => by
    match a with
    | ⟨0, _⟩ => show n.val = if (128 : Nat) = 1 then 0 else n.val; rw [if_neg (by decide)])

/-- A vector over the nodes spread over rows and channels: `[128] → [1, 128, 1] → [R, 128, 8]`. -/
theorem spread_nodes (y : (⟨1, ![128]⟩ : Shape).Idx → α)
    (h1 : (⟨1, ![128]⟩ : Shape).BroadcastsInDim ⟨3, ![1, 128, 1]⟩ ![1])
    (h2 : (⟨3, ![1, 128, 1]⟩ : Shape).BroadcastsInDim ⟨3, ![R, 128, 8]⟩ ![0, 1, 2]) (r : Fin R) (n : Fin 128) (k : Fin 8) :
    broadcastInDim ⟨3, ![R, 128, 8]⟩ ![0, 1, 2] h2 (broadcastInDim ⟨3, ![1, 128, 1]⟩ ![1] h1 y) (ix3 r n k) = y (ix1 n) := by
  refine (broadcastInDim_apply _ h2 _ (ix3 r n k) (ix3 (0 : Fin 1) n (0 : Fin 1)) (fun a => by
    match a with
    | ⟨0, _⟩ => show 0 = if (1 : Nat) = 1 then 0 else r.val; rw [if_pos rfl]
    | ⟨1, _⟩ => show n.val = if (128 : Nat) = 1 then 0 else n.val; rw [if_neg (by decide)]
    | ⟨2, _⟩ => show 0 = if (1 : Nat) = 1 then 0 else k.val; rw [if_pos rfl])).trans ?_
  exact broadcastInDim_apply _ h1 y (ix3 (0 : Fin 1) n (0 : Fin 1)) (ix1 n) (fun a => by
    match a with
    | ⟨0, _⟩ => show n.val = if (128 : Nat) = 1 then 0 else n.val; rw [if_neg (by decide)])

/-- A matrix `[R, 128]` read as a column `[R, 128, 1]`. -/
theorem as_column (y : (⟨2, ![R, 128]⟩ : Shape).Idx → α)
    (h : (⟨2, ![R, 128]⟩ : Shape).BroadcastsInDim ⟨3, ![R, 128, 1]⟩ ![0, 1]) (r : Fin R) (n : Fin 128) (u : Fin 1) :
    broadcastInDim ⟨3, ![R, 128, 1]⟩ ![0, 1] h y (ix3 r n u) = y (ix2 r n) :=
  broadcastInDim_apply _ h y (ix3 r n u) (ix2 r n) (fun a => by
    match a with
    | ⟨0, _⟩ =>
      show r.val = if R = 1 then 0 else r.val
      split
      · have := r.isLt; omega
      · rfl
    | ⟨1, _⟩ => show n.val = if (128 : Nat) = 1 then 0 else n.val; rw [if_neg (by decide)])

/-! ## Selecting one of eight -/

theorem pick0 {β : Type} (a0 a1 a2 a3 a4 a5 a6 a7 : β) (h : 0 < 8) : ![a0, a1, a2, a3, a4, a5, a6, a7] ⟨0, h⟩ = a0 := rfl
theorem pick1 {β : Type} (a0 a1 a2 a3 a4 a5 a6 a7 : β) (h : 1 < 8) : ![a0, a1, a2, a3, a4, a5, a6, a7] ⟨1, h⟩ = a1 := rfl
theorem pick2 {β : Type} (a0 a1 a2 a3 a4 a5 a6 a7 : β) (h : 2 < 8) : ![a0, a1, a2, a3, a4, a5, a6, a7] ⟨2, h⟩ = a2 := rfl
theorem pick3 {β : Type} (a0 a1 a2 a3 a4 a5 a6 a7 : β) (h : 3 < 8) : ![a0, a1, a2, a3, a4, a5, a6, a7] ⟨3, h⟩ = a3 := rfl
theorem pick4 {β : Type} (a0 a1 a2 a3 a4 a5 a6 a7 : β) (h : 4 < 8) : ![a0, a1, a2, a3, a4, a5, a6, a7] ⟨4, h⟩ = a4 := rfl
theorem pick5 {β : Type} (a0 a1 a2 a3 a4 a5 a6 a7 : β) (h : 5 < 8) : ![a0, a1, a2, a3, a4, a5, a6, a7] ⟨5, h⟩ = a5 := rfl
theorem pick6 {β : Type} (a0 a1 a2 a3 a4 a5 a6 a7 : β) (h : 6 < 8) : ![a0, a1, a2, a3, a4, a5, a6, a7] ⟨6, h⟩ = a6 := rfl
theorem pick7 {β : Type} (a0 a1 a2 a3 a4 a5 a6 a7 : β) (h : 7 < 8) : ![a0, a1, a2, a3, a4, a5, a6, a7] ⟨7, h⟩ = a7 := rfl

end Cert.Relayout
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.KernelPay.lean ====
/-
  What the kernel's body computes, read entry by entry.

  The body's arithmetic is a composition of named pure terms over the blocks it loads. Each lemma reads one of
  them at an index: the clipped block re-laid as (row, channel, node) and its eight channel matrices; the
  parameter rows; the four activations; the node input as a sum over the contracted axis of the matrix product;
  the four odd channels; and the final re-laying of the eight channel matrices into a row of 1024 columns,
  column `8 n + k` receiving channel `k` of node `n`.
-/
import proofs.«101920_j23278722745130_2_alg».proof.Proof.Gen.KernelIdeal.Skeleton
import proofs.«101920_j23278722745130_2_alg».proof.Proof.Spec
import proofs.«101920_j23278722745130_2_alg».proof.Proof.Relayout
import proofs.«101920_j23278722745130_2_alg».proof.Proof.LibDotSum
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KPay

open Idealize.ShloMosaic Idealize.ShloMosaic.ValueIdx Cert.KernelIdeal Cert.KernelIdeal.Gen Cert.KernelIdeal.Facts₀
open Cert.Spec Cert.Relayout

theorem logistic_apply {s : Shape} {φ : FTy} (a : FVec Ideal s φ) (i : s.Idx) : logistic a i = Ideal.logistic (a i) := rfl

/-! ## The clipped block, by (row, channel, node) -/

theorem pay2_at (v0 : Vec Ideal S256x1024 .f32) (b : Fin 256) (k : Fin 8) (n : Fin 128) :
    k0_pay2 v0 (ix3 b k n) = clip (v0 (ix2 b (col n k))) := by
  unfold k0_pay2
  refine (transpose_ix3_021_apply _ _ b k n).trans ?_
  refine (cast_split _ _ b n k).trans ?_
  rfl

theorem pay3_at (v0 : Vec Ideal S256x1024 .f32) (b : Fin 256) (n : Fin 128) :
    k0_pay3 v0 (ix2 b n) = clip (v0 (ix2 b (col n 0))) := by
  unfold k0_pay3
  exact (slab 0 _ _ _ b n 0 rfl).trans (pay2_at v0 b 0 n)

theorem pay4_at (v0 : Vec Ideal S256x1024 .f32) (b : Fin 256) (n : Fin 128) :
    k0_pay4 v0 (ix2 b n) = clip (v0 (ix2 b (col n 1))) := by
  unfold k0_pay4
  exact (slab 1 _ _ _ b n 1 rfl).trans (pay2_at v0 b 1 n)

theorem pay5_at (v0 : Vec Ideal S256x1024 .f32) (b : Fin 256) (n : Fin 128) :
    k0_pay5 v0 (ix2 b n) = clip (v0 (ix2 b (col n 2))) := by
  unfold k0_pay5
  exact (slab 2 _ _ _ b n 2 rfl).trans (pay2_at v0 b 2 n)

theorem pay6_at (v0 : Vec Ideal S256x1024 .f32) (b : Fin 256) (n : Fin 128) :
    k0_pay6 v0 (ix2 b n) = clip (v0 (ix2 b (col n 3))) := by
  unfold k0_pay6
  exact (slab 3 _ _ _ b n 3 rfl).trans (pay2_at v0 b 3 n)

theorem pay7_at (v0 : Vec Ideal S256x1024 .f32) (b : Fin 256) (n : Fin 128) :
    k0_pay7 v0 (ix2 b n) = clip (v0 (ix2 b (col n 4))) := by
  unfold k0_pay7
  exact (slab 4 _ _ _ b n 4 rfl).trans (pay2_at v0 b 4 n)

theorem pay8_at (v0 : Vec Ideal S256x1024 .f32) (b : Fin 256) (n : Fin 128) :
    k0_pay8 v0 (ix2 b n) = clip (v0 (ix2 b (col n 5))) := by
  unfold k0_pay8
  exact (slab 5 _ _ _ b n 5 rfl).trans (pay2_at v0 b 5 n)

theorem pay9_at (v0 : Vec Ideal S256x1024 .f32) (b : Fin 256) (n : Fin 128) :
    k0_pay9 v0 (ix2 b n) = clip (v0 (ix2 b (col n 6))) := by
  unfold k0_pay9
  exact (slab 6 _ _ _ b n 6 rfl).trans (pay2_at v0 b 6 n)

theorem pay10_at (v0 : Vec Ideal S256x1024 .f32) (b : Fin 256) (n : Fin 128) :
    k0_pay10 v0 (ix2 b n) = clip (v0 (ix2 b (col n 7))) := by
  unfold k0_pay10
  exact (slab 7 _ _ _ b n 7 rfl).trans (pay2_at v0 b 7 n)

/-! ## The parameter rows -/

theorem pay11_eq (v23 : Vec Ideal S1x128 .f32) : k0_pay11 v23 = v23 := by
  unfold k0_pay11; exact shapeCast_self _ _

theorem pay18_eq (v58 : Vec Ideal S12x128 .f32) : k0_pay18 v58 = v58 := by
  unfold k0_pay18; exact shapeCast_self _ _

theorem pay28_eq (v72 : Vec Ideal S4x128 .f32) : k0_pay28 v72 = v72 := by
  unfold k0_pay28; exact shapeCast_self _ _

theorem pay33_eq (v78 : Vec Ideal S1x128 .f32) : k0_pay33 v78 = v78 := by
  unfold k0_pay33; exact shapeCast_self _ _

/-- One row spread over the 256 rows of a block. -/
theorem bcast_row (row : FVec Ideal S1x128 .f32) (b : Fin 256) (n : Fin 128) :
    broadcastTo S256x128 row Facts₀.broadcasts_S1x128_S256x128 (ix2 b n) = row (ix2 (0 : Fin 1) n) :=
  broadcastTo_1b_ab_apply _ _ b n

theorem gRow (o : Nat) (hs : S12x128.Slices ![o, 0] S1x128) (v58 : Vec Ideal S12x128 .f32) (n : Fin 128) (q : Fin 12)
    (hq : q.val = o) : extractStridedSlice S1x128 ![o, 0] (k0_pay18 v58) hs (ix2 (0 : Fin 1) n) = v58 (ix2 q n) := by
  rw [pay18_eq]; exact row_cut o _ hs 0 n q hq

theorem tRow (o : Nat) (hs : S4x128.Slices ![o, 0] S1x128) (v72 : Vec Ideal S4x128 .f32) (n : Fin 128) (q : Fin 4)
    (hq : q.val = o) : extractStridedSlice S1x128 ![o, 0] (k0_pay28 v72) hs (ix2 (0 : Fin 1) n) = v72 (ix2 q n) := by
  rw [pay28_eq]; exact row_cut o _ hs 0 n q hq

theorem pay19_at (v58 : Vec Ideal S12x128 .f32) (n : Fin 128) :
    k0_pay19 v58 (ix2 (0 : Fin 1) n) = v58 (ix2 (3 : Fin 12) n) := by
  unfold k0_pay19
  exact gRow 3 _ v58 n 3 rfl

theorem pay20_at (v58 : Vec Ideal S12x128 .f32) (n : Fin 128) :
    k0_pay20 v58 (ix2 (0 : Fin 1) n) = v58 (ix2 (4 : Fin 12) n) := by
  unfold k0_pay20
  exact gRow 4 _ v58 n 4 rfl

theorem pay21_at (v58 : Vec Ideal S12x128 .f32) (n : Fin 128) :
    k0_pay21 v58 (ix2 (0 : Fin 1) n) = v58 (ix2 (5 : Fin 12) n) := by
  unfold k0_pay21
  exact gRow 5 _ v58 n 5 rfl

theorem pay22_at (v58 : Vec Ideal S12x128 .f32) (n : Fin 128) :
    k0_pay22 v58 (ix2 (0 : Fin 1) n) = v58 (ix2 (6 : Fin 12) n) := by
  unfold k0_pay22
  exact gRow 6 _ v58 n 6 rfl

theorem pay23_at (v58 : Vec Ideal S12x128 .f32) (n : Fin 128) :
    k0_pay23 v58 (ix2 (0 : Fin 1) n) = v58 (ix2 (7 : Fin 12) n) := by
  unfold k0_pay23
  exact gRow 7 _ v58 n 7 rfl

theorem pay24_at (v58 : Vec Ideal S12x128 .f32) (n : Fin 128) :
    k0_pay24 v58 (ix2 (0 : Fin 1) n) = v58 (ix2 (8 : Fin 12) n) := by
  unfold k0_pay24
  exact gRow 8 _ v58 n 8 rfl

theorem pay25_at (v58 : Vec Ideal S12x128 .f32) (n : Fin 128) :
    k0_pay25 v58 (ix2 (0 : Fin 1) n) = v58 (ix2 (9 : Fin 12) n) := by
  unfold k0_pay25
  exact gRow 9 _ v58 n 9 rfl

theorem pay26_at (v58 : Vec Ideal S12x128 .f32) (n : Fin 128) :
    k0_pay26 v58 (ix2 (0 : Fin 1) n) = v58 (ix2 (10 : Fin 12) n) := by
  unfold k0_pay26
  exact gRow 10 _ v58 n 10 rfl

theorem pay27_at (v58 : Vec Ideal S12x128 .f32) (n : Fin 128) :
    k0_pay27 v58 (ix2 (0 : Fin 1) n) = v58 (ix2 (11 : Fin 12) n) := by
  unfold k0_pay27
  exact gRow 11 _ v58 n 11 rfl

theorem pay29_at (v72 : Vec Ideal S4x128 .f32) (n : Fin 128) :
    k0_pay29 v72 (ix2 (0 : Fin 1) n) = v72 (ix2 (0 : Fin 4) n) := by
  unfold k0_pay29
  exact tRow 0 _ v72 n 0 rfl

theorem pay30_at (v72 : Vec Ideal S4x128 .f32) (n : Fin 128) :
    k0_pay30 v72 (ix2 (0 : Fin 1) n) = v72 (ix2 (1 : Fin 4) n) := by
  unfold k0_pay30
  exact tRow 1 _ v72 n 1 rfl

theorem pay31_at (v72 : Vec Ideal S4x128 .f32) (n : Fin 128) :
    k0_pay31 v72 (ix2 (0 : Fin 1) n) = v72 (ix2 (2 : Fin 4) n) := by
  unfold k0_pay31
  exact tRow 2 _ v72 n 2 rfl

theorem pay32_at (v72 : Vec Ideal S4x128 .f32) (n : Fin 128) :
    k0_pay32 v72 (ix2 (0 : Fin 1) n) = v72 (ix2 (3 : Fin 4) n) := by
  unfold k0_pay32
  exact tRow 3 _ v72 n 3 rfl

/-! ## The activations -/

theorem pay12_at (v0 : Vec Ideal S256x1024 .f32) (v23 : Vec Ideal S1x128 .f32) (b : Fin 256) (n : Fin 128) :
    k0_pay12 v0 v23 (ix2 b n) = act (v23 (ix2 (0 : Fin 1) n)) (clip (v0 (ix2 b (col n 0)))) := by
  have e : k0_pay12 v0 v23 (ix2 b n)
      = act (broadcastTo S256x128 (k0_pay11 v23) Facts₀.broadcasts_S1x128_S256x128 (ix2 b n)) (k0_pay3 v0 (ix2 b n)) := rfl
  rw [e, bcast_row, pay11_eq, pay3_at]

theorem pay13_at (v0 : Vec Ideal S256x1024 .f32) (v23 : Vec Ideal S1x128 .f32) (b : Fin 256) (n : Fin 128) :
    k0_pay13 v0 v23 (ix2 b n) = act (v23 (ix2 (0 : Fin 1) n)) (clip (v0 (ix2 b (col n 2)))) := by
  have e : k0_pay13 v0 v23 (ix2 b n)
      = act (broadcastTo S256x128 (k0_pay11 v23) Facts₀.broadcasts_S1x128_S256x128 (ix2 b n)) (k0_pay5 v0 (ix2 b n)) := rfl
  rw [e, bcast_row, pay11_eq, pay5_at]

theorem pay14_at (v0 : Vec Ideal S256x1024 .f32) (v23 : Vec Ideal S1x128 .f32) (b : Fin 256) (n : Fin 128) :
    k0_pay14 v0 v23 (ix2 b n) = act (v23 (ix2 (0 : Fin 1) n)) (clip (v0 (ix2 b (col n 4)))) := by
  have e : k0_pay14 v0 v23 (ix2 b n)
      = act (broadcastTo S256x128 (k0_pay11 v23) Facts₀.broadcasts_S1x128_S256x128 (ix2 b n)) (k0_pay7 v0 (ix2 b n)) := rfl
  rw [e, bcast_row, pay11_eq, pay7_at]

theorem pay15_at (v0 : Vec Ideal S256x1024 .f32) (v23 : Vec Ideal S1x128 .f32) (b : Fin 256) (n : Fin 128) :
    k0_pay15 v0 v23 (ix2 b n) = act (v23 (ix2 (0 : Fin 1) n)) (clip (v0 (ix2 b (col n 6)))) := by
  have e : k0_pay15 v0 v23 (ix2 b n)
      = act (broadcastTo S256x128 (k0_pay11 v23) Facts₀.broadcasts_S1x128_S256x128 (ix2 b n)) (k0_pay9 v0 (ix2 b n)) := rfl
  rw [e, bcast_row, pay11_eq, pay9_at]

/-! ## The node input: the mean activity times the transposed connectivity, summed over the contracted axis -/

theorem pay16_at (v0 : Vec Ideal S256x1024 .f32) (b : Fin 256) (j : Fin 128) :
    k0_pay16 v0 (ix2 b j) = clip (v0 (ix2 b (col j 0))) + clip (v0 (ix2 b (col j 1))) + clip (v0 (ix2 b (col j 2)))
      + clip (v0 (ix2 b (col j 3))) + clip (v0 (ix2 b (col j 4))) := by
  have e : k0_pay16 v0 (ix2 b j) = k0_pay3 v0 (ix2 b j) + k0_pay4 v0 (ix2 b j) + k0_pay5 v0 (ix2 b j) + k0_pay6 v0 (ix2 b j)
      + k0_pay7 v0 (ix2 b j) := rfl
  rw [e, pay3_at, pay4_at, pay5_at, pay6_at, pay7_at]

theorem pay17_at (v18 v20 v22 v48 : FVec Ideal S256x128 .f32) (v55 : Vec Ideal S128x128 .bf16) (b : Fin 256) (n : Fin 128) :
    k0_pay17 v18 v20 v22 v48 v55 (ix2 b n)
      = ∑ j : Fin 128, ((v48 (ix2 b j) + v18 (ix2 b j) + v20 (ix2 b j) + v22 (ix2 b j)) * eighth) * v55 (ix2 j n) := by
  unfold k0_pay17
  refine (Ideal.matmul_constant_zero_apply dot_S256x128_S128x128_S256x128_1_0_0_1_n_n none _ _ (ix2 b n)).trans ?_
  refine (Cert.LibDotSum.sum_contr_eq_sum_fin dot_S256x128_S128x128_S256x128_1_0_0_1_n_n rfl rfl (fun _ _ => rfl) (fun _ _ => rfl)
    (fun _ _ => rfl) (fun _ _ => rfl) _ _ (ix2 b n)).trans ?_
  refine Finset.sum_congr rfl fun j _ => ?_
  rw [shapeCast_self]
  rfl

/-! ## The odd channels -/

theorem pay34_at (v8 v10 v18 v20 v22 v29 v34 v39 v48 : FVec Ideal S256x128 .f32) (v55 : Vec Ideal S128x128 .bf16)
    (v58 : Vec Ideal S12x128 .f32) (v72 : Vec Ideal S4x128 .f32) (b : Fin 256) (n : Fin 128) :
    k0_pay34 v8 v10 v18 v20 v22 v29 v34 v39 v48 v55 v58 v72 (ix2 b n)
      = ((((-(v58 (ix2 (0 : Fin 12) n)) * v29 (ix2 b n) - v58 (ix2 (2 : Fin 12) n) * v39 (ix2 b n))
            - v58 (ix2 (1 : Fin 12) n) * v34 (ix2 b n)) + k0_pay17 v18 v20 v22 v48 v55 (ix2 b n)) - two * v10 (ix2 b n))
          - Ideal.div (v8 (ix2 b n)) (v72 (ix2 (0 : Fin 4) n)) := by
  simp only [k0_pay34, subf_apply, addf_apply, mulf_apply, divf_apply, broadcast_apply, broadcastTo_1b_ab_apply,
    slice2_axis0_eq, pay18_eq, pay29_at, Ideal.ofBits_def, zero_word_sub]
  rfl

theorem pay35_at (v74 v79 : FVec Ideal S1x128 .f32) (v96 : FVec Ideal S256x128 .f32) (b : Fin 256) (n : Fin 128) :
    k0_pay35 v74 v79 v96 (ix2 b n) = Ideal.div (v79 (ix2 (0 : Fin 1) n) * v96 (ix2 b n)) (v74 (ix2 (0 : Fin 1) n)) := by
  simp only [k0_pay35, mulf_apply, divf_apply, broadcastTo_1b_ab_apply]

theorem pay36_at (v12 v14 v29 v34 v39 v57 : FVec Ideal S256x128 .f32) (v66 v67 v71 v75 v79 : FVec Ideal S1x128 .f32)
    (b : Fin 256) (n : Fin 128) :
    k0_pay36 v12 v14 v29 v34 v39 v57 v66 v67 v71 v75 v79 (ix2 b n)
      = odd (v79 (ix2 (0 : Fin 1) n))
          (((v67 (ix2 (0 : Fin 1) n) * v29 (ix2 b n) - v66 (ix2 (0 : Fin 1) n) * v34 (ix2 b n))
            - v71 (ix2 (0 : Fin 1) n) * v39 (ix2 b n)) + v57 (ix2 b n))
          (v14 (ix2 b n)) (v12 (ix2 b n)) (v75 (ix2 (0 : Fin 1) n)) := by
  simp only [k0_pay36, subf_apply, addf_apply, mulf_apply, divf_apply, broadcast_apply, broadcastTo_1b_ab_apply]
  rfl

theorem pay37_at (v16 v18 v29 v34 v39 v44 v57 : FVec Ideal S256x128 .f32) (v63 v64 v65 v70 v76 v79 : FVec Ideal S1x128 .f32)
    (b : Fin 256) (n : Fin 128) :
    k0_pay37 v16 v18 v29 v34 v39 v44 v57 v63 v64 v65 v70 v76 v79 (ix2 b n)
      = odd (v79 (ix2 (0 : Fin 1) n))
          ((((v64 (ix2 (0 : Fin 1) n) * v29 (ix2 b n) + v65 (ix2 (0 : Fin 1) n) * v44 (ix2 b n))
            - v63 (ix2 (0 : Fin 1) n) * v39 (ix2 b n)) + v70 (ix2 (0 : Fin 1) n) * v34 (ix2 b n)) + v57 (ix2 b n))
          (v18 (ix2 b n)) (v16 (ix2 b n)) (v76 (ix2 (0 : Fin 1) n)) := by
  simp only [k0_pay37, subf_apply, addf_apply, mulf_apply, divf_apply, broadcast_apply, broadcastTo_1b_ab_apply]
  rfl

theorem pay38_at (v22 v39 v44 v57 : FVec Ideal S256x128 .f32) (v68 v69 : FVec Ideal S1x128 .f32) (b : Fin 256) (n : Fin 128) :
    k0_pay38 v22 v39 v44 v57 v68 v69 (ix2 b n)
      = ((-(v69 (ix2 (0 : Fin 1) n)) * v44 (ix2 b n) - v68 (ix2 (0 : Fin 1) n) * v39 (ix2 b n)) + v57 (ix2 b n))
          - two * v22 (ix2 b n) := by
  simp only [k0_pay38, subf_apply, addf_apply, mulf_apply, broadcast_apply, broadcastTo_1b_ab_apply, Ideal.ofBits_def,
    zero_word_sub]

/-! ## The stored block: eight channel matrices re-laid into rows of 1024 -/

theorem pay1_at (v10 v14 v18 v20 v22 : FVec Ideal S256x128 .f32) (v77 v79 : FVec Ideal S1x128 .f32)
    (v100 v119 v141 v152 : FVec Ideal S256x128 .f32) (b : Fin 256) (n : Fin 128) (k : Fin 8) :
    k0_pay1 v10 v14 v18 v20 v22 v77 v79 v100 v119 v141 v152 (ix2 b (col n k))
      = ![v79 (ix2 (0 : Fin 1) n) * v10 (ix2 b n), v100 (ix2 b n), v79 (ix2 (0 : Fin 1) n) * v14 (ix2 b n), v119 (ix2 b n),
          v79 (ix2 (0 : Fin 1) n) * v18 (ix2 b n), v141 (ix2 b n), v79 (ix2 (0 : Fin 1) n) * v22 (ix2 b n),
          Ideal.div (v79 (ix2 (0 : Fin 1) n) * (v152 (ix2 b n) - Ideal.div (v20 (ix2 b n)) (v77 (ix2 (0 : Fin 1) n))))
            (v77 (ix2 (0 : Fin 1) n))] k := by
  unfold k0_pay1
  dsimp only
  refine (cast_merge _ _ b n k).trans ?_
  refine (transpose_ix3_021_apply _ _ b n k).trans ?_
  refine (stack_mid _ _ _ _ _ _ _ _ _ b k n).trans ?_
  match k with
  | ⟨0, _⟩ =>
    rw [pick0, pick0]
    refine (cast_add_mid _ _ b 0 n).trans ?_
    simp only [mulf_apply, broadcastTo_1b_ab_apply]
  | ⟨1, _⟩ =>
    rw [pick1, pick1]
    exact cast_add_mid _ _ b 0 n
  | ⟨2, _⟩ =>
    rw [pick2, pick2]
    refine (cast_add_mid _ _ b 0 n).trans ?_
    simp only [mulf_apply, broadcastTo_1b_ab_apply]
  | ⟨3, _⟩ =>
    rw [pick3, pick3]
    exact cast_add_mid _ _ b 0 n
  | ⟨4, _⟩ =>
    rw [pick4, pick4]
    refine (cast_add_mid _ _ b 0 n).trans ?_
    simp only [mulf_apply, broadcastTo_1b_ab_apply]
  | ⟨5, _⟩ =>
    rw [pick5, pick5]
    exact cast_add_mid _ _ b 0 n
  | ⟨6, _⟩ =>
    rw [pick6, pick6]
    refine (cast_add_mid _ _ b 0 n).trans ?_
    simp only [mulf_apply, broadcastTo_1b_ab_apply]
  | ⟨7, _⟩ =>
    rw [pick7, pick7]
    refine (cast_add_mid _ _ b 0 n).trans ?_
    simp only [mulf_apply, subf_apply, divf_apply, broadcastTo_1b_ab_apply]
  | ⟨_ + 8, hlt⟩ => exact absurd hlt (by omega)

end Cert.KPay

end
-- ==== Proof.KernelValue.lean ====
/-
  The kernel's result array as one function of the argument arrays.

  The grid has 128 points; point `t` reads rows `256 t … 256 t + 255` of the state and the whole of each
  parameter array, and writes the same rows of the result. The parameter arrays the body sees were prepared
  before the launch: the gains and the scale as one row, the couplings and time constants transposed, the
  masked connectivity transposed. Read back through these, the block a point writes is the block of the
  specified array under its rows, and the 128 blocks cover the array.
-/
import proofs.«101920_j23278722745130_2_alg».proof.Proof.Gen.KernelIdeal.Value
import proofs.«101920_j23278722745130_2_alg».proof.Proof.KernelPay
import Idealize.ShloMosaic.Lib.StableHlo.Run

set_option maxRecDepth 16384

noncomputable section

namespace Cert.KVal

open Idealize.ShloMosaic Idealize.ShloMosaic.TcCoe Idealize.ShloMosaic.ValueIdx Idealize.SL.Sem
open Cert.KernelIdeal Cert.KernelIdeal.Gen Cert.KernelIdeal.Facts₀ Cert.Spec Cert.Relayout Cert.KPay
open Idealize.ShloMosaic.Pipeline (Dat)

theorem hz : (![0, 0] : Fin 2 → Nat) = fun _ => 0 := funext fun a => by fin_cases a <;> rfl

/-! ## The stored block is the specified function of the input blocks -/

theorem out_at (x0 : Vec Ideal S256x1024 .f32) (x1 : Vec Ideal S1x128 .f32) (x2 : Vec Ideal S12x128 .f32)
    (x3 : Vec Ideal S4x128 .f32) (x4 : Vec Ideal S1x128 .f32) (x5 : Vec Ideal S128x128 .bf16)
    (b : Fin 256) (n : Fin 128) (k : Fin 8) :
    out0_6 x0 x1 x2 x3 x4 x5 (ix2 b (col n k))
      = chan k (fun k' => clip (x0 (ix2 b (col n k')))) (x1 (ix2 (0 : Fin 1) n)) (x4 (ix2 (0 : Fin 1) n))
          (∑ j : Fin 128, mean8 (fun k' => clip (x0 (ix2 b (col j k')))) * x5 (ix2 j n))
          (fun q => x2 (ix2 q n)) (fun q => x3 (ix2 q n)) := by
  unfold out0_6
  rw [View.canon_unit_zero hz]
  simp only [View.ld_unit_zero (S := S256x1024) hz, View.ld_unit_zero (S := S1x128) hz, View.ld_unit_zero (S := S128x128) hz,
    View.ld_unit_zero (S := S12x128) hz, View.ld_unit_zero (S := S4x128) hz]
  rw [pay1_at]
  match k with
  | ⟨0, _⟩ =>
    rw [pick0]
    simp only [pay35_at, pay36_at, pay37_at, pay38_at, pay34_at, pay29_at, pay30_at, pay31_at, pay32_at, pay33_eq, pay19_at, pay20_at, pay21_at, pay22_at, pay23_at, pay24_at, pay25_at, pay26_at, pay27_at, pay17_at, pay16_at, pay3_at, pay4_at, pay5_at, pay6_at, pay7_at, pay8_at, pay9_at, pay10_at, pay12_at, pay13_at, pay14_at, pay15_at]
    rfl
  | ⟨1, _⟩ =>
    rw [pick1]
    simp only [pay35_at, pay36_at, pay37_at, pay38_at, pay34_at, pay29_at, pay30_at, pay31_at, pay32_at, pay33_eq, pay19_at, pay20_at, pay21_at, pay22_at, pay23_at, pay24_at, pay25_at, pay26_at, pay27_at, pay17_at, pay16_at, pay3_at, pay4_at, pay5_at, pay6_at, pay7_at, pay8_at, pay9_at, pay10_at, pay12_at, pay13_at, pay14_at, pay15_at]
    rfl
  | ⟨2, _⟩ =>
    rw [pick2]
    simp only [pay35_at, pay36_at, pay37_at, pay38_at, pay34_at, pay29_at, pay30_at, pay31_at, pay32_at, pay33_eq, pay19_at, pay20_at, pay21_at, pay22_at, pay23_at, pay24_at, pay25_at, pay26_at, pay27_at, pay17_at, pay16_at, pay3_at, pay4_at, pay5_at, pay6_at, pay7_at, pay8_at, pay9_at, pay10_at, pay12_at, pay13_at, pay14_at, pay15_at]
    rfl
  | ⟨3, _⟩ =>
    rw [pick3]
    simp only [pay35_at, pay36_at, pay37_at, pay38_at, pay34_at, pay29_at, pay30_at, pay31_at, pay32_at, pay33_eq, pay19_at, pay20_at, pay21_at, pay22_at, pay23_at, pay24_at, pay25_at, pay26_at, pay27_at, pay17_at, pay16_at, pay3_at, pay4_at, pay5_at, pay6_at, pay7_at, pay8_at, pay9_at, pay10_at, pay12_at, pay13_at, pay14_at, pay15_at]
    rfl
  | ⟨4, _⟩ =>
    rw [pick4]
    simp only [pay35_at, pay36_at, pay37_at, pay38_at, pay34_at, pay29_at, pay30_at, pay31_at, pay32_at, pay33_eq, pay19_at, pay20_at, pay21_at, pay22_at, pay23_at, pay24_at, pay25_at, pay26_at, pay27_at, pay17_at, pay16_at, pay3_at, pay4_at, pay5_at, pay6_at, pay7_at, pay8_at, pay9_at, pay10_at, pay12_at, pay13_at, pay14_at, pay15_at]
    rfl
  | ⟨5, _⟩ =>
    rw [pick5]
    simp only [pay35_at, pay36_at, pay37_at, pay38_at, pay34_at, pay29_at, pay30_at, pay31_at, pay32_at, pay33_eq, pay19_at, pay20_at, pay21_at, pay22_at, pay23_at, pay24_at, pay25_at, pay26_at, pay27_at, pay17_at, pay16_at, pay3_at, pay4_at, pay5_at, pay6_at, pay7_at, pay8_at, pay9_at, pay10_at, pay12_at, pay13_at, pay14_at, pay15_at]
    rfl
  | ⟨6, _⟩ =>
    rw [pick6]
    simp only [pay35_at, pay36_at, pay37_at, pay38_at, pay34_at, pay29_at, pay30_at, pay31_at, pay32_at, pay33_eq, pay19_at, pay20_at, pay21_at, pay22_at, pay23_at, pay24_at, pay25_at, pay26_at, pay27_at, pay17_at, pay16_at, pay3_at, pay4_at, pay5_at, pay6_at, pay7_at, pay8_at, pay9_at, pay10_at, pay12_at, pay13_at, pay14_at, pay15_at]
    rfl
  | ⟨7, _⟩ =>
    rw [pick7]
    simp only [pay35_at, pay36_at, pay37_at, pay38_at, pay34_at, pay29_at, pay30_at, pay31_at, pay32_at, pay33_eq, pay19_at, pay20_at, pay21_at, pay22_at, pay23_at, pay24_at, pay25_at, pay26_at, pay27_at, pay17_at, pay16_at, pay3_at, pay4_at, pay5_at, pay6_at, pay7_at, pay8_at, pay9_at, pay10_at, pay12_at, pay13_at, pay14_at, pay15_at]
    rfl
  | ⟨_ + 8, hlt⟩ => exact absurd hlt (by omega)

/-! ## The arrays the windows read, as the launch finds them -/

/-- The scale row's vector: `logistic a * 0.1`, spelt as the host spells it. -/
def scaleK (a : S128.Idx → EReal) : S128.Idx → EReal :=
  mulf (F := Ideal) (φ := .f32) (Host.divf (broadcastInDim S128 ![] Facts₀.bcast_S_S128 (constant (F := Ideal) S_ .f32 0x3F800000#32))
      (addf (broadcastInDim S128 ![] Facts₀.bcast_S_S128 (constant (F := Ideal) S_ .f32 0x3F800000#32)) (Host.exp (Host.negf a))))
    (broadcastInDim S128 ![] Facts₀.bcast_S_S128 (constant (F := Ideal) S_ .f32 0x3DCCCCCD#32))

/-- The connectivity with its diagonal masked out: `nc * (1 - [i = j])`, spelt as the host spells it. -/
def maskK (nc : S128x128.Idx → EReal) : S128x128.Idx → EReal :=
  mulf (F := Ideal) (φ := .f32) nc (subf (broadcastInDim S128x128 ![] Facts₀.bcast_S_S128x128 (constant (F := Ideal) S_ .f32 0x3F800000#32))
    (uitofp .f32 (cmpi .eq (addi (iotaInDim S128x128 32 0) (broadcastInDim S128x128 ![] Facts₀.bcast_S_S128x128 (constantI S_ 32 0#32)))
      (iotaInDim S128x128 32 1))))

variable (m : (ℓ : Loc nD τ sig) → Buf (Elt Ideal) ℓ) (ρ : Dev nD → PrngReg)

theorem V_gain (c : Dev nD) : (V m c main_v9 : S1x128.Idx → EReal)
    = shapeCast S1x128 ((m ((c : Thread nD τ).loc main_arg6)) : S128.Idx → EReal) Facts₀.shapeCasts_S128_S1x128 := by
  dsimp only [Gen.V, Gen.hostOps0]; after_results <;> rfl

theorem V_coupling (c : Dev nD) : (V m c main_v10 : S12x128.Idx → EReal)
    = transpose S12x128 [1, 0] ((m ((c : Thread nD τ).loc main_arg3)) : S128x12.Idx → EReal) Facts₀.transposes_S128x12_S12x128_1_0 := by
  dsimp only [Gen.V, Gen.hostOps0]; after_results <;> rfl

theorem V_time (c : Dev nD) : (V m c main_v11 : S4x128.Idx → EReal)
    = transpose S4x128 [1, 0] ((m ((c : Thread nD τ).loc main_arg4)) : S128x4.Idx → EReal) Facts₀.transposes_S128x4_S4x128_1_0 := by
  dsimp only [Gen.V, Gen.hostOps0]; after_results <;> rfl

theorem V_scale (c : Dev nD) : (V m c main_v8 : S1x128.Idx → EReal)
    = shapeCast S1x128 (scaleK ((m ((c : Thread nD τ).loc main_arg5)) : S128.Idx → EReal)) Facts₀.shapeCasts_S128_S1x128 := by
  dsimp only [Gen.V, Gen.hostOps0]; after_results <;> rfl

theorem V_mask (c : Dev nD) : (V m c main_v22 : S128x128.Idx → EReal)
    = truncf (F := Ideal) .bf16 (transpose S128x128 [1, 0] (maskK ((m ((c : Thread nD τ).loc main_arg2)) : S128x128.Idx → EReal))
        Facts₀.transposes_S128x128_S128x128_1_0) Facts₀.bitsLt_bf16_f32 := by
  dsimp only [Gen.V, Gen.hostOps0]; after_results <;> rfl

/-! ## Each window's block at a point -/

/-- The printed index maps over the grid: the state and the result move one block of rows per point, the
    parameter windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 128 := by
  have h := t.isLt
  have hN : cfg0.N = 128 := N_0
  omega

/-- Row `b` of point `t`'s block is row `256 t + b` of the array. -/
abbrev rowOf (t : Fin cfg0.N) (b : Fin 256) : Fin 32768 := ⟨t.val * 256 + b.val, by have := t_lt t; omega⟩

theorem blk_state (c : Dev nD) (t : Fin cfg0.N) (b : Fin 256) (cc : Fin 1024) :
    (iblk m c 0 t : Vec Ideal S256x1024 .f32) (ix2 b cc)
      = ((m ((c : Thread nD τ).loc main_arg1)) : S32768x1024.Idx → EReal) (ix2 (rowOf t b) cc) := by
  obtain ⟨e0, e1, -⟩ := idx_facts t
  unfold iblk
  rw [View.read_apply]
  show V m c main_arg1 _ = _
  rw [V_main_arg1]
  congr 1
  funext a
  apply Fin.ext
  match a with
  | ⟨0, _⟩ => show win0_0.index t (0 : Fin 2) * 256 + 1 * b.val = t.val * 256 + b.val; rw [e0]; omega
  | ⟨1, _⟩ => show win0_0.index t (1 : Fin 2) * 1024 + 1 * cc.val = cc.val; rw [e1]; omega

theorem blk_gain (c : Dev nD) (t : Fin cfg0.N) (n : Fin 128) :
    (iblk m c 1 t : Vec Ideal S1x128 .f32) (ix2 (0 : Fin 1) n) = ((m ((c : Thread nD τ).loc main_arg6)) : S128.Idx → EReal) (ix1 n) := by
  obtain ⟨-, -, e0, e1, -⟩ := idx_facts t
  unfold iblk
  rw [View.read_apply]
  show (V m c main_v9 : S1x128.Idx → EReal) _ = _
  rw [V_gain]
  refine Eq.trans (congrArg _ ?_) (shapeCast_a_1a_apply _ _ (0 : Fin 1) n)
  funext a
  apply Fin.ext
  match a with
  | ⟨0, _⟩ => show win0_1.index t (0 : Fin 2) * 1 + 1 * 0 = 0; rw [e0]
  | ⟨1, _⟩ => show win0_1.index t (1 : Fin 2) * 128 + 1 * n.val = n.val; rw [e1]; omega

theorem blk_coupling (c : Dev nD) (t : Fin cfg0.N) (q : Fin 12) (n : Fin 128) :
    (iblk m c 2 t : Vec Ideal S12x128 .f32) (ix2 q n) = ((m ((c : Thread nD τ).loc main_arg3)) : S128x12.Idx → EReal) (ix2 n q) := by
  obtain ⟨-, -, -, -, e0, e1, -⟩ := idx_facts t
  unfold iblk
  rw [View.read_apply]
  show (V m c main_v10 : S12x128.Idx → EReal) _ = _
  rw [V_coupling]
  refine Eq.trans (congrArg _ ?_) (transpose_ix2_apply _ _ q n)
  funext a
  apply Fin.ext
  match a with
  | ⟨0, _⟩ => show win0_2.index t (0 : Fin 2) * 12 + 1 * q.val = q.val; rw [e0]; omega
  | ⟨1, _⟩ => show win0_2.index t (1 : Fin 2) * 128 + 1 * n.val = n.val; rw [e1]; omega

theorem blk_time (c : Dev nD) (t : Fin cfg0.N) (q : Fin 4) (n : Fin 128) :
    (iblk m c 3 t : Vec Ideal S4x128 .f32) (ix2 q n) = ((m ((c : Thread nD τ).loc main_arg4)) : S128x4.Idx → EReal) (ix2 n q) := by
  obtain ⟨-, -, -, -, -, -, e0, e1, -⟩ := idx_facts t
  unfold iblk
  rw [View.read_apply]
  show (V m c main_v11 : S4x128.Idx → EReal) _ = _
  rw [V_time]
  refine Eq.trans (congrArg _ ?_) (transpose_ix2_apply _ _ q n)
  funext a
  apply Fin.ext
  match a with
  | ⟨0, _⟩ => show win0_3.index t (0 : Fin 2) * 4 + 1 * q.val = q.val; rw [e0]; omega
  | ⟨1, _⟩ => show win0_3.index t (1 : Fin 2) * 128 + 1 * n.val = n.val; rw [e1]; omega

theorem blk_scale (c : Dev nD) (t : Fin cfg0.N) (n : Fin 128) :
    (iblk m c 4 t : Vec Ideal S1x128 .f32) (ix2 (0 : Fin 1) n)
      = scaleK ((m ((c : Thread nD τ).loc main_arg5)) : S128.Idx → EReal) (ix1 n) := by
  obtain ⟨-, -, -, -, -, -, -, -, e0, e1, -⟩ := idx_facts t
  unfold iblk
  rw [View.read_apply]
  show (V m c main_v8 : S1x128.Idx → EReal) _ = _
  rw [V_scale]
  refine Eq.trans (congrArg _ ?_) (shapeCast_a_1a_apply _ _ (0 : Fin 1) n)
  funext a
  apply Fin.ext
  match a with
  | ⟨0, _⟩ => show win0_4.index t (0 : Fin 2) * 1 + 1 * 0 = 0; rw [e0]
  | ⟨1, _⟩ => show win0_4.index t (1 : Fin 2) * 128 + 1 * n.val = n.val; rw [e1]; omega

theorem blk_mask (c : Dev nD) (t : Fin cfg0.N) (j n : Fin 128) :
    (iblk m c 5 t : Vec Ideal S128x128 .bf16) (ix2 j n)
      = maskK ((m ((c : Thread nD τ).loc main_arg2)) : S128x128.Idx → EReal) (ix2 n j) := by
  obtain ⟨-, -, -, -, -, -, -, -, -, -, e0, e1, -⟩ := idx_facts t
  unfold iblk
  rw [View.read_apply]
  show (V m c main_v22 : S128x128.Idx → EReal) _ = _
  rw [V_mask]
  refine Eq.trans (congrArg _ ?_) (transpose_ix2_apply (maskK _) _ j n)
  funext a
  apply Fin.ext
  match a with
  | ⟨0, _⟩ => show win0_5.index t (0 : Fin 2) * 128 + 1 * j.val = j.val; rw [e0]; omega
  | ⟨1, _⟩ => show win0_5.index t (1 : Fin 2) * 128 + 1 * n.val = n.val; rw [e1]; omega

/-! ## What a point writes back, the cover, the array -/

/-- The result array the kernel ends with, as one function of the argument arrays. -/
def result (c : Dev nD) : S32768x1024.Idx → EReal :=
  G ((m ((c : Thread nD τ).loc main_arg1)) : S32768x1024.Idx → EReal) (maskK ((m ((c : Thread nD τ).loc main_arg2)) : S128x128.Idx → EReal))
    ((m ((c : Thread nD τ).loc main_arg3)) : S128x12.Idx → EReal) ((m ((c : Thread nD τ).loc main_arg4)) : S128x4.Idx → EReal)
    (scaleK ((m ((c : Thread nD τ).loc main_arg5)) : S128.Idx → EReal)) ((m ((c : Thread nD τ).loc main_arg6)) : S128.Idx → EReal)

theorem flushed_eq (c : Dev nD) (t : Fin cfg0.N) :
    (dats m 0 c).flushed 6 t = ((cfg0.win 6).blk t).view.read (Elt Ideal) (result m c) := by
  rw [Cert.KernelIdeal.Value.flushed6]
  obtain ⟨-, -, -, -, -, -, -, -, -, -, -, -, e0, e1⟩ := idx_facts t
  funext y
  obtain ⟨b, cc, rfl⟩ : ∃ (b : Fin 256) (cc : Fin 1024), y = ix2 b cc := ⟨y 0, y 1, eq_ix2 y⟩
  show out0_6 (iblk m c 0 t) (iblk m c 1 t) (iblk m c 2 t) (iblk m c 3 t) (iblk m c 4 t) (iblk m c 5 t) (ix2 b cc)
    = result m c (((cfg0.win 6).blk t).view.emb (ix2 b cc))
  have hemb : ((cfg0.win 6).blk t).view.emb (ix2 b cc) = (ix2 (rowOf t b) cc : S32768x1024.Idx) := by
    funext a
    apply Fin.ext
    match a with
    | ⟨0, _⟩ => show win0_6.index t (0 : Fin 2) * 256 + 1 * b.val = t.val * 256 + b.val; rw [e0]; omega
    | ⟨1, _⟩ => show win0_6.index t (1 : Fin 2) * 1024 + 1 * cc.val = cc.val; rw [e1]; omega
  rw [hemb, ← col_nodeOf_chanOf cc, out_at]
  unfold result
  rw [G_apply]
  unfold G3
  simp only [blk_state, blk_gain, blk_coupling, blk_time, blk_scale, blk_mask]

theorem mem_blk (t : Fin cfg0.N) (i : S32768x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v23).slice (win0_6.rect t)).set ↔ _
  rw [View.set_slice_whole, Rect.mem_set_unit]
  exact Iff.rfl

/-- Every row of the array lies in the block of the point `row / 256`. -/
theorem cover (i : S32768x1024.Idx) : ∃ t : Fin cfg0.N, (cfg0.win 6).flush t = true ∧ i ∈ ((cfg0.win 6).blk t).view.set := by
  have hi0 : (i 0).val < 32768 := (i 0).isLt
  have hi1 : (i 1).val < 1024 := (i 1).isLt
  let t : Fin cfg0.N := ⟨(i 0).val / 256, by rw [show cfg0.N = 128 from N_0]; omega⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 256 ≤ (i 0).val ∧ (i 0).val < win0_6.index t (0 : Fin 2) * 256 + 256
    rw [e0]; show (i 0).val / 256 * 256 ≤ (i 0).val ∧ (i 0).val < (i 0).val / 256 * 256 + 256; omega
  | ⟨1, _⟩ =>
    show win0_6.index t (1 : Fin 2) * 1024 ≤ (i 1).val ∧ (i 1).val < win0_6.index t (1 : Fin 2) * 1024 + 1024
    rw [e1]; omega

theorem final (c : Dev nD) : (dats m 0 c).arrAt 6 cfg0.N = result m c :=
  (dats m 0 c).arrAt_eq_of_cover 6 (result m c) (fun t _ => flushed_eq m c t) cover

/-- The kernel's run, with its result array named. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KVal

end
-- ==== Proof.RefValue.lean ====
/-
  What the reference computes, read entry by entry.

  The reference's program is a sequence of named stages, each a function of the argument arrays. The lemmas read
  them at an index: the clipped state as (row, node, channel); the activation of every channel; the mean activity
  and the node input (a sum over the contracted axis); the parameter columns spread along the rows; each of the
  eight output channels; and the final join of the eight channels into a row of 1024 columns.
-/
import proofs.«101920_j23278722745130_2_alg».proof.Proof.ReadP
import proofs.«101920_j23278722745130_2_alg».proof.Proof.Spec
import proofs.«101920_j23278722745130_2_alg».proof.Proof.Relayout
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.RefVal

open Idealize.ShloMosaic Idealize.ShloMosaic.ValueIdx Cert.ReferenceIdeal Cert.ReferenceIdeal.Gen Cert.ReferenceIdeal.ReadP
open Cert.ReferenceIdeal.Facts₀ Cert.Spec Cert.Relayout

/-! ## The clipped state, the gains, the activations -/

theorem v0_at (x1 : (⟨S32768x1024, .f32⟩ : BufTy).Contents (Elt Ideal)) (i : S32768x1024.Idx) : val_main_v0 (F := Ideal) x1 i = clip (x1 i) := by
  rw [val_main_v0_apply, val_main_call0_v4_apply, val_main_call0_v3_apply, val_main_cst_0_apply, val_main_call0_v2_apply,
    val_main_call0_v1_apply, val_main_call0_v0_apply, val_main_cst_apply]
  rfl

theorem v1_at (x1 : (⟨S32768x1024, .f32⟩ : BufTy).Contents (Elt Ideal)) (r : Fin 32768) (n : Fin 128) (k : Fin 8) :
    val_main_v1 (F := Ideal) x1 (ix3 r n k) = clip (x1 (ix2 r (col n k))) := by
  unfold val_main_v1
  exact (cast_split _ _ r n k).trans (v0_at x1 _)

theorem v3_at (x6 : (⟨S128, .f32⟩ : BufTy).Contents (Elt Ideal)) (r : Fin 32768) (n : Fin 128) (k : Fin 8) : val_main_v3 (F := Ideal) x6 (ix3 r n k) = x6 (ix1 n) := by
  unfold val_main_v3 val_main_v2
  exact spread_nodes _ _ _ r n k

theorem v12_at (x1 : (⟨S32768x1024, .f32⟩ : BufTy).Contents (Elt Ideal)) (x6 : (⟨S128, .f32⟩ : BufTy).Contents (Elt Ideal)) (r : Fin 32768) (n : Fin 128) (k : Fin 8) :
    val_main_v12 (F := Ideal) x1 x6 (ix3 r n k) = act (x6 (ix1 n)) (clip (x1 (ix2 r (col n k)))) := by
  have e : val_main_v12 (F := Ideal) x1 x6 (ix3 r n k)
      = Ideal.div (Ideal.ofBits .f32 0x3F800000#32) (Ideal.ofBits .f32 0x3F800000#32
          + Ideal.exp (-(val_main_v3 (F := Ideal) x6 (ix3 r n k) * val_main_v1 (F := Ideal) x1 (ix3 r n k)))) - half := by
    rw [val_main_v12_apply, val_main_v10_apply, val_main_v9_apply, val_main_cst_2_apply, val_main_v8_apply, val_main_v7_apply,
      val_main_cst_1_apply, val_main_v6_apply, val_main_v5_apply, val_main_v4_apply, val_main_v11_apply, val_main_cst_3_apply]
    rfl
  rw [e, v3_at, v1_at, logistic_spelt]
  rfl

/-! ## The mean activity and the node input -/

theorem v15_at (x1 : (⟨S32768x1024, .f32⟩ : BufTy).Contents (Elt Ideal)) (r : Fin 32768) (j : Fin 128) :
    val_main_v15 (F := Ideal) x1 (ix2 r j) = mean8 (fun k' => clip (x1 (ix2 r (col j k')))) := by
  rw [val_main_v15_apply, val_main_v14_apply, val_main_cst_5_apply, val_main_v13_apply, val_main_cst_4_apply]
  have hs : ∀ k : Fin 8, val_main_v1 (F := Ideal) x1 (idx_main_v13 (ix2 r j) k) = clip (x1 (ix2 r (col j k))) := fun k => by
    have hi : idx_main_v13 (ix2 r j) k = ix3 r j k :=
      funext fun a => Fin.ext (by match a with | ⟨0, _⟩ => rfl | ⟨1, _⟩ => rfl | ⟨2, _⟩ => rfl)
    rw [hi, v1_at]
  simp only [hs]
  show Ideal.div (Ideal.ofBits .f32 0x00000000#32 + ∑ k : Fin 8, clip (x1 (ix2 r (col j k))))
    (Ideal.ofBits .f32 0x41000000#32) = _
  rw [div_eight]
  exact congrArg (fun s : EReal => s * eighth) (sum8 (fun k => clip (x1 (ix2 r (col j k)))))

theorem v25_at (x1 : (⟨S32768x1024, .f32⟩ : BufTy).Contents (Elt Ideal)) (x2 : (⟨S128x128, .f32⟩ : BufTy).Contents (Elt Ideal)) (r : Fin 32768) (n : Fin 128) :
    val_main_v25 (F := Ideal) x1 x2 (ix2 r n)
      = ∑ j : Fin 128, mean8 (fun k' => clip (x1 (ix2 r (col j k')))) * val_main_v24 (F := Ideal) x2 (ix2 n j) := by
  rw [val_main_v25_apply]
  refine Finset.sum_congr rfl fun j _ => ?_
  have hl : lidx_main_v25 (ix2 r n) j = ix2 r j :=
    funext fun a => Fin.ext (by match a with | ⟨0, _⟩ => rfl | ⟨1, _⟩ => rfl)
  have hr : ridx_main_v25 (ix2 r n) j = ix2 n j :=
    funext fun a => Fin.ext (by match a with | ⟨0, _⟩ => rfl | ⟨1, _⟩ => rfl)
  rw [hl, hr, v15_at]

/-! ## Channels of the activation array and of the clipped state, as matrices -/

theorem s38_at (x1 : (⟨S32768x1024, .f32⟩ : BufTy).Contents (Elt Ideal)) (x6 : (⟨S128, .f32⟩ : BufTy).Contents (Elt Ideal)) (r : Fin 32768) (n : Fin 128) :
    val_main_v38 (F := Ideal) x1 x6 (ix2 r n) = act (x6 (ix1 n)) (clip (x1 (ix2 r (col n 0)))) := by
  unfold val_main_v38 val_main_v37
  exact (col_cut 0 _ _ _ r n 0 rfl).trans (v12_at x1 x6 r n 0)

theorem s45_at (x1 : (⟨S32768x1024, .f32⟩ : BufTy).Contents (Elt Ideal)) (x6 : (⟨S128, .f32⟩ : BufTy).Contents (Elt Ideal)) (r : Fin 32768) (n : Fin 128) :
    val_main_v45 (F := Ideal) x1 x6 (ix2 r n) = act (x6 (ix1 n)) (clip (x1 (ix2 r (col n 4)))) := by
  unfold val_main_v45 val_main_v44
  exact (col_cut 4 _ _ _ r n 4 rfl).trans (v12_at x1 x6 r n 4)

theorem s53_at (x1 : (⟨S32768x1024, .f32⟩ : BufTy).Contents (Elt Ideal)) (x6 : (⟨S128, .f32⟩ : BufTy).Contents (Elt Ideal)) (r : Fin 32768) (n : Fin 128) :
    val_main_v53 (F := Ideal) x1 x6 (ix2 r n) = act (x6 (ix1 n)) (clip (x1 (ix2 r (col n 2)))) := by
  unfold val_main_v53 val_main_v52
  exact (col_cut 2 _ _ _ r n 2 rfl).trans (v12_at x1 x6 r n 2)

theorem s83_at (x1 : (⟨S32768x1024, .f32⟩ : BufTy).Contents (Elt Ideal)) (x6 : (⟨S128, .f32⟩ : BufTy).Contents (Elt Ideal)) (r : Fin 32768) (n : Fin 128) :
    val_main_v83 (F := Ideal) x1 x6 (ix2 r n) = act (x6 (ix1 n)) (clip (x1 (ix2 r (col n 0)))) := by
  unfold val_main_v83 val_main_v82
  exact (col_cut 0 _ _ _ r n 0 rfl).trans (v12_at x1 x6 r n 0)

theorem s90_at (x1 : (⟨S32768x1024, .f32⟩ : BufTy).Contents (Elt Ideal)) (x6 : (⟨S128, .f32⟩ : BufTy).Contents (Elt Ideal)) (r : Fin 32768) (n : Fin 128) :
    val_main_v90 (F := Ideal) x1 x6 (ix2 r n) = act (x6 (ix1 n)) (clip (x1 (ix2 r (col n 2)))) := by
  unfold val_main_v90 val_main_v89
  exact (col_cut 2 _ _ _ r n 2 rfl).trans (v12_at x1 x6 r n 2)

theorem s98_at (x1 : (⟨S32768x1024, .f32⟩ : BufTy).Contents (Elt Ideal)) (x6 : (⟨S128, .f32⟩ : BufTy).Contents (Elt Ideal)) (r : Fin 32768) (n : Fin 128) :
    val_main_v98 (F := Ideal) x1 x6 (ix2 r n) = act (x6 (ix1 n)) (clip (x1 (ix2 r (col n 4)))) := by
  unfold val_main_v98 val_main_v97
  exact (col_cut 4 _ _ _ r n 4 rfl).trans (v12_at x1 x6 r n 4)

theorem s128_at (x1 : (⟨S32768x1024, .f32⟩ : BufTy).Contents (Elt Ideal)) (x6 : (⟨S128, .f32⟩ : BufTy).Contents (Elt Ideal)) (r : Fin 32768) (n : Fin 128) :
    val_main_v128 (F := Ideal) x1 x6 (ix2 r n) = act (x6 (ix1 n)) (clip (x1 (ix2 r (col n 0)))) := by
  unfold val_main_v128 val_main_v127
  exact (col_cut 0 _ _ _ r n 0 rfl).trans (v12_at x1 x6 r n 0)

theorem s135_at (x1 : (⟨S32768x1024, .f32⟩ : BufTy).Contents (Elt Ideal)) (x6 : (⟨S128, .f32⟩ : BufTy).Contents (Elt Ideal)) (r : Fin 32768) (n : Fin 128) :
    val_main_v135 (F := Ideal) x1 x6 (ix2 r n) = act (x6 (ix1 n)) (clip (x1 (ix2 r (col n 6)))) := by
  unfold val_main_v135 val_main_v134
  exact (col_cut 6 _ _ _ r n 6 rfl).trans (v12_at x1 x6 r n 6)

theorem s143_at (x1 : (⟨S32768x1024, .f32⟩ : BufTy).Contents (Elt Ideal)) (x6 : (⟨S128, .f32⟩ : BufTy).Contents (Elt Ideal)) (r : Fin 32768) (n : Fin 128) :
    val_main_v143 (F := Ideal) x1 x6 (ix2 r n) = act (x6 (ix1 n)) (clip (x1 (ix2 r (col n 4)))) := by
  unfold val_main_v143 val_main_v142
  exact (col_cut 4 _ _ _ r n 4 rfl).trans (v12_at x1 x6 r n 4)

theorem s151_at (x1 : (⟨S32768x1024, .f32⟩ : BufTy).Contents (Elt Ideal)) (x6 : (⟨S128, .f32⟩ : BufTy).Contents (Elt Ideal)) (r : Fin 32768) (n : Fin 128) :
    val_main_v151 (F := Ideal) x1 x6 (ix2 r n) = act (x6 (ix1 n)) (clip (x1 (ix2 r (col n 2)))) := by
  unfold val_main_v151 val_main_v150
  exact (col_cut 2 _ _ _ r n 2 rfl).trans (v12_at x1 x6 r n 2)

theorem s182_at (x1 : (⟨S32768x1024, .f32⟩ : BufTy).Contents (Elt Ideal)) (x6 : (⟨S128, .f32⟩ : BufTy).Contents (Elt Ideal)) (r : Fin 32768) (n : Fin 128) :
    val_main_v182 (F := Ideal) x1 x6 (ix2 r n) = act (x6 (ix1 n)) (clip (x1 (ix2 r (col n 6)))) := by
  unfold val_main_v182 val_main_v181
  exact (col_cut 6 _ _ _ r n 6 rfl).trans (v12_at x1 x6 r n 6)

theorem s189_at (x1 : (⟨S32768x1024, .f32⟩ : BufTy).Contents (Elt Ideal)) (x6 : (⟨S128, .f32⟩ : BufTy).Contents (Elt Ideal)) (r : Fin 32768) (n : Fin 128) :
    val_main_v189 (F := Ideal) x1 x6 (ix2 r n) = act (x6 (ix1 n)) (clip (x1 (ix2 r (col n 4)))) := by
  unfold val_main_v189 val_main_v188
  exact (col_cut 4 _ _ _ r n 4 rfl).trans (v12_at x1 x6 r n 4)

theorem c60_at (x1 : (⟨S32768x1024, .f32⟩ : BufTy).Contents (Elt Ideal)) (r : Fin 32768) (n : Fin 128) :
    val_main_v60 (F := Ideal) x1 (ix2 r n) = clip (x1 (ix2 r (col n 1))) := by
  unfold val_main_v60 val_main_v59
  exact (col_cut 1 _ _ _ r n 1 rfl).trans (v1_at x1 r n 1)

theorem c65_at (x1 : (⟨S32768x1024, .f32⟩ : BufTy).Contents (Elt Ideal)) (r : Fin 32768) (n : Fin 128) :
    val_main_v65 (F := Ideal) x1 (ix2 r n) = clip (x1 (ix2 r (col n 0))) := by
  unfold val_main_v65 val_main_v64
  exact (col_cut 0 _ _ _ r n 0 rfl).trans (v1_at x1 r n 0)

theorem c105_at (x1 : (⟨S32768x1024, .f32⟩ : BufTy).Contents (Elt Ideal)) (r : Fin 32768) (n : Fin 128) :
    val_main_v105 (F := Ideal) x1 (ix2 r n) = clip (x1 (ix2 r (col n 3))) := by
  unfold val_main_v105 val_main_v104
  exact (col_cut 3 _ _ _ r n 3 rfl).trans (v1_at x1 r n 3)

theorem c110_at (x1 : (⟨S32768x1024, .f32⟩ : BufTy).Contents (Elt Ideal)) (r : Fin 32768) (n : Fin 128) :
    val_main_v110 (F := Ideal) x1 (ix2 r n) = clip (x1 (ix2 r (col n 2))) := by
  unfold val_main_v110 val_main_v109
  exact (col_cut 2 _ _ _ r n 2 rfl).trans (v1_at x1 r n 2)

theorem c158_at (x1 : (⟨S32768x1024, .f32⟩ : BufTy).Contents (Elt Ideal)) (r : Fin 32768) (n : Fin 128) :
    val_main_v158 (F := Ideal) x1 (ix2 r n) = clip (x1 (ix2 r (col n 5))) := by
  unfold val_main_v158 val_main_v157
  exact (col_cut 5 _ _ _ r n 5 rfl).trans (v1_at x1 r n 5)

theorem c163_at (x1 : (⟨S32768x1024, .f32⟩ : BufTy).Contents (Elt Ideal)) (r : Fin 32768) (n : Fin 128) :
    val_main_v163 (F := Ideal) x1 (ix2 r n) = clip (x1 (ix2 r (col n 4))) := by
  unfold val_main_v163 val_main_v162
  exact (col_cut 4 _ _ _ r n 4 rfl).trans (v1_at x1 r n 4)

theorem c196_at (x1 : (⟨S32768x1024, .f32⟩ : BufTy).Contents (Elt Ideal)) (r : Fin 32768) (n : Fin 128) :
    val_main_v196 (F := Ideal) x1 (ix2 r n) = clip (x1 (ix2 r (col n 7))) := by
  unfold val_main_v196 val_main_v195
  exact (col_cut 7 _ _ _ r n 7 rfl).trans (v1_at x1 r n 7)

theorem c201_at (x1 : (⟨S32768x1024, .f32⟩ : BufTy).Contents (Elt Ideal)) (r : Fin 32768) (n : Fin 128) :
    val_main_v201 (F := Ideal) x1 (ix2 r n) = clip (x1 (ix2 r (col n 6))) := by
  unfold val_main_v201 val_main_v200
  exact (col_cut 6 _ _ _ r n 6 rfl).trans (v1_at x1 r n 6)

theorem c217_at (x1 : (⟨S32768x1024, .f32⟩ : BufTy).Contents (Elt Ideal)) (r : Fin 32768) (n : Fin 128) :
    val_main_v217 (F := Ideal) x1 (ix2 r n) = clip (x1 (ix2 r (col n 1))) := by
  unfold val_main_v217 val_main_v216
  exact (col_cut 1 _ _ _ r n 1 rfl).trans (v1_at x1 r n 1)

theorem c222_at (x1 : (⟨S32768x1024, .f32⟩ : BufTy).Contents (Elt Ideal)) (r : Fin 32768) (n : Fin 128) :
    val_main_v222 (F := Ideal) x1 (ix2 r n) = clip (x1 (ix2 r (col n 3))) := by
  unfold val_main_v222 val_main_v221
  exact (col_cut 3 _ _ _ r n 3 rfl).trans (v1_at x1 r n 3)

theorem c227_at (x1 : (⟨S32768x1024, .f32⟩ : BufTy).Contents (Elt Ideal)) (r : Fin 32768) (n : Fin 128) :
    val_main_v227 (F := Ideal) x1 (ix2 r n) = clip (x1 (ix2 r (col n 5))) := by
  unfold val_main_v227 val_main_v226
  exact (col_cut 5 _ _ _ r n 5 rfl).trans (v1_at x1 r n 5)

theorem c232_at (x1 : (⟨S32768x1024, .f32⟩ : BufTy).Contents (Elt Ideal)) (r : Fin 32768) (n : Fin 128) :
    val_main_v232 (F := Ideal) x1 (ix2 r n) = clip (x1 (ix2 r (col n 7))) := by
  unfold val_main_v232 val_main_v231
  exact (col_cut 7 _ _ _ r n 7 rfl).trans (v1_at x1 r n 7)

/-! ## The parameters spread along the rows -/

theorem g40_at (x3 : (⟨S128x12, .f32⟩ : BufTy).Contents (Elt Ideal)) (r : Fin 32768) (n : Fin 128) :
    val_main_v40 (F := Ideal) x3 (ix2 r n) = -(x3 (ix2 n (0 : Fin 12))) := by
  unfold val_main_v40 val_main_v39 val_main_v36 val_main_v35 val_main_v34
  exact (spread_rows _ _ _ r n).trans (congrArg (fun z : EReal => -z) (param_col 0 _ _ _ n 0 rfl))

theorem g47_at (x3 : (⟨S128x12, .f32⟩ : BufTy).Contents (Elt Ideal)) (r : Fin 32768) (n : Fin 128) :
    val_main_v47 (F := Ideal) x3 (ix2 r n) = x3 (ix2 n (2 : Fin 12)) := by
  unfold val_main_v47 val_main_v46 val_main_v43 val_main_v42
  exact (spread_rows _ _ _ r n).trans (param_col 2 _ _ _ n 2 rfl)

theorem g55_at (x3 : (⟨S128x12, .f32⟩ : BufTy).Contents (Elt Ideal)) (r : Fin 32768) (n : Fin 128) :
    val_main_v55 (F := Ideal) x3 (ix2 r n) = x3 (ix2 n (1 : Fin 12)) := by
  unfold val_main_v55 val_main_v54 val_main_v51 val_main_v50
  exact (spread_rows _ _ _ r n).trans (param_col 1 _ _ _ n 1 rfl)

theorem g85_at (x3 : (⟨S128x12, .f32⟩ : BufTy).Contents (Elt Ideal)) (r : Fin 32768) (n : Fin 128) :
    val_main_v85 (F := Ideal) x3 (ix2 r n) = x3 (ix2 n (7 : Fin 12)) := by
  unfold val_main_v85 val_main_v84 val_main_v81 val_main_v80
  exact (spread_rows _ _ _ r n).trans (param_col 7 _ _ _ n 7 rfl)

theorem g92_at (x3 : (⟨S128x12, .f32⟩ : BufTy).Contents (Elt Ideal)) (r : Fin 32768) (n : Fin 128) :
    val_main_v92 (F := Ideal) x3 (ix2 r n) = x3 (ix2 n (6 : Fin 12)) := by
  unfold val_main_v92 val_main_v91 val_main_v88 val_main_v87
  exact (spread_rows _ _ _ r n).trans (param_col 6 _ _ _ n 6 rfl)

theorem g100_at (x3 : (⟨S128x12, .f32⟩ : BufTy).Contents (Elt Ideal)) (r : Fin 32768) (n : Fin 128) :
    val_main_v100 (F := Ideal) x3 (ix2 r n) = x3 (ix2 n (11 : Fin 12)) := by
  unfold val_main_v100 val_main_v99 val_main_v96 val_main_v95
  exact (spread_rows _ _ _ r n).trans (param_col 11 _ _ _ n 11 rfl)

theorem g130_at (x3 : (⟨S128x12, .f32⟩ : BufTy).Contents (Elt Ideal)) (r : Fin 32768) (n : Fin 128) :
    val_main_v130 (F := Ideal) x3 (ix2 r n) = x3 (ix2 n (4 : Fin 12)) := by
  unfold val_main_v130 val_main_v129 val_main_v126 val_main_v125
  exact (spread_rows _ _ _ r n).trans (param_col 4 _ _ _ n 4 rfl)

theorem g137_at (x3 : (⟨S128x12, .f32⟩ : BufTy).Contents (Elt Ideal)) (r : Fin 32768) (n : Fin 128) :
    val_main_v137 (F := Ideal) x3 (ix2 r n) = x3 (ix2 n (5 : Fin 12)) := by
  unfold val_main_v137 val_main_v136 val_main_v133 val_main_v132
  exact (spread_rows _ _ _ r n).trans (param_col 5 _ _ _ n 5 rfl)

theorem g145_at (x3 : (⟨S128x12, .f32⟩ : BufTy).Contents (Elt Ideal)) (r : Fin 32768) (n : Fin 128) :
    val_main_v145 (F := Ideal) x3 (ix2 r n) = x3 (ix2 n (3 : Fin 12)) := by
  unfold val_main_v145 val_main_v144 val_main_v141 val_main_v140
  exact (spread_rows _ _ _ r n).trans (param_col 3 _ _ _ n 3 rfl)

theorem g153_at (x3 : (⟨S128x12, .f32⟩ : BufTy).Contents (Elt Ideal)) (r : Fin 32768) (n : Fin 128) :
    val_main_v153 (F := Ideal) x3 (ix2 r n) = x3 (ix2 n (10 : Fin 12)) := by
  unfold val_main_v153 val_main_v152 val_main_v149 val_main_v148
  exact (spread_rows _ _ _ r n).trans (param_col 10 _ _ _ n 10 rfl)

theorem g184_at (x3 : (⟨S128x12, .f32⟩ : BufTy).Contents (Elt Ideal)) (r : Fin 32768) (n : Fin 128) :
    val_main_v184 (F := Ideal) x3 (ix2 r n) = -(x3 (ix2 n (9 : Fin 12))) := by
  unfold val_main_v184 val_main_v183 val_main_v180 val_main_v179 val_main_v178
  exact (spread_rows _ _ _ r n).trans (congrArg (fun z : EReal => -z) (param_col 9 _ _ _ n 9 rfl))

theorem g191_at (x3 : (⟨S128x12, .f32⟩ : BufTy).Contents (Elt Ideal)) (r : Fin 32768) (n : Fin 128) :
    val_main_v191 (F := Ideal) x3 (ix2 r n) = x3 (ix2 n (8 : Fin 12)) := by
  unfold val_main_v191 val_main_v190 val_main_v187 val_main_v186
  exact (spread_rows _ _ _ r n).trans (param_col 8 _ _ _ n 8 rfl)

theorem t69_at (x4 : (⟨S128x4, .f32⟩ : BufTy).Contents (Elt Ideal)) (r : Fin 32768) (n : Fin 128) :
    val_main_v69 (F := Ideal) x4 (ix2 r n) = x4 (ix2 n (0 : Fin 4)) := by
  unfold val_main_v69 val_main_v68 val_main_v67 val_main_v66
  exact (spread_rows _ _ _ r n).trans (param_col 0 _ _ _ n 0 rfl)

theorem t78_at (x4 : (⟨S128x4, .f32⟩ : BufTy).Contents (Elt Ideal)) (r : Fin 32768) (n : Fin 128) :
    val_main_v78 (F := Ideal) x4 (ix2 r n) = x4 (ix2 n (0 : Fin 4)) := by
  unfold val_main_v78 val_main_v77 val_main_v76 val_main_v75
  exact (spread_rows _ _ _ r n).trans (param_col 0 _ _ _ n 0 rfl)

theorem t114_at (x4 : (⟨S128x4, .f32⟩ : BufTy).Contents (Elt Ideal)) (r : Fin 32768) (n : Fin 128) :
    val_main_v114 (F := Ideal) x4 (ix2 r n) = x4 (ix2 n (1 : Fin 4)) := by
  unfold val_main_v114 val_main_v113 val_main_v112 val_main_v111
  exact (spread_rows _ _ _ r n).trans (param_col 1 _ _ _ n 1 rfl)

theorem t123_at (x4 : (⟨S128x4, .f32⟩ : BufTy).Contents (Elt Ideal)) (r : Fin 32768) (n : Fin 128) :
    val_main_v123 (F := Ideal) x4 (ix2 r n) = x4 (ix2 n (1 : Fin 4)) := by
  unfold val_main_v123 val_main_v122 val_main_v121 val_main_v120
  exact (spread_rows _ _ _ r n).trans (param_col 1 _ _ _ n 1 rfl)

theorem t167_at (x4 : (⟨S128x4, .f32⟩ : BufTy).Contents (Elt Ideal)) (r : Fin 32768) (n : Fin 128) :
    val_main_v167 (F := Ideal) x4 (ix2 r n) = x4 (ix2 n (2 : Fin 4)) := by
  unfold val_main_v167 val_main_v166 val_main_v165 val_main_v164
  exact (spread_rows _ _ _ r n).trans (param_col 2 _ _ _ n 2 rfl)

theorem t176_at (x4 : (⟨S128x4, .f32⟩ : BufTy).Contents (Elt Ideal)) (r : Fin 32768) (n : Fin 128) :
    val_main_v176 (F := Ideal) x4 (ix2 r n) = x4 (ix2 n (2 : Fin 4)) := by
  unfold val_main_v176 val_main_v175 val_main_v174 val_main_v173
  exact (spread_rows _ _ _ r n).trans (param_col 2 _ _ _ n 2 rfl)

theorem t205_at (x4 : (⟨S128x4, .f32⟩ : BufTy).Contents (Elt Ideal)) (r : Fin 32768) (n : Fin 128) :
    val_main_v205 (F := Ideal) x4 (ix2 r n) = x4 (ix2 n (3 : Fin 4)) := by
  unfold val_main_v205 val_main_v204 val_main_v203 val_main_v202
  exact (spread_rows _ _ _ r n).trans (param_col 3 _ _ _ n 3 rfl)

theorem t214_at (x4 : (⟨S128x4, .f32⟩ : BufTy).Contents (Elt Ideal)) (r : Fin 32768) (n : Fin 128) :
    val_main_v214 (F := Ideal) x4 (ix2 r n) = x4 (ix2 n (3 : Fin 4)) := by
  unfold val_main_v214 val_main_v213 val_main_v212 val_main_v211
  exact (spread_rows _ _ _ r n).trans (param_col 3 _ _ _ n 3 rfl)

theorem sc73_at (x5 : (⟨S128, .f32⟩ : BufTy).Contents (Elt Ideal)) (r : Fin 32768) (n : Fin 128) :
    val_main_v73 (F := Ideal) x5 (ix2 r n) = val_main_v33 (F := Ideal) x5 (ix1 n) := by
  unfold val_main_v73 val_main_v72
  exact spread_rows _ _ _ r n

theorem sc118_at (x5 : (⟨S128, .f32⟩ : BufTy).Contents (Elt Ideal)) (r : Fin 32768) (n : Fin 128) :
    val_main_v118 (F := Ideal) x5 (ix2 r n) = val_main_v33 (F := Ideal) x5 (ix1 n) := by
  unfold val_main_v118 val_main_v117
  exact spread_rows _ _ _ r n

theorem sc171_at (x5 : (⟨S128, .f32⟩ : BufTy).Contents (Elt Ideal)) (r : Fin 32768) (n : Fin 128) :
    val_main_v171 (F := Ideal) x5 (ix2 r n) = val_main_v33 (F := Ideal) x5 (ix1 n) := by
  unfold val_main_v171 val_main_v170
  exact spread_rows _ _ _ r n

theorem sc209_at (x5 : (⟨S128, .f32⟩ : BufTy).Contents (Elt Ideal)) (r : Fin 32768) (n : Fin 128) :
    val_main_v209 (F := Ideal) x5 (ix2 r n) = val_main_v33 (F := Ideal) x5 (ix1 n) := by
  unfold val_main_v209 val_main_v208
  exact spread_rows _ _ _ r n

theorem sc219_at (x5 : (⟨S128, .f32⟩ : BufTy).Contents (Elt Ideal)) (r : Fin 32768) (n : Fin 128) :
    val_main_v219 (F := Ideal) x5 (ix2 r n) = val_main_v33 (F := Ideal) x5 (ix1 n) := by
  unfold val_main_v219 val_main_v218
  exact spread_rows _ _ _ r n

theorem sc224_at (x5 : (⟨S128, .f32⟩ : BufTy).Contents (Elt Ideal)) (r : Fin 32768) (n : Fin 128) :
    val_main_v224 (F := Ideal) x5 (ix2 r n) = val_main_v33 (F := Ideal) x5 (ix1 n) := by
  unfold val_main_v224 val_main_v223
  exact spread_rows _ _ _ r n

theorem sc229_at (x5 : (⟨S128, .f32⟩ : BufTy).Contents (Elt Ideal)) (r : Fin 32768) (n : Fin 128) :
    val_main_v229 (F := Ideal) x5 (ix2 r n) = val_main_v33 (F := Ideal) x5 (ix1 n) := by
  unfold val_main_v229 val_main_v228
  exact spread_rows _ _ _ r n

theorem sc234_at (x5 : (⟨S128, .f32⟩ : BufTy).Contents (Elt Ideal)) (r : Fin 32768) (n : Fin 128) :
    val_main_v234 (F := Ideal) x5 (ix2 r n) = val_main_v33 (F := Ideal) x5 (ix1 n) := by
  unfold val_main_v234 val_main_v233
  exact spread_rows _ _ _ r n

theorem two61_at (r : Fin 32768) (n : Fin 128) : val_main_v61 (F := Ideal) (ix2 r n) = two := by
  rw [val_main_v61_apply, val_main_cst_10_apply]; rfl

theorem two106_at (r : Fin 32768) (n : Fin 128) : val_main_v106 (F := Ideal) (ix2 r n) = two := by
  rw [val_main_v106_apply, val_main_cst_11_apply]; rfl

theorem two159_at (r : Fin 32768) (n : Fin 128) : val_main_v159 (F := Ideal) (ix2 r n) = two := by
  rw [val_main_v159_apply, val_main_cst_12_apply]; rfl

theorem two197_at (r : Fin 32768) (n : Fin 128) : val_main_v197 (F := Ideal) (ix2 r n) = two := by
  rw [val_main_v197_apply, val_main_cst_13_apply]; rfl

/-! ## The eight output channels -/

theorem f0_at (x1 : (⟨S32768x1024, .f32⟩ : BufTy).Contents (Elt Ideal)) (x2 : (⟨S128x128, .f32⟩ : BufTy).Contents (Elt Ideal)) (x3 : (⟨S128x12, .f32⟩ : BufTy).Contents (Elt Ideal)) (x4 : (⟨S128x4, .f32⟩ : BufTy).Contents (Elt Ideal)) (x5 : (⟨S128, .f32⟩ : BufTy).Contents (Elt Ideal)) (x6 : (⟨S128, .f32⟩ : BufTy).Contents (Elt Ideal)) (r : Fin 32768) (n : Fin 128) :
    val_main_v236 (F := Ideal) x1 x5 (ix3 r n (0 : Fin 1)) = G3 x1 (val_main_v24 (F := Ideal) x2) x3 x4 (val_main_v33 (F := Ideal) x5) x6 r n ⟨0, by omega⟩ := by
  unfold val_main_v236
  refine (as_column _ _ r n 0).trans ?_
  simp only [val_main_v220_apply, sc219_at, c217_at]
  rfl

theorem f2_at (x1 : (⟨S32768x1024, .f32⟩ : BufTy).Contents (Elt Ideal)) (x2 : (⟨S128x128, .f32⟩ : BufTy).Contents (Elt Ideal)) (x3 : (⟨S128x12, .f32⟩ : BufTy).Contents (Elt Ideal)) (x4 : (⟨S128x4, .f32⟩ : BufTy).Contents (Elt Ideal)) (x5 : (⟨S128, .f32⟩ : BufTy).Contents (Elt Ideal)) (x6 : (⟨S128, .f32⟩ : BufTy).Contents (Elt Ideal)) (r : Fin 32768) (n : Fin 128) :
    val_main_v238 (F := Ideal) x1 x5 (ix3 r n (0 : Fin 1)) = G3 x1 (val_main_v24 (F := Ideal) x2) x3 x4 (val_main_v33 (F := Ideal) x5) x6 r n ⟨2, by omega⟩ := by
  unfold val_main_v238
  refine (as_column _ _ r n 0).trans ?_
  simp only [val_main_v225_apply, sc224_at, c222_at]
  rfl

theorem f4_at (x1 : (⟨S32768x1024, .f32⟩ : BufTy).Contents (Elt Ideal)) (x2 : (⟨S128x128, .f32⟩ : BufTy).Contents (Elt Ideal)) (x3 : (⟨S128x12, .f32⟩ : BufTy).Contents (Elt Ideal)) (x4 : (⟨S128x4, .f32⟩ : BufTy).Contents (Elt Ideal)) (x5 : (⟨S128, .f32⟩ : BufTy).Contents (Elt Ideal)) (x6 : (⟨S128, .f32⟩ : BufTy).Contents (Elt Ideal)) (r : Fin 32768) (n : Fin 128) :
    val_main_v240 (F := Ideal) x1 x5 (ix3 r n (0 : Fin 1)) = G3 x1 (val_main_v24 (F := Ideal) x2) x3 x4 (val_main_v33 (F := Ideal) x5) x6 r n ⟨4, by omega⟩ := by
  unfold val_main_v240
  refine (as_column _ _ r n 0).trans ?_
  simp only [val_main_v230_apply, sc229_at, c227_at]
  rfl

theorem f6_at (x1 : (⟨S32768x1024, .f32⟩ : BufTy).Contents (Elt Ideal)) (x2 : (⟨S128x128, .f32⟩ : BufTy).Contents (Elt Ideal)) (x3 : (⟨S128x12, .f32⟩ : BufTy).Contents (Elt Ideal)) (x4 : (⟨S128x4, .f32⟩ : BufTy).Contents (Elt Ideal)) (x5 : (⟨S128, .f32⟩ : BufTy).Contents (Elt Ideal)) (x6 : (⟨S128, .f32⟩ : BufTy).Contents (Elt Ideal)) (r : Fin 32768) (n : Fin 128) :
    val_main_v242 (F := Ideal) x1 x5 (ix3 r n (0 : Fin 1)) = G3 x1 (val_main_v24 (F := Ideal) x2) x3 x4 (val_main_v33 (F := Ideal) x5) x6 r n ⟨6, by omega⟩ := by
  unfold val_main_v242
  refine (as_column _ _ r n 0).trans ?_
  simp only [val_main_v235_apply, sc234_at, c232_at]
  rfl

theorem f1_at (x1 : (⟨S32768x1024, .f32⟩ : BufTy).Contents (Elt Ideal)) (x2 : (⟨S128x128, .f32⟩ : BufTy).Contents (Elt Ideal)) (x3 : (⟨S128x12, .f32⟩ : BufTy).Contents (Elt Ideal)) (x4 : (⟨S128x4, .f32⟩ : BufTy).Contents (Elt Ideal)) (x5 : (⟨S128, .f32⟩ : BufTy).Contents (Elt Ideal)) (x6 : (⟨S128, .f32⟩ : BufTy).Contents (Elt Ideal)) (r : Fin 32768) (n : Fin 128) :
    val_main_v237 (F := Ideal) x1 x2 x3 x4 x5 x6 (ix3 r n (0 : Fin 1)) = G3 x1 (val_main_v24 (F := Ideal) x2) x3 x4 (val_main_v33 (F := Ideal) x5) x6 r n ⟨1, by omega⟩ := by
  unfold val_main_v237
  refine (as_column _ _ r n 0).trans ?_
  simp only [val_main_v79_apply, val_main_v74_apply, val_main_v71_apply, val_main_v63_apply, val_main_v58_apply, val_main_v57_apply, val_main_v49_apply, val_main_v41_apply, val_main_v48_apply, val_main_v56_apply, val_main_v62_apply, val_main_v70_apply,
    sc73_at, t78_at, t69_at, g40_at, g47_at, g55_at, s38_at, s45_at, s53_at, two61_at, c60_at, c65_at, v25_at]
  rfl

theorem f3_at (x1 : (⟨S32768x1024, .f32⟩ : BufTy).Contents (Elt Ideal)) (x2 : (⟨S128x128, .f32⟩ : BufTy).Contents (Elt Ideal)) (x3 : (⟨S128x12, .f32⟩ : BufTy).Contents (Elt Ideal)) (x4 : (⟨S128x4, .f32⟩ : BufTy).Contents (Elt Ideal)) (x5 : (⟨S128, .f32⟩ : BufTy).Contents (Elt Ideal)) (x6 : (⟨S128, .f32⟩ : BufTy).Contents (Elt Ideal)) (r : Fin 32768) (n : Fin 128) :
    val_main_v239 (F := Ideal) x1 x2 x3 x4 x5 x6 (ix3 r n (0 : Fin 1)) = G3 x1 (val_main_v24 (F := Ideal) x2) x3 x4 (val_main_v33 (F := Ideal) x5) x6 r n ⟨3, by omega⟩ := by
  unfold val_main_v239
  refine (as_column _ _ r n 0).trans ?_
  simp only [val_main_v124_apply, val_main_v119_apply, val_main_v116_apply, val_main_v108_apply, val_main_v103_apply, val_main_v102_apply, val_main_v94_apply, val_main_v86_apply, val_main_v93_apply, val_main_v101_apply, val_main_v107_apply, val_main_v115_apply,
    sc118_at, t123_at, t114_at, g85_at, g92_at, g100_at, s83_at, s90_at, s98_at, two106_at, c105_at, c110_at, v25_at]
  rfl

theorem f5_at (x1 : (⟨S32768x1024, .f32⟩ : BufTy).Contents (Elt Ideal)) (x2 : (⟨S128x128, .f32⟩ : BufTy).Contents (Elt Ideal)) (x3 : (⟨S128x12, .f32⟩ : BufTy).Contents (Elt Ideal)) (x4 : (⟨S128x4, .f32⟩ : BufTy).Contents (Elt Ideal)) (x5 : (⟨S128, .f32⟩ : BufTy).Contents (Elt Ideal)) (x6 : (⟨S128, .f32⟩ : BufTy).Contents (Elt Ideal)) (r : Fin 32768) (n : Fin 128) :
    val_main_v241 (F := Ideal) x1 x2 x3 x4 x5 x6 (ix3 r n (0 : Fin 1)) = G3 x1 (val_main_v24 (F := Ideal) x2) x3 x4 (val_main_v33 (F := Ideal) x5) x6 r n ⟨5, by omega⟩ := by
  unfold val_main_v241
  refine (as_column _ _ r n 0).trans ?_
  simp only [val_main_v177_apply, val_main_v172_apply, val_main_v169_apply, val_main_v161_apply, val_main_v156_apply, val_main_v155_apply, val_main_v147_apply, val_main_v139_apply, val_main_v131_apply, val_main_v138_apply, val_main_v146_apply, val_main_v154_apply, val_main_v160_apply, val_main_v168_apply,
    sc171_at, t176_at, t167_at, g130_at, g137_at, g145_at, g153_at, s128_at, s135_at, s143_at, s151_at, two159_at, c158_at, c163_at, v25_at]
  rfl

theorem f7_at (x1 : (⟨S32768x1024, .f32⟩ : BufTy).Contents (Elt Ideal)) (x2 : (⟨S128x128, .f32⟩ : BufTy).Contents (Elt Ideal)) (x3 : (⟨S128x12, .f32⟩ : BufTy).Contents (Elt Ideal)) (x4 : (⟨S128x4, .f32⟩ : BufTy).Contents (Elt Ideal)) (x5 : (⟨S128, .f32⟩ : BufTy).Contents (Elt Ideal)) (x6 : (⟨S128, .f32⟩ : BufTy).Contents (Elt Ideal)) (r : Fin 32768) (n : Fin 128) :
    val_main_v243 (F := Ideal) x1 x2 x3 x4 x5 x6 (ix3 r n (0 : Fin 1)) = G3 x1 (val_main_v24 (F := Ideal) x2) x3 x4 (val_main_v33 (F := Ideal) x5) x6 r n ⟨7, by omega⟩ := by
  unfold val_main_v243
  refine (as_column _ _ r n 0).trans ?_
  simp only [val_main_v215_apply, val_main_v210_apply, val_main_v207_apply, val_main_v199_apply, val_main_v194_apply, val_main_v193_apply, val_main_v185_apply, val_main_v192_apply, val_main_v198_apply, val_main_v206_apply,
    sc209_at, t214_at, t205_at, g184_at, g191_at, s182_at, s189_at, two197_at, c196_at, c201_at, v25_at]
  rfl

/-! ## The result array -/

theorem ref_at (x1 : (⟨S32768x1024, .f32⟩ : BufTy).Contents (Elt Ideal)) (x2 : (⟨S128x128, .f32⟩ : BufTy).Contents (Elt Ideal)) (x3 : (⟨S128x12, .f32⟩ : BufTy).Contents (Elt Ideal)) (x4 : (⟨S128x4, .f32⟩ : BufTy).Contents (Elt Ideal)) (x5 : (⟨S128, .f32⟩ : BufTy).Contents (Elt Ideal)) (x6 : (⟨S128, .f32⟩ : BufTy).Contents (Elt Ideal)) (r : Fin 32768) (n : Fin 128) (k : Fin 8) :
    val_main_v245 (F := Ideal) x1 x2 x3 x4 x5 x6 (ix2 r (col n k)) = G3 x1 (val_main_v24 (F := Ideal) x2) x3 x4 (val_main_v33 (F := Ideal) x5) x6 r n k := by
  unfold val_main_v245 val_main_v244
  refine (cast_merge _ _ r n k).trans ?_
  refine (join_last _ _ _ _ _ _ _ _ _ r n k).trans ?_
  match k with
  | ⟨0, _⟩ => rw [pick0]; exact f0_at x1 x2 x3 x4 x5 x6 r n
  | ⟨1, _⟩ => rw [pick1]; exact f1_at x1 x2 x3 x4 x5 x6 r n
  | ⟨2, _⟩ => rw [pick2]; exact f2_at x1 x2 x3 x4 x5 x6 r n
  | ⟨3, _⟩ => rw [pick3]; exact f3_at x1 x2 x3 x4 x5 x6 r n
  | ⟨4, _⟩ => rw [pick4]; exact f4_at x1 x2 x3 x4 x5 x6 r n
  | ⟨5, _⟩ => rw [pick5]; exact f5_at x1 x2 x3 x4 x5 x6 r n
  | ⟨6, _⟩ => rw [pick6]; exact f6_at x1 x2 x3 x4 x5 x6 r n
  | ⟨7, _⟩ => rw [pick7]; exact f7_at x1 x2 x3 x4 x5 x6 r n
  | ⟨_ + 8, hlt⟩ => exact absurd hlt (by omega)

/-- The reference's result is the specified array. -/
theorem ref_eq (x1 : (⟨S32768x1024, .f32⟩ : BufTy).Contents (Elt Ideal)) (x2 : (⟨S128x128, .f32⟩ : BufTy).Contents (Elt Ideal)) (x3 : (⟨S128x12, .f32⟩ : BufTy).Contents (Elt Ideal)) (x4 : (⟨S128x4, .f32⟩ : BufTy).Contents (Elt Ideal)) (x5 : (⟨S128, .f32⟩ : BufTy).Contents (Elt Ideal)) (x6 : (⟨S128, .f32⟩ : BufTy).Contents (Elt Ideal)) :
    val_main_v245 (F := Ideal) x1 x2 x3 x4 x5 x6 = G x1 (val_main_v24 (F := Ideal) x2) x3 x4 (val_main_v33 (F := Ideal) x5) x6 := by
  funext i
  obtain ⟨r, c, rfl⟩ : ∃ (r : Fin 32768) (c : Fin 1024), i = ix2 r c := ⟨i 0, i 1, eq_ix2 i⟩
  rw [← col_nodeOf_chanOf c, ref_at, G_apply]

end Cert.RefVal

end
-- ==== Proof.lean ====
/-
  The kernel and its reference compute one function of their arguments, entry by entry, over the extended reals.

  The state has 32768 rows of 1024 entries: 128 nodes of 8 channels, the channel fastest. Both programs clip the
  state to [-100, 100], form the activations `logistic (R x) - 1/2`, the mean activity of each node and, through
  the connectivity with its diagonal masked out, the input each node receives; the even output channels are
  `scale * x`, the odd ones `scale * (u - 2 x - x' / T) / T`. They differ in four spellings, none of which
  changes a value on the extended reals: the logistic function as one operation or as `1 / (1 + exp (-x))`;
  the mean as a product with 1/8 or a quotient by 8 (1/8 is a binary fraction); the node input as a matrix
  product with the transposed connectivity or a contraction over its second axis; and `0 - g` for `-g`. The
  sums are over the same finite sets, so their order does not matter. No finiteness of the inputs is used.

  The kernel runs over a grid of 128 points, each computing 256 rows; its result array is assembled from the
  blocks the points write (KernelValue), each block read entry by entry (KernelPay); the reference's run ends with its
  last stage of the arguments (RefRun), its stages are read entry by entry in RefValue; both meet the one specification of Spec.
-/
import proofs.«101920_j23278722745130_2_alg».proof.Defs
import proofs.«101920_j23278722745130_2_alg».proof.Proof.Gen.Kernel
import proofs.«101920_j23278722745130_2_alg».proof.Proof.Gen.Kernel.Skeleton
import proofs.«101920_j23278722745130_2_alg».proof.Proof.Gen.Kernel.Launch
import proofs.«101920_j23278722745130_2_alg».proof.Proof.Gen.Kernel.Points
import proofs.«101920_j23278722745130_2_alg».proof.Proof.Gen.Kernel.Frame
import proofs.«101920_j23278722745130_2_alg».proof.Proof.Gen.KernelIdeal
import proofs.«101920_j23278722745130_2_alg».proof.Proof.Gen.KernelIdeal.Skeleton
import proofs.«101920_j23278722745130_2_alg».proof.Proof.Gen.KernelIdeal.Launch
import proofs.«101920_j23278722745130_2_alg».proof.Proof.Gen.KernelIdeal.Points
import proofs.«101920_j23278722745130_2_alg».proof.Proof.Gen.KernelIdeal.Frame
import proofs.«101920_j23278722745130_2_alg».proof.Proof.Gen.ReferenceIdeal
import proofs.«101920_j23278722745130_2_alg».proof.Proof.Gen.Pre_finite_inputs
import proofs.«101920_j23278722745130_2_alg».proof.Proof.Gen.KernelIdeal.Value
import proofs.«101920_j23278722745130_2_alg».proof.Proof.ReadP
import proofs.«101920_j23278722745130_2_alg».proof.Proof.RefRun
import proofs.«101920_j23278722745130_2_alg».proof.Proof.KernelValue
import proofs.«101920_j23278722745130_2_alg».proof.Proof.RefValue
import Idealize.ShloMosaic.Adequacy
import Idealize.ShloMosaic.Init

noncomputable section

namespace Cert.Proof

open Idealize.ShloMosaic Idealize.SL.Sem

/-- The two host-side parameter terms are spelt alike in both programs: the masked connectivity and the scale. -/
theorem mask_eq (x : Cert.KernelIdeal.S128x128.Idx → EReal) :
    Cert.ReferenceIdeal.ReadP.val_main_v24 (F := Ideal) x = Cert.KVal.maskK x := rfl

theorem scale_eq (a : Cert.KernelIdeal.S128.Idx → EReal) :
    Cert.ReferenceIdeal.ReadP.val_main_v33 (F := Ideal) a = Cert.KVal.scaleK a := rfl

/-- From memories that agree on the arguments both programs end with the specified array. -/
theorem algebraic : Cert.algebraic_KernelIdeal_ReferenceIdeal := by
  intro m ρ m' ρ' _ hagree
  refine ⟨fun c => Cert.KVal.result m c, Cert.KVal.run m ρ, ?_⟩
  refine (θ_run Cert.ReferenceIdeal.defs _ _).mono (fun _ h c => ⟨(h c).1.trans ?_, (h c).2⟩)
    (Cert.ReferenceIdeal.RefRun.run (F := Ideal) m' ρ')
  obtain ⟨-, h1, h2, h3, h4, h5, h6⟩ := hagree c
  rw [Cert.RefVal.ref_eq, h1, h2, h3, h4, h5, h6, mask_eq, scale_eq]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefRun.run (F := Ideal) m ρ),
  trivial,
  algebraic⟩

end Cert.Proof

end
